-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v61)) (v1 : (c : Dev Cert.KernelIdeal.nD) → Buf (Elt Ideal) ((c.tc : Thread Cert.KernelIdeal.nD Cert.KernelIdeal.τ).loc Cert.KernelIdeal.main_v62)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v61) = v0 c
          ∧ r.2.mem ((c.tc : Thread Cert.KernelIdeal.nD Cert.KernelIdeal.τ).loc Cert.KernelIdeal.main_v62) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v76) = v0 c
          ∧ r.2.mem ((c.tc : Thread Cert.ReferenceIdeal.nD Cert.ReferenceIdeal.τ).loc Cert.ReferenceIdeal.main_v80) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S2x800000 : Shape := ⟨2, ![2, 800000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_

variable [Facts]

def fn_part2 {F : FTy → Type} [FloatOps F] (main_arg8 : FVec F S128x64 .f32) (main_arg9 : FVec F S64 .f32) (main_v33 : IVec S_ 1) : IVec S_ 1 :=
  let main_v34 : FVec F S128x64 .f32 := Host.absf main_arg8
  let main_cst_12 : FVec F S_ .f32 := constant S_ .f32 0x7F800000#32
  let main_v35 : FVec F S128x64 .f32 := broadcastInDim S128x64 ![] bcast_S_S128x64 main_cst_12
  let main_v36 : IVec S128x64 1 := cmpf .olt main_v34 main_v35
  let main_c_13 : IVec S_ 1 := constantI S_ 1 1#1
  let main_v37 : IVec S_ 1 := (fun x v => Host.reduce IntOp.andi x v reducesTo_S128x64_S_d0_1 h_S_) main_v36 main_c_13
  let main_v38 : IVec S_ 1 := andi main_v33 main_v37
  let main_v39 : FVec F S64 .f32 := Host.absf main_arg9
  let main_cst_14 : FVec F S_ .f32 := constant S_ .f32 0x7F800000#32
  let main_v40 : FVec F S64 .f32 := broadcastInDim S64 ![] bcast_S_S64 main_cst_14
  let main_v41 : IVec S64 1 := cmpf .olt main_v39 main_v40
  let main_c_15 : IVec S_ 1 := constantI S_ 1 1#1
  let main_v42 : IVec S_ 1 := (fun x v => Host.reduce IntOp.andi x v reducesTo_S64_S_d0 h_S_) main_v41 main_c_15
  let main_v43 : IVec S_ 1 := andi main_v38 main_v42
  main_v43

def fn_part1 {F : FTy → Type} [FloatOps F] (main_arg5 : FVec F S128 .f32) (main_arg6 : FVec F S128x64 .f32) (main_arg7 : FVec F S64 .f32) (main_arg8 : FVec F S128x64 .f32) (main_arg9 : FVec F S64 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128 .f32 := Host.absf main_arg5
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S128x64 .f32 := Host.absf main_arg6
  let main_cst_8 : FVec F S_ .f32 := constant S_ .f32 0x7F800000#32
  let main_v25 : FVec F S128x64 .f32 := broadcastInDim S128x64 ![] bcast_S_S128x64 main_cst_8
  let main_v26 : IVec S128x64 1 := cmpf .olt main_v24 main_v25
  let main_c_9 : IVec S_ 1 := constantI S_ 1 1#1
  let main_v27 : IVec S_ 1 := (fun x v => Host.reduce IntOp.andi x v reducesTo_S128x64_S_d0_1 h_S_) main_v26 main_c_9
  let main_v28 : IVec S_ 1 := andi main_v23 main_v27
  let main_v29 : FVec F S64 .f32 := Host.absf main_arg7
  let main_cst_10 : FVec F S_ .f32 := constant S_ .f32 0x7F800000#32
  let main_v30 : FVec F S64 .f32 := broadcastInDim S64 ![] bcast_S_S64 main_cst_10
  let main_v31 : IVec S64 1 := cmpf .olt main_v29 main_v30
  let main_c_11 : IVec S_ 1 := constantI S_ 1 1#1
  let main_v32 : IVec S_ 1 := (fun x v => Host.reduce IntOp.andi x v reducesTo_S64_S_d0 h_S_) main_v31 main_c_11
  let main_v33 : IVec S_ 1 := andi main_v28 main_v32
  fn_part2 (F := F) main_arg8 main_arg9 main_v33

def fn {F : FTy → Type} [FloatOps F] (main_arg0 : FVec F S50000x128 .f32) (main_arg1 : IVec S2x800000 32) (main_arg2 : FVec F S128x128 .f32) (main_arg3 : FVec F S128 .f32) (main_arg4 : FVec F S128x128 .f32) (main_arg5 : FVec F S128 .f32) (main_arg6 : FVec F S128x64 .f32) (main_arg7 : FVec F S64 .f32) (main_arg8 : FVec F S128x64 .f32) (main_arg9 : FVec F S64 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S128x128 .f32 := Host.absf main_arg2
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg3
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x128 .f32 := Host.absf main_arg4
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg5 main_arg6 main_arg7 main_arg8 main_arg9 main_v13 main_v16
-- ==== Kernel.lean ====
abbrev S50000x128 : Shape := ⟨2, ![50000, 128]⟩
abbrev S2x800000 : Shape := ⟨2, ![2, 800000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S1x800000 : Shape := ⟨2, ![1, 800000]⟩
abbrev S800000 : Shape := ⟨1, ![800000]⟩
abbrev S_ : Shape := ⟨0, ![]⟩
abbrev S50000 : Shape := ⟨1, ![50000]⟩
abbrev S800000x1 : Shape := ⟨2, ![800000, 1]⟩
abbrev S5000x128 : Shape := ⟨2, ![5000, 128]⟩
abbrev S800000x128 : Shape := ⟨2, ![800000, 128]⟩
abbrev S50000x1 : Shape := ⟨2, ![50000, 1]⟩
abbrev S5000x1 : Shape := ⟨2, ![5000, 1]⟩
abbrev S1x128 : Shape := ⟨2, ![1, 128]⟩
abbrev S50000x64 : Shape := ⟨2, ![50000, 64]⟩
abbrev S5000x64 : Shape := ⟨2, ![5000, 64]⟩
abbrev S1x64 : Shape := ⟨2, ![1, 64]⟩

abbrev nBuf : Space → Nat
  | .hbm => 87
  | .vmem => 40
  | .smem => 0
  | _ => 0

abbrev bufTy : (tb : Table) → Fin (tcTables nBuf tb) → BufTy
  | .hbm, ⟨0, _⟩ => ⟨S50000x128, .f32⟩
  | .hbm, ⟨1, _⟩ => ⟨S2x800000, .i32⟩
  | .hbm, ⟨2, _⟩ => ⟨S128x128, .f32⟩
  | .hbm, ⟨3, _⟩ => ⟨S128, .f32⟩
  | .hbm, ⟨4, _⟩ => ⟨S128x128, .f32⟩
  | .hbm, ⟨5, _⟩ => ⟨S128, .f32⟩
  | .hbm, ⟨6, _⟩ => ⟨S128x64, .f32⟩
  | .hbm, ⟨7, _⟩ => ⟨S64, .f32⟩
  | .hbm, ⟨8, _⟩ => ⟨S128x64, .f32⟩
  | .hbm, ⟨9, _⟩ => ⟨S64, .f32⟩
  | .hbm, ⟨10, _⟩ => ⟨S1x800000, .i32⟩
  | .hbm, ⟨11, _⟩ => ⟨S800000, .i32⟩
  | .hbm, ⟨12, _⟩ => ⟨S1x800000, .i32⟩
  | .hbm, ⟨13, _⟩ => ⟨S800000, .i32⟩
  | .hbm, ⟨14, _⟩ => ⟨S_, .f32⟩
  | .hbm, ⟨15, _⟩ => ⟨S800000, .f32⟩
  | .hbm, ⟨16, _⟩ => ⟨S_, .f32⟩
  | .hbm, ⟨17, _⟩ => ⟨S50000, .f32⟩
  | .hbm, ⟨18, _⟩ => ⟨S800000x1, .i32⟩
  | .hbm, ⟨19, _⟩ => ⟨S50000, .f32⟩
  | .hbm, ⟨20, _⟩ => ⟨S_, .f32⟩
  | .hbm, ⟨21, _⟩ => ⟨S50000, .f32⟩
  | .hbm, ⟨22, _⟩ => ⟨S50000, .f32⟩
  | .hbm, ⟨23, _⟩ => ⟨S50000, .f32⟩
  | .hbm, ⟨24, _⟩ => ⟨S_, .f32⟩
  | .hbm, ⟨25, _⟩ => ⟨S50000, .f32⟩
  | .hbm, ⟨26, _⟩ => ⟨S50000, .f32⟩
  | .hbm, ⟨27, _⟩ => ⟨S_, .i32⟩
  | .hbm, ⟨28, _⟩ => ⟨S800000, .i32⟩
  | .hbm, ⟨29, _⟩ => ⟨S800000, .i1⟩
  | .hbm, ⟨30, _⟩ => ⟨S_, .i32⟩
  | .hbm, ⟨31, _⟩ => ⟨S800000, .i32⟩
  | .hbm, ⟨32, _⟩ => ⟨S800000, .i32⟩
  | .hbm, ⟨33, _⟩ => ⟨S800000, .i32⟩
  | .hbm, ⟨34, _⟩ => ⟨S800000x1, .i32⟩
  | .hbm, ⟨35, _⟩ => ⟨S800000, .f32⟩
  | .hbm, ⟨36, _⟩ => ⟨S_, .i32⟩
  | .hbm, ⟨37, _⟩ => ⟨S800000, .i32⟩
  | .hbm, ⟨38, _⟩ => ⟨S800000, .i1⟩
  | .hbm, ⟨39, _⟩ => ⟨S_, .i32⟩
  | .hbm, ⟨40, _⟩ => ⟨S800000, .i32⟩
  | .hbm, ⟨41, _⟩ => ⟨S800000, .i32⟩
  | .hbm, ⟨42, _⟩ => ⟨S800000, .i32⟩
  | .hbm, ⟨43, _⟩ => ⟨S800000x1, .i32⟩
  | .hbm, ⟨44, _⟩ => ⟨S800000, .f32⟩
  | .hbm, ⟨45, _⟩ => ⟨S800000, .f32⟩
  | .hbm, ⟨46, _⟩ => ⟨S50000, .f32⟩
  | .hbm, ⟨47, _⟩ => ⟨S50000x128, .f32⟩
  | .hbm, ⟨48, _⟩ => ⟨S_, .i32⟩
  | .hbm, ⟨49, _⟩ => ⟨S800000, .i32⟩
  | .hbm, ⟨50, _⟩ => ⟨S800000, .i1⟩
  | .hbm, ⟨51, _⟩ => ⟨S_, .i32⟩
  | .hbm, ⟨52, _⟩ => ⟨S800000, .i32⟩
  | .hbm, ⟨53, _⟩ => ⟨S800000, .i32⟩
  | .hbm, ⟨54, _⟩ => ⟨S800000, .i32⟩
  | .hbm, ⟨55, _⟩ => ⟨S800000x1, .i32⟩
  | .hbm, ⟨56, _⟩ => ⟨S800000x128, .f32⟩
  | .hbm, ⟨57, _⟩ => ⟨S800000x1, .f32⟩
  | .hbm, ⟨58, _⟩ => ⟨S800000x128, .f32⟩
  | .hbm, ⟨59, _⟩ => ⟨S800000x128, .f32⟩
  | .hbm, ⟨60, _⟩ => ⟨S_, .f32⟩
  | .hbm, ⟨61, _⟩ => ⟨S50000x128, .f32⟩
  | .hbm, ⟨62, _⟩ => ⟨S800000x1, .i32⟩
  | .hbm, ⟨63, _⟩ => ⟨S50000x128, .f32⟩
  | .hbm, ⟨64, _⟩ => ⟨S50000x1, .f32⟩
  | .hbm, ⟨65, _⟩ => ⟨S50000x128, .f32⟩
  | .hbm, ⟨66, _⟩ => ⟨S50000x128, .f32⟩
  | .hbm, ⟨67, _⟩ => ⟨S_, .i32⟩
  | .hbm, ⟨68, _⟩ => ⟨S800000, .i32⟩
  | .hbm, ⟨69, _⟩ => ⟨S800000, .i1⟩
  | .hbm, ⟨70, _⟩ => ⟨S_, .i32⟩
  | .hbm, ⟨71, _⟩ => ⟨S800000, .i32⟩
  | .hbm, ⟨72, _⟩ => ⟨S800000, .i32⟩
  | .hbm, ⟨73, _⟩ => ⟨S800000, .i32⟩
  | .hbm, ⟨74, _⟩ => ⟨S800000x1, .i32⟩
  | .hbm, ⟨75, _⟩ => ⟨S800000x128, .f32⟩
  | .hbm, ⟨76, _⟩ => ⟨S800000x1, .f32⟩
  | .hbm, ⟨77, _⟩ => ⟨S800000x128, .f32⟩
  | .hbm, ⟨78, _⟩ => ⟨S800000x128, .f32⟩
  | .hbm, ⟨79, _⟩ => ⟨S_, .f32⟩
  | .hbm, ⟨80, _⟩ => ⟨S50000x128, .f32⟩
  | .hbm, ⟨81, _⟩ => ⟨S800000x1, .i32⟩
  | .hbm, ⟨82, _⟩ => ⟨S50000x128, .f32⟩
  | .hbm, ⟨83, _⟩ => ⟨S50000x1, .f32⟩
  | .hbm, ⟨84, _⟩ => ⟨S50000x128, .f32⟩
  | .hbm, ⟨85, _⟩ => ⟨S50000x64, .f32⟩
  | .hbm, ⟨86, _⟩ => ⟨S50000x64, .f32⟩
  | .local _ .vmem, ⟨0, _⟩ => ⟨S5000x128, .f32⟩
  | .local _ .vmem, ⟨1, _⟩ => ⟨S5000x128, .f32⟩
  | .local _ .vmem, ⟨2, _⟩ => ⟨S128x128, .f32⟩
  | .local _ .vmem, ⟨3, _⟩ => ⟨S5000x128, .f32⟩
  | .local _ .vmem, ⟨4, _⟩ => ⟨S5000x128, .f32⟩
  | .local _ .vmem, ⟨5, _⟩ => ⟨S5000x128, .f32⟩
  | .local _ .vmem, ⟨6, _⟩ => ⟨S5000x128, .f32⟩
  | .local _ .vmem, ⟨7, _⟩ => ⟨S5000x128, .f32⟩
  | .local _ .vmem, ⟨8, _⟩ => ⟨S5000x128, .f32⟩
  | .local _ .vmem, ⟨9, _⟩ => ⟨S5000x1, .f32⟩
  | .local _ .vmem, ⟨10, _⟩ => ⟨S5000x1, .f32⟩
  | .local _ .vmem, ⟨11, _⟩ => ⟨S128, .f32⟩
  | .local _ .vmem, ⟨12, _⟩ => ⟨S5000x128, .f32⟩
  | .local _ .vmem, ⟨13, _⟩ => ⟨S5000x128, .f32⟩
  | .local _ .vmem, ⟨14, _⟩ => ⟨S5000x128, .f32⟩
  | .local _ .vmem, ⟨15, _⟩ => ⟨S5000x128, .f32⟩
  | .local _ .vmem, ⟨16, _⟩ => ⟨S128x128, .f32⟩
  | .local _ .vmem, ⟨17, _⟩ => ⟨S5000x128, .f32⟩
  | .local _ .vmem, ⟨18, _⟩ => ⟨S5000x128, .f32⟩
  | .local _ .vmem, ⟨19, _⟩ => ⟨S5000x128, .f32⟩
  | .local _ .vmem, ⟨20, _⟩ => ⟨S5000x128, .f32⟩
  | .local _ .vmem, ⟨21, _⟩ => ⟨S5000x128, .f32⟩
  | .local _ .vmem, ⟨22, _⟩ => ⟨S5000x128, .f32⟩
  | .local _ .vmem, ⟨23, _⟩ => ⟨S5000x1, .f32⟩
  | .local _ .vmem, ⟨24, _⟩ => ⟨S5000x1, .f32⟩
  | .local _ .vmem, ⟨25, _⟩ => ⟨S128, .f32⟩
  | .local _ .vmem, ⟨26, _⟩ => ⟨S5000x128, .f32⟩
  | .local _ .vmem, ⟨27, _⟩ => ⟨S5000x128, .f32⟩
  | .local _ .vmem, ⟨28, _⟩ => ⟨S5000x128, .f32⟩
  | .local _ .vmem, ⟨29, _⟩ => ⟨S5000x128, .f32⟩
  | .local _ .vmem, ⟨30, _⟩ => ⟨S128x64, .f32⟩
  | .local _ .vmem, ⟨31, _⟩ => ⟨S64, .f32⟩
  | .local _ .vmem, ⟨32, _⟩ => ⟨S5000x64, .f32⟩
  | .local _ .vmem, ⟨33, _⟩ => ⟨S5000x64, .f32⟩
  | .local _ .vmem, ⟨34, _⟩ => ⟨S5000x128, .f32⟩
  | .local _ .vmem, ⟨35, _⟩ => ⟨S5000x128, .f32⟩
  | .local _ .vmem, ⟨36, _⟩ => ⟨S128x64, .f32⟩
  | .local _ .vmem, ⟨37, _⟩ => ⟨S64, .f32⟩
  | .local _ .vmem, ⟨38, _⟩ => ⟨S5000x64, .f32⟩
  | .local _ .vmem, ⟨39, _⟩ => ⟨S5000x64, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | _, _ => false

abbrev semScoped : Fin 0 → Bool
  | ⟨_, h⟩ => absurd h (Nat.not_lt_zero _)

abbrev dmaSemScoped : Fin 40 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | _ => false

abbrev sig : RefSig :=
  ofTc nBuf bufTy 0 40 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_cst : Ref sig .tc := ⟨.hbm, 14, rfl⟩
abbrev main_v4 : Ref sig .tc := ⟨.hbm, 15, rfl⟩
abbrev main_cst_0 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_cst_1 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_cst_2 : Ref sig .tc := ⟨.hbm, 24, rfl⟩
abbrev main_v11 : Ref sig .tc := ⟨.hbm, 25, rfl⟩
abbrev main_v12 : Ref sig .tc := ⟨.hbm, 26, rfl⟩
abbrev main_c : Ref sig .tc := ⟨.hbm, 27, rfl⟩
abbrev main_v13 : Ref sig .tc := ⟨.hbm, 28, rfl⟩
abbrev main_v14 : Ref sig .tc := ⟨.hbm, 29, rfl⟩
abbrev main_c_3 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_c_4 : Ref sig .tc := ⟨.hbm, 36, rfl⟩
abbrev main_v20 : Ref sig .tc := ⟨.hbm, 37, rfl⟩
abbrev main_v21 : Ref sig .tc := ⟨.hbm, 38, rfl⟩
abbrev main_c_5 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_c_6 : Ref sig .tc := ⟨.hbm, 48, rfl⟩
abbrev main_v30 : Ref sig .tc := ⟨.hbm, 49, rfl⟩
abbrev main_v31 : Ref sig .tc := ⟨.hbm, 50, rfl⟩
abbrev main_c_7 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_cst_8 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_c_9 : Ref sig .tc := ⟨.hbm, 67, rfl⟩
abbrev main_v46 : Ref sig .tc := ⟨.hbm, 68, rfl⟩
abbrev main_v47 : Ref sig .tc := ⟨.hbm, 69, rfl⟩
abbrev main_c_10 : Ref sig .tc := ⟨.hbm, 70, rfl⟩
abbrev main_v48 : Ref sig .tc := ⟨.hbm, 71, rfl⟩
abbrev main_v49 : Ref sig .tc := ⟨.hbm, 72, rfl⟩
abbrev main_v50 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_cst_11 : Ref sig .tc := ⟨.hbm, 79, rfl⟩
abbrev main_v56 : Ref sig .tc := ⟨.hbm, 80, rfl⟩
abbrev main_v57 : Ref sig .tc := ⟨.hbm, 81, rfl⟩
abbrev main_v58 : Ref sig .tc := ⟨.hbm, 82, rfl⟩
abbrev main_v59 : Ref sig .tc := ⟨.hbm, 83, rfl⟩
abbrev main_v60 : Ref sig .tc := ⟨.hbm, 84, rfl⟩
abbrev main_v61 : Ref sig .tc := ⟨.hbm, 85, rfl⟩
abbrev main_v62 : Ref sig .tc := ⟨.hbm, 86, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg1_1 : Ref sig .tc := ⟨.vmem, 8, rfl⟩
abbrev cc1_stg2_0 : Ref sig .tc := ⟨.vmem, 9, rfl⟩
abbrev cc1_stg2_1 : Ref sig .tc := ⟨.vmem, 10, rfl⟩
abbrev cc1_stg3_0 : Ref sig .tc := ⟨.vmem, 11, rfl⟩
abbrev cc1_stg4_0 : Ref sig .tc := ⟨.vmem, 12, rfl⟩
abbrev cc1_stg4_1 : Ref sig .tc := ⟨.vmem, 13, rfl⟩
abbrev cc2_stg0_0 : Ref sig .tc := ⟨.vmem, 14, rfl⟩
abbrev cc2_stg0_1 : Ref sig .tc := ⟨.vmem, 15, rfl⟩
abbrev cc2_stg1_0 : Ref sig .tc := ⟨.vmem, 16, rfl⟩
abbrev cc2_stg2_0 : Ref sig .tc := ⟨.vmem, 17, rfl⟩
abbrev cc2_stg2_1 : Ref sig .tc := ⟨.vmem, 18, rfl⟩
abbrev cc3_stg0_0 : Ref sig .tc := ⟨.vmem, 19, rfl⟩
abbrev cc3_stg0_1 : Ref sig .tc := ⟨.vmem, 20, rfl⟩
abbrev cc3_stg1_0 : Ref sig .tc := ⟨.vmem, 21, rfl⟩
abbrev cc3_stg1_1 : Ref sig .tc := ⟨.vmem, 22, rfl⟩
abbrev cc3_stg2_0 : Ref sig .tc := ⟨.vmem, 23, rfl⟩
abbrev cc3_stg2_1 : Ref sig .tc := ⟨.vmem, 24, rfl⟩
abbrev cc3_stg3_0 : Ref sig .tc := ⟨.vmem, 25, rfl⟩
abbrev cc3_stg4_0 : Ref sig .tc := ⟨.vmem, 26, rfl⟩
abbrev cc3_stg4_1 : Ref sig .tc := ⟨.vmem, 27, rfl⟩
abbrev cc4_stg0_0 : Ref sig .tc := ⟨.vmem, 28, rfl⟩
abbrev cc4_stg0_1 : Ref sig .tc := ⟨.vmem, 29, rfl⟩
abbrev cc4_stg1_0 : Ref sig .tc := ⟨.vmem, 30, rfl⟩
abbrev cc4_stg2_0 : Ref sig .tc := ⟨.vmem, 31, rfl⟩
abbrev cc4_stg3_0 : Ref sig .tc := ⟨.vmem, 32, rfl⟩
abbrev cc4_stg3_1 : Ref sig .tc := ⟨.vmem, 33, rfl⟩
abbrev cc5_stg0_0 : Ref sig .tc := ⟨.vmem, 34, rfl⟩
abbrev cc5_stg0_1 : Ref sig .tc := ⟨.vmem, 35, rfl⟩
abbrev cc5_stg1_0 : Ref sig .tc := ⟨.vmem, 36, rfl⟩
abbrev cc5_stg2_0 : Ref sig .tc := ⟨.vmem, 37, rfl⟩
abbrev cc5_stg3_0 : Ref sig .tc := ⟨.vmem, 38, rfl⟩
abbrev cc5_stg3_1 : Ref sig .tc := ⟨.vmem, 39, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem1_1 : DmaSem sig := 8
abbrev cc1_sem2_0 : DmaSem sig := 9
abbrev cc1_sem2_1 : DmaSem sig := 10
abbrev cc1_sem3_0 : DmaSem sig := 11
abbrev cc1_sem4_0 : DmaSem sig := 12
abbrev cc1_sem4_1 : DmaSem sig := 13
abbrev cc2_sem0_0 : DmaSem sig := 14
abbrev cc2_sem0_1 : DmaSem sig := 15
abbrev cc2_sem1_0 : DmaSem sig := 16
abbrev cc2_sem2_0 : DmaSem sig := 17
abbrev cc2_sem2_1 : DmaSem sig := 18
abbrev cc3_sem0_0 : DmaSem sig := 19
abbrev cc3_sem0_1 : DmaSem sig := 20
abbrev cc3_sem1_0 : DmaSem sig := 21
abbrev cc3_sem1_1 : DmaSem sig := 22
abbrev cc3_sem2_0 : DmaSem sig := 23
abbrev cc3_sem2_1 : DmaSem sig := 24
abbrev cc3_sem3_0 : DmaSem sig := 25
abbrev cc3_sem4_0 : DmaSem sig := 26
abbrev cc3_sem4_1 : DmaSem sig := 27
abbrev cc4_sem0_0 : DmaSem sig := 28
abbrev cc4_sem0_1 : DmaSem sig := 29
abbrev cc4_sem1_0 : DmaSem sig := 30
abbrev cc4_sem2_0 : DmaSem sig := 31
abbrev cc4_sem3_0 : DmaSem sig := 32
abbrev cc4_sem3_1 : DmaSem sig := 33
abbrev cc5_sem0_0 : DmaSem sig := 34
abbrev cc5_sem0_1 : DmaSem sig := 35
abbrev cc5_sem1_0 : DmaSem sig := 36
abbrev cc5_sem2_0 : DmaSem sig := 37
abbrev cc5_sem3_0 : DmaSem sig := 38
abbrev cc5_sem3_1 : DmaSem sig := 39

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S5000x1 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 2 → Memref sig .tc .vmem S5000x128 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S128x128 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S5000x128 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨1, ![10], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_3 (i : grid3.Coords) : Fin 1 → Nat :=
  let arg0 : BitVec 32 := BitVec.ofNat 32 (i 0).val
  let c0_i32 : BitVec 32 := 0#32
  let c0_i32_0 : BitVec 32 := 0#32
  ![c0_i32.toNat]

def cc3_transform_4 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S5000x128 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 2 → Memref sig .tc .vmem S5000x1 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev stage3_3 : Fin 1 → Memref sig .tc .vmem S128 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 2 → Memref sig .tc .vmem S5000x128 .f32 := fun | 0 => Memref.whole cc3_stg4_0 | 1 => Memref.whole cc3_stg4_1 | ⟨_ + 2, h⟩ => absurd h (Nat.not_lt.2 (Nat.le_add_left _ _))
abbrev sem3_4 : Fin 2 → DmaSem sig := fun | 0 => cc3_sem4_0 | 1 => cc3_sem4_1 | ⟨_ + 2, h⟩ => absurd h (Nat.not_lt.2 (Nat.le_add_left _ _))
abbrev reads3_4 : Fin grid3.rank → Bool := ![true]

abbrev grid4 : Pipeline.Grid := ⟨1, ![10], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 1 → Nat :=
  let arg0 : BitVec 32 := BitVec.ofNat 32 (i 0).val
  let c0_i32 : BitVec 32 := 0#32
  let c0_i32_0 : BitVec 32 := 0#32
  ![c0_i32.toNat]

def cc4_transform_3 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S5000x128 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S128x64 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 1 → Memref sig .tc .vmem S64 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev stage4_3 : Fin 2 → Memref sig .tc .vmem S5000x64 .f32 := fun | 0 => Memref.whole cc4_stg3_0 | 1 => Memref.whole cc4_stg3_1 | ⟨_ + 2, h⟩ => absurd h (Nat.not_lt.2 (Nat.le_add_left _ _))
abbrev sem4_3 : Fin 2 → DmaSem sig := fun | 0 => cc4_sem3_0 | 1 => cc4_sem3_1 | ⟨_ + 2, h⟩ => absurd h (Nat.not_lt.2 (Nat.le_add_left _ _))
abbrev reads4_3 : Fin grid4.rank → Bool := ![true]

abbrev grid5 : Pipeline.Grid := ⟨1, ![10], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_2 (i : grid5.Coords) : Fin 1 → Nat :=
  let arg0 : BitVec 32 := BitVec.ofNat 32 (i 0).val
  let c0_i32 : BitVec 32 := 0#32
  let c0_i32_0 : BitVec 32 := 0#32
  ![c0_i32.toNat]

def cc5_transform_3 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S5000x128 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 1 → Memref sig .tc .vmem S128x64 .f32 := fun | 0 => Memref.whole cc5_stg1_0 | ⟨_ + 1, h⟩ => absurd h (Nat.not_lt.2 (Nat.le_add_left _ _))
abbrev sem5_1 : Fin 1 → DmaSem sig := fun | 0 => cc5_sem1_0 | ⟨_ + 1, h⟩ => absurd h (Nat.not_lt.2 (Nat.le_add_left _ _))
abbrev reads5_1 : Fin grid5.rank → Bool := ![false]

abbrev stage5_2 : Fin 1 → Memref sig .tc .vmem S64 .f32 := fun | 0 => Memref.whole cc5_stg2_0 | ⟨_ + 1, h⟩ => absurd h (Nat.not_lt.2 (Nat.le_add_left _ _))
abbrev sem5_2 : Fin 1 → DmaSem sig := fun | 0 => cc5_sem2_0 | ⟨_ + 1, h⟩ => absurd h (Nat.not_lt.2 (Nat.le_add_left _ _))
abbrev reads5_2 : Fin grid5.rank → Bool := ![false]

abbrev stage5_3 : Fin 2 → Memref sig .tc .vmem S5000x64 .f32 := fun | 0 => Memref.whole cc5_stg3_0 | 1 => Memref.whole cc5_stg3_1 | ⟨_ + 2, h⟩ => absurd h (Nat.not_lt.2 (Nat.le_add_left _ _))
abbrev sem5_3 : Fin 2 → DmaSem sig := fun | 0 => cc5_sem3_0 | 1 => cc5_sem3_1 | ⟨_ + 2, h⟩ => absurd h (Nat.not_lt.2 (Nat.le_add_left _ _))
abbrev reads5_3 : Fin grid5.rank → Bool := ![true]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S_S50000 : S_.BroadcastsInDim S50000 (![] : Fin 0 → Fin S50000.rank)
  bcast_S800000_S800000x1_0 : S800000.BroadcastsInDim S800000x1 (![0] : Fin 1 → Fin S800000x1.rank)
  inb_S5000x128_S5000x128_0_0 : ∀ a, (![0, 0] : Fin 2 → Nat) a + S5000x128.size a ≤ S5000x128.size a
  h_S5000x128 : 0 < S5000x128.numel
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  bcast_S800000x1_S800000x128_0_1 : S800000x1.BroadcastsInDim S800000x128 (![0, 1] : Fin 2 → Fin S800000x128.rank)
  bcast_S_S50000x128 : S_.BroadcastsInDim S50000x128 (![] : Fin 0 → Fin S50000x128.rank)
  shapeCasts_S50000_S50000x1 : S50000.ShapeCasts S50000x1
  shapeCasts_S5000x128_S5000x128 : S5000x128.ShapeCasts S5000x128
  inb_S5000x1_S5000x1_0_0 : ∀ a, (![0, 0] : Fin 2 → Nat) a + S5000x1.size a ≤ S5000x1.size a
  h_S5000x1 : 0 < S5000x1.numel
  shapeCasts_S5000x1_S5000x1 : S5000x1.ShapeCasts S5000x1
  inb_S128_S128_0 : ∀ a, (![0] : Fin 1 → Nat) a + S128.size a ≤ S128.size a
  h_S128 : 0 < S128.numel
  broadcasts_S5000x1_S5000x128 : S5000x1.Broadcasts S5000x128
  shapeCasts_S128_S1x128 : S128.ShapeCasts S1x128
  broadcasts_S1x128_S5000x128 : S1x128.Broadcasts S5000x128
  inb_S128x64_S128x64_0_0 : ∀ a, (![0, 0] : Fin 2 → Nat) a + S128x64.size a ≤ S128x64.size a
  h_S128x64 : 0 < S128x64.numel
  inb_S64_S64_0 : ∀ a, (![0] : Fin 1 → Nat) a + S64.size a ≤ S64.size a
  h_S64 : 0 < S64.numel
  shapeCasts_S64_S1x64 : S64.ShapeCasts S1x64
  broadcasts_S1x64_S5000x64 : S1x64.Broadcasts S5000x64
  inb_S5000x64_S5000x64_0_0 : ∀ a, (![0, 0] : Fin 2 → Nat) a + S5000x64.size a ≤ S5000x64.size a
  h_S5000x64 : 0 < S5000x64.numel
  scatter_S50000_S800000x1_S800000_n_0_0_1_wf : ScatterDims.WF S50000 S800000x1 S800000 [] [0] [0] 1
  gather_S50000_S800000x1_S800000_n_0_n_n_0_1_1_wf : GatherDims.WF S50000 S800000x1 S800000 [] [0] [] [0] [] 1 ![1]
  dot_S5000x128_S128x128_S5000x128_1_0_0_1_n_n_wf : DotDims.WF S5000x128 S128x128 S5000x128 [1] [0] [0] [1] [] []
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  dot_S5000x128_S128x64_S5000x64_1_0_0_1_n_n_wf : DotDims.WF S5000x128 S128x64 S5000x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S50000x128.size a
  hwx0_0 : ∀ i : grid0.Coords, EltTy.bits .f32 = 32 ∨ (Rect.block (s := S50000x128) S5000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x128.size a ≤ S50000x128.size a
  hwx0_2 : ∀ i : grid0.Coords, EltTy.bits .f32 = 32 ∨ (Rect.block (s := S50000x128) S5000x128.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S50000x128.size a
  hwx1_0 : ∀ i : grid1.Coords, EltTy.bits .f32 = 32 ∨ (Rect.block (s := S50000x128) S5000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x128.size a ≤ S50000x128.size a
  hwx1_1 : ∀ i : grid1.Coords, EltTy.bits .f32 = 32 ∨ (Rect.block (s := S50000x128) S5000x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S5000x1.size a ≤ S50000x1.size a
  hwx1_2 : ∀ i : grid1.Coords, EltTy.bits .f32 = 32 ∨ (Rect.block (s := S50000x1) S5000x1.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S128.size a ≤ S128.size a
  hwx1_3 : ∀ i : grid1.Coords, EltTy.bits .f32 = 32 ∨ (Rect.block (s := S128) S128.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S5000x128.size a ≤ S50000x128.size a
  hwx1_4 : ∀ i : grid1.Coords, EltTy.bits .f32 = 32 ∨ (Rect.block (s := S50000x128) S5000x128.size (cc1_transform_4 i) (hinb1_4 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x128.size a ≤ S50000x128.size a
  hwx2_0 : ∀ i : grid2.Coords, EltTy.bits .f32 = 32 ∨ (Rect.block (s := S50000x128) S5000x128.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S128x128.size a ≤ S128x128.size a
  hwx2_1 : ∀ i : grid2.Coords, EltTy.bits .f32 = 32 ∨ (Rect.block (s := S128x128) S128x128.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S5000x128.size a ≤ S50000x128.size a
  hwx2_2 : ∀ i : grid2.Coords, EltTy.bits .f32 = 32 ∨ (Rect.block (s := S50000x128) S5000x128.size (cc2_transform_2 i) (hinb2_2 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x128.size a ≤ S50000x128.size a
  hwx3_0 : ∀ i : grid3.Coords, EltTy.bits .f32 = 32 ∨ (Rect.block (s := S50000x128) S5000x128.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S5000x128.size a ≤ S50000x128.size a
  hwx3_1 : ∀ i : grid3.Coords, EltTy.bits .f32 = 32 ∨ (Rect.block (s := S50000x128) S5000x128.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S5000x1.size a ≤ S50000x1.size a
  hwx3_2 : ∀ i : grid3.Coords, EltTy.bits .f32 = 32 ∨ (Rect.block (s := S50000x1) S5000x1.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S128.size a ≤ S128.size a
  hwx3_3 : ∀ i : grid3.Coords, EltTy.bits .f32 = 32 ∨ (Rect.block (s := S128) S128.size (cc3_transform_3 i) (hinb3_3 i)).WholeWords (EltTy.packing .f32)
  hstage3_4 : ∀ j, (stage3_4 j).IsWhole
  nbuf3_4 : grid3.bufCount reads3_4 false = 2
  hreads3_4 : ∀ i i' : grid3.Coords, (∀ a, reads3_4 a = true → i a = i' a) → cc3_transform_4 i = cc3_transform_4 i'
  hinb3_4 : ∀ (i : grid3.Coords) a, (cc3_transform_4 i a + 1) * S5000x128.size a ≤ S50000x128.size a
  hwx3_4 : ∀ i : grid3.Coords, EltTy.bits .f32 = 32 ∨ (Rect.block (s := S50000x128) S5000x128.size (cc3_transform_4 i) (hinb3_4 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S5000x128.size a ≤ S50000x128.size a
  hwx4_0 : ∀ i : grid4.Coords, EltTy.bits .f32 = 32 ∨ (Rect.block (s := S50000x128) S5000x128.size (cc4_transform_0 i) (hinb4_0 i)).WholeWords (EltTy.packing .f32)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S128x64.size a ≤ S128x64.size a
  hwx4_1 : ∀ i : grid4.Coords, EltTy.bits .f32 = 32 ∨ (Rect.block (s := S128x64) S128x64.size (cc4_transform_1 i) (hinb4_1 i)).WholeWords (EltTy.packing .f32)
  hstage4_2 : ∀ j, (stage4_2 j).IsWhole
  nbuf4_2 : grid4.bufCount reads4_2 true = 1
  hreads4_2 : ∀ i i' : grid4.Coords, (∀ a, reads4_2 a = true → i a = i' a) → cc4_transform_2 i = cc4_transform_2 i'
  hinb4_2 : ∀ (i : grid4.Coords) a, (cc4_transform_2 i a + 1) * S64.size a ≤ S64.size a
  hwx4_2 : ∀ i : grid4.Coords, EltTy.bits .f32 = 32 ∨ (Rect.block (s := S64) S64.size (cc4_transform_2 i) (hinb4_2 i)).WholeWords (EltTy.packing .f32)
  hstage4_3 : ∀ j, (stage4_3 j).IsWhole
  nbuf4_3 : grid4.bufCount reads4_3 false = 2
  hreads4_3 : ∀ i i' : grid4.Coords, (∀ a, reads4_3 a = true → i a = i' a) → cc4_transform_3 i = cc4_transform_3 i'
  hinb4_3 : ∀ (i : grid4.Coords) a, (cc4_transform_3 i a + 1) * S5000x64.size a ≤ S50000x64.size a
  hwx4_3 : ∀ i : grid4.Coords, EltTy.bits .f32 = 32 ∨ (Rect.block (s := S50000x64) S5000x64.size (cc4_transform_3 i) (hinb4_3 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S5000x128.size a ≤ S50000x128.size a
  hwx5_0 : ∀ i : grid5.Coords, EltTy.bits .f32 = 32 ∨ (Rect.block (s := S50000x128) S5000x128.size (cc5_transform_0 i) (hinb5_0 i)).WholeWords (EltTy.packing .f32)
  hstage5_1 : ∀ j, (stage5_1 j).IsWhole
  nbuf5_1 : grid5.bufCount reads5_1 true = 1
  hreads5_1 : ∀ i i' : grid5.Coords, (∀ a, reads5_1 a = true → i a = i' a) → cc5_transform_1 i = cc5_transform_1 i'
  hinb5_1 : ∀ (i : grid5.Coords) a, (cc5_transform_1 i a + 1) * S128x64.size a ≤ S128x64.size a
  hwx5_1 : ∀ i : grid5.Coords, EltTy.bits .f32 = 32 ∨ (Rect.block (s := S128x64) S128x64.size (cc5_transform_1 i) (hinb5_1 i)).WholeWords (EltTy.packing .f32)
  hstage5_2 : ∀ j, (stage5_2 j).IsWhole
  nbuf5_2 : grid5.bufCount reads5_2 true = 1
  hreads5_2 : ∀ i i' : grid5.Coords, (∀ a, reads5_2 a = true → i a = i' a) → cc5_transform_2 i = cc5_transform_2 i'
  hinb5_2 : ∀ (i : grid5.Coords) a, (cc5_transform_2 i a + 1) * S64.size a ≤ S64.size a
  hwx5_2 : ∀ i : grid5.Coords, EltTy.bits .f32 = 32 ∨ (Rect.block (s := S64) S64.size (cc5_transform_2 i) (hinb5_2 i)).WholeWords (EltTy.packing .f32)
  hstage5_3 : ∀ j, (stage5_3 j).IsWhole
  nbuf5_3 : grid5.bufCount reads5_3 false = 2
  hreads5_3 : ∀ i i' : grid5.Coords, (∀ a, reads5_3 a = true → i a = i' a) → cc5_transform_3 i = cc5_transform_3 i'
  hinb5_3 : ∀ (i : grid5.Coords) a, (cc5_transform_3 i a + 1) * S5000x64.size a ≤ S50000x64.size a
  hwx5_3 : ∀ i : grid5.Coords, EltTy.bits .f32 = 32 ∨ (Rect.block (s := S50000x64) S5000x64.size (cc5_transform_3 i) (hinb5_3 i)).WholeWords (EltTy.packing .f32)

variable [Facts₀]

def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def gather_S50000_S800000x1_S800000_n_0_n_n_0_1_1 : GatherDims S50000 S800000x1 S800000 where
  offsetDims := []
  collapsedSliceDims := [0]
  operandBatchingDims := []
  startIndicesBatchingDims := []
  startIndexMap := [0]
  indexVectorDim := 1
  sliceSizes := ![1]
  wf := gather_S50000_S800000x1_S800000_n_0_n_n_0_1_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def dot_S5000x128_S128x64_S5000x64_1_0_0_1_n_n : DotDims S5000x128 S128x64 S5000x64 where
  lhsContracting := [1]
  rhsContracting := [0]
  lhsNonContracting := [0]
  rhsNonContracting := [1]
  lhsBatch := []
  rhsBatch := []
  wf := dot_S5000x128_S128x64_S5000x64_1_0_0_1_n_n_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v29) S5000x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v42) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v29) S5000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v43) S5000x1.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_arg3) S128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v44) S5000x128.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

abbrev win2_0 : Pipeline.Window sig grid2 :=
  Pipeline.Window.ofSpec (Memref.whole main_v44) S5000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg4) S128x128.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v45) S5000x128.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v58) S5000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v45) S5000x128.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v59) S5000x1.size cc3_transform_2 reads3_2 false false 2 stage3_2 sem3_2
    hrank3 hreads3_2 hinb3_2 nbuf3_2 (Memref.isWhole_whole _) hwx3_2 hstage3_2

abbrev win3_3 : Pipeline.Window sig grid3 :=
  Pipeline.Window.ofSpec (Memref.whole main_arg5) S128.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v60) S5000x128.size cc3_transform_4 reads3_4 true false 2 stage3_4 sem3_4
    hrank3 hreads3_4 hinb3_4 nbuf3_4 (Memref.isWhole_whole _) hwx3_4 hstage3_4

abbrev win3 : Fin 5 → Pipeline.Window sig grid3 := fun | 0 => win3_0 | 1 => win3_1 | 2 => win3_2 | 3 => win3_3 | 4 => win3_4 | ⟨_ + 5, h⟩ => absurd h (Nat.not_lt.2 (Nat.le_add_left _ _))
abbrev spec3 : Fin 5 → Pipeline.WinSpec sig grid3.rank := fun w => (win3 w).toWinSpec

abbrev win4_0 : Pipeline.Window sig grid4 :=
  Pipeline.Window.ofSpec (Memref.whole main_v60) S5000x128.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_arg6) S128x64.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_arg7) S64.size cc4_transform_2 reads4_2 false true 1 stage4_2 sem4_2
    hrank4 hreads4_2 hinb4_2 nbuf4_2 (Memref.isWhole_whole _) hwx4_2 hstage4_2

abbrev win4_3 : Pipeline.Window sig grid4 :=
  Pipeline.Window.ofSpec (Memref.whole main_v61) S5000x64.size cc4_transform_3 reads4_3 true false 2 stage4_3 sem4_3
    hrank4 hreads4_3 hinb4_3 nbuf4_3 (Memref.isWhole_whole _) hwx4_3 hstage4_3

abbrev win4 : Fin 4 → Pipeline.Window sig grid4 := fun | 0 => win4_0 | 1 => win4_1 | 2 => win4_2 | 3 => win4_3 | ⟨_ + 4, h⟩ => absurd h (Nat.not_lt.2 (Nat.le_add_left _ _))
abbrev spec4 : Fin 4 → Pipeline.WinSpec sig grid4.rank := fun w => (win4 w).toWinSpec

abbrev win5_0 : Pipeline.Window sig grid5 :=
  Pipeline.Window.ofSpec (Memref.whole main_v60) S5000x128.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_arg8) S128x64.size cc5_transform_1 reads5_1 false true 1 stage5_1 sem5_1
    hrank5 hreads5_1 hinb5_1 nbuf5_1 (Memref.isWhole_whole _) hwx5_1 hstage5_1

abbrev win5_2 : Pipeline.Window sig grid5 :=
  Pipeline.Window.ofSpec (Memref.whole main_arg9) S64.size cc5_transform_2 reads5_2 false true 1 stage5_2 sem5_2
    hrank5 hreads5_2 hinb5_2 nbuf5_2 (Memref.isWhole_whole _) hwx5_2 hstage5_2

abbrev win5_3 : Pipeline.Window sig grid5 :=
  Pipeline.Window.ofSpec (Memref.whole main_v62) S5000x64.size cc5_transform_3 reads5_3 true false 2 stage5_3 sem5_3
    hrank5 hreads5_3 hinb5_3 nbuf5_3 (Memref.isWhole_whole _) hwx5_3 hstage5_3

abbrev win5 : Fin 4 → Pipeline.Window sig grid5 := fun | 0 => win5_0 | 1 => win5_1 | 2 => win5_2 | 3 => win5_3 | ⟨_ + 4, h⟩ => absurd h (Nat.not_lt.2 (Nat.le_add_left _ _))
abbrev spec5 : Fin 4 → Pipeline.WinSpec sig grid5.rank := fun w => (win5 w).toWinSpec

class Facts : Prop extends Facts₀ where

variable [Facts]
-- ==== ReferenceIdeal.lean ====
abbrev S50000x128 : Shape := ⟨2, ![50000, 128]⟩
abbrev S2x800000 : Shape := ⟨2, ![2, 800000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S1x800000 : Shape := ⟨2, ![1, 800000]⟩
abbrev S800000 : Shape := ⟨1, ![800000]⟩
abbrev S_ : Shape := ⟨0, ![]⟩
abbrev S50000 : Shape := ⟨1, ![50000]⟩
abbrev S800000x1 : Shape := ⟨2, ![800000, 1]⟩
abbrev S800000x128 : Shape := ⟨2, ![800000, 128]⟩
abbrev S50000x1 : Shape := ⟨2, ![50000, 1]⟩
abbrev S1x128 : Shape := ⟨2, ![1, 128]⟩
abbrev S50000x64 : Shape := ⟨2, ![50000, 64]⟩
abbrev S1x64 : Shape := ⟨2, ![1, 64]⟩

abbrev nBuf : Space → Nat
  | .hbm => 109
  | .vmem => 0
  | .smem => 0
  | _ => 0

abbrev bufTy : (tb : Table) → Fin (tcTables nBuf tb) → BufTy
  | .hbm, ⟨0, _⟩ => ⟨S50000x128, .f32⟩
  | .hbm, ⟨1, _⟩ => ⟨S2x800000, .i32⟩
  | .hbm, ⟨2, _⟩ => ⟨S128x128, .f32⟩
  | .hbm, ⟨3, _⟩ => ⟨S128, .f32⟩
  | .hbm, ⟨4, _⟩ => ⟨S128x128, .f32⟩
  | .hbm, ⟨5, _⟩ => ⟨S128, .f32⟩
  | .hbm, ⟨6, _⟩ => ⟨S128x64, .f32⟩
  | .hbm, ⟨7, _⟩ => ⟨S64, .f32⟩
  | .hbm, ⟨8, _⟩ => ⟨S128x64, .f32⟩
  | .hbm, ⟨9, _⟩ => ⟨S64, .f32⟩
  | .hbm, ⟨10, _⟩ => ⟨S1x800000, .i32⟩
  | .hbm, ⟨11, _⟩ => ⟨S800000, .i32⟩
  | .hbm, ⟨12, _⟩ => ⟨S1x800000, .i32⟩
  | .hbm, ⟨13, _⟩ => ⟨S800000, .i32⟩
  | .hbm, ⟨14, _⟩ => ⟨S_, .f32⟩
  | .hbm, ⟨15, _⟩ => ⟨S800000, .f32⟩
  | .hbm, ⟨16, _⟩ => ⟨S_, .f32⟩
  | .hbm, ⟨17, _⟩ => ⟨S50000, .f32⟩
  | .hbm, ⟨18, _⟩ => ⟨S800000x1, .i32⟩
  | .hbm, ⟨19, _⟩ => ⟨S50000, .f32⟩
  | .hbm, ⟨20, _⟩ => ⟨S_, .f32⟩
  | .hbm, ⟨21, _⟩ => ⟨S50000, .f32⟩
  | .hbm, ⟨22, _⟩ => ⟨S50000, .f32⟩
  | .hbm, ⟨23, _⟩ => ⟨S50000, .f32⟩
  | .hbm, ⟨24, _⟩ => ⟨S_, .f32⟩
  | .hbm, ⟨25, _⟩ => ⟨S50000, .f32⟩
  | .hbm, ⟨26, _⟩ => ⟨S50000, .f32⟩
  | .hbm, ⟨27, _⟩ => ⟨S_, .i32⟩
  | .hbm, ⟨28, _⟩ => ⟨S800000, .i32⟩
  | .hbm, ⟨29, _⟩ => ⟨S800000, .i1⟩
  | .hbm, ⟨30, _⟩ => ⟨S_, .i32⟩
  | .hbm, ⟨31, _⟩ => ⟨S800000, .i32⟩
  | .hbm, ⟨32, _⟩ => ⟨S800000, .i32⟩
  | .hbm, ⟨33, _⟩ => ⟨S800000, .i32⟩
  | .hbm, ⟨34, _⟩ => ⟨S800000x1, .i32⟩
  | .hbm, ⟨35, _⟩ => ⟨S800000, .f32⟩
  | .hbm, ⟨36, _⟩ => ⟨S_, .i32⟩
  | .hbm, ⟨37, _⟩ => ⟨S800000, .i32⟩
  | .hbm, ⟨38, _⟩ => ⟨S800000, .i1⟩
  | .hbm, ⟨39, _⟩ => ⟨S_, .i32⟩
  | .hbm, ⟨40, _⟩ => ⟨S800000, .i32⟩
  | .hbm, ⟨41, _⟩ => ⟨S800000, .i32⟩
  | .hbm, ⟨42, _⟩ => ⟨S800000, .i32⟩
  | .hbm, ⟨43, _⟩ => ⟨S800000x1, .i32⟩
  | .hbm, ⟨44, _⟩ => ⟨S800000, .f32⟩
  | .hbm, ⟨45, _⟩ => ⟨S800000, .f32⟩
  | .hbm, ⟨46, _⟩ => ⟨S50000, .f32⟩
  | .hbm, ⟨47, _⟩ => ⟨S50000x128, .f32⟩
  | .hbm, ⟨48, _⟩ => ⟨S_, .i32⟩
  | .hbm, ⟨49, _⟩ => ⟨S800000, .i32⟩
  | .hbm, ⟨50, _⟩ => ⟨S800000, .i1⟩
  | .hbm, ⟨51, _⟩ => ⟨S_, .i32⟩
  | .hbm, ⟨52, _⟩ => ⟨S800000, .i32⟩
  | .hbm, ⟨53, _⟩ => ⟨S800000, .i32⟩
  | .hbm, ⟨54, _⟩ => ⟨S800000, .i32⟩
  | .hbm, ⟨55, _⟩ => ⟨S800000x1, .i32⟩
  | .hbm, ⟨56, _⟩ => ⟨S800000x128, .f32⟩
  | .hbm, ⟨57, _⟩ => ⟨S800000x1, .f32⟩
  | .hbm, ⟨58, _⟩ => ⟨S800000x128, .f32⟩
  | .hbm, ⟨59, _⟩ => ⟨S800000x128, .f32⟩
  | .hbm, ⟨60, _⟩ => ⟨S_, .f32⟩
  | .hbm, ⟨61, _⟩ => ⟨S50000x128, .f32⟩
  | .hbm, ⟨62, _⟩ => ⟨S800000x1, .i32⟩
  | .hbm, ⟨63, _⟩ => ⟨S50000x128, .f32⟩
  | .hbm, ⟨64, _⟩ => ⟨S50000x1, .f32⟩
  | .hbm, ⟨65, _⟩ => ⟨S50000x128, .f32⟩
  | .hbm, ⟨66, _⟩ => ⟨S50000x128, .f32⟩
  | .hbm, ⟨67, _⟩ => ⟨S50000x128, .f32⟩
  | .hbm, ⟨68, _⟩ => ⟨S1x128, .f32⟩
  | .hbm, ⟨69, _⟩ => ⟨S50000x128, .f32⟩
  | .hbm, ⟨70, _⟩ => ⟨S50000x128, .f32⟩
  | .hbm, ⟨71, _⟩ => ⟨S_, .f32⟩
  | .hbm, ⟨72, _⟩ => ⟨S50000x128, .f32⟩
  | .hbm, ⟨73, _⟩ => ⟨S50000x128, .f32⟩
  | .hbm, ⟨74, _⟩ => ⟨S50000x128, .f32⟩
  | .hbm, ⟨75, _⟩ => ⟨S_, .i32⟩
  | .hbm, ⟨76, _⟩ => ⟨S800000, .i32⟩
  | .hbm, ⟨77, _⟩ => ⟨S800000, .i1⟩
  | .hbm, ⟨78, _⟩ => ⟨S_, .i32⟩
  | .hbm, ⟨79, _⟩ => ⟨S800000, .i32⟩
  | .hbm, ⟨80, _⟩ => ⟨S800000, .i32⟩
  | .hbm, ⟨81, _⟩ => ⟨S800000, .i32⟩
  | .hbm, ⟨82, _⟩ => ⟨S800000x1, .i32⟩
  | .hbm, ⟨83, _⟩ => ⟨S800000x128, .f32⟩
  | .hbm, ⟨84, _⟩ => ⟨S800000x1, .f32⟩
  | .hbm, ⟨85, _⟩ => ⟨S800000x128, .f32⟩
  | .hbm, ⟨86, _⟩ => ⟨S800000x128, .f32⟩
  | .hbm, ⟨87, _⟩ => ⟨S_, .f32⟩
  | .hbm, ⟨88, _⟩ => ⟨S50000x128, .f32⟩
  | .hbm, ⟨89, _⟩ => ⟨S800000x1, .i32⟩
  | .hbm, ⟨90, _⟩ => ⟨S50000x128, .f32⟩
  | .hbm, ⟨91, _⟩ => ⟨S50000x1, .f32⟩
  | .hbm, ⟨92, _⟩ => ⟨S50000x128, .f32⟩
  | .hbm, ⟨93, _⟩ => ⟨S50000x128, .f32⟩
  | .hbm, ⟨94, _⟩ => ⟨S50000x128, .f32⟩
  | .hbm, ⟨95, _⟩ => ⟨S1x128, .f32⟩
  | .hbm, ⟨96, _⟩ => ⟨S50000x128, .f32⟩
  | .hbm, ⟨97, _⟩ => ⟨S50000x128, .f32⟩
  | .hbm, ⟨98, _⟩ => ⟨S_, .f32⟩
  | .hbm, ⟨99, _⟩ => ⟨S50000x128, .f32⟩
  | .hbm, ⟨100, _⟩ => ⟨S50000x128, .f32⟩
  | .hbm, ⟨101, _⟩ => ⟨S50000x64, .f32⟩
  | .hbm, ⟨102, _⟩ => ⟨S1x64, .f32⟩
  | .hbm, ⟨103, _⟩ => ⟨S50000x64, .f32⟩
  | .hbm, ⟨104, _⟩ => ⟨S50000x64, .f32⟩
  | .hbm, ⟨105, _⟩ => ⟨S50000x64, .f32⟩
  | .hbm, ⟨106, _⟩ => ⟨S1x64, .f32⟩
  | .hbm, ⟨107, _⟩ => ⟨S50000x64, .f32⟩
  | .hbm, ⟨108, _⟩ => ⟨S50000x64, .f32⟩
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_cst : Ref sig .tc := ⟨.hbm, 14, rfl⟩
abbrev main_v4 : Ref sig .tc := ⟨.hbm, 15, rfl⟩
abbrev main_cst_0 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_cst_1 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_cst_2 : Ref sig .tc := ⟨.hbm, 24, rfl⟩
abbrev main_v11 : Ref sig .tc := ⟨.hbm, 25, rfl⟩
abbrev main_v12 : Ref sig .tc := ⟨.hbm, 26, rfl⟩
abbrev main_c : Ref sig .tc := ⟨.hbm, 27, rfl⟩
abbrev main_v13 : Ref sig .tc := ⟨.hbm, 28, rfl⟩
abbrev main_v14 : Ref sig .tc := ⟨.hbm, 29, rfl⟩
abbrev main_c_3 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_c_4 : Ref sig .tc := ⟨.hbm, 36, rfl⟩
abbrev main_v20 : Ref sig .tc := ⟨.hbm, 37, rfl⟩
abbrev main_v21 : Ref sig .tc := ⟨.hbm, 38, rfl⟩
abbrev main_c_5 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_c_6 : Ref sig .tc := ⟨.hbm, 48, rfl⟩
abbrev main_v30 : Ref sig .tc := ⟨.hbm, 49, rfl⟩
abbrev main_v31 : Ref sig .tc := ⟨.hbm, 50, rfl⟩
abbrev main_c_7 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_cst_8 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_call0_cst : Ref sig .tc := ⟨.hbm, 71, rfl⟩
abbrev main_call0_v0 : Ref sig .tc := ⟨.hbm, 72, rfl⟩
abbrev main_v50 : Ref sig .tc := ⟨.hbm, 73, rfl⟩
abbrev main_v51 : Ref sig .tc := ⟨.hbm, 74, rfl⟩
abbrev main_c_9 : Ref sig .tc := ⟨.hbm, 75, rfl⟩
abbrev main_v52 : Ref sig .tc := ⟨.hbm, 76, rfl⟩
abbrev main_v53 : Ref sig .tc := ⟨.hbm, 77, rfl⟩
abbrev main_c_10 : Ref sig .tc := ⟨.hbm, 78, rfl⟩
abbrev main_v54 : Ref sig .tc := ⟨.hbm, 79, rfl⟩
abbrev main_v55 : Ref sig .tc := ⟨.hbm, 80, rfl⟩
abbrev main_v56 : Ref sig .tc := ⟨.hbm, 81, rfl⟩
abbrev main_v57 : Ref sig .tc := ⟨.hbm, 82, rfl⟩
abbrev main_v58 : Ref sig .tc := ⟨.hbm, 83, rfl⟩
abbrev main_v59 : Ref sig .tc := ⟨.hbm, 84, rfl⟩
abbrev main_v60 : Ref sig .tc := ⟨.hbm, 85, rfl⟩
abbrev main_v61 : Ref sig .tc := ⟨.hbm, 86, rfl⟩
abbrev main_cst_11 : Ref sig .tc := ⟨.hbm, 87, rfl⟩
abbrev main_v62 : Ref sig .tc := ⟨.hbm, 88, rfl⟩
abbrev main_v63 : Ref sig .tc := ⟨.hbm, 89, rfl⟩
abbrev main_v64 : Ref sig .tc := ⟨.hbm, 90, rfl⟩
abbrev main_v65 : Ref sig .tc := ⟨.hbm, 91, rfl⟩
abbrev main_v66 : Ref sig .tc := ⟨.hbm, 92, rfl⟩
abbrev main_v67 : Ref sig .tc := ⟨.hbm, 93, rfl⟩
abbrev main_v68 : Ref sig .tc := ⟨.hbm, 94, rfl⟩
abbrev main_v69 : Ref sig .tc := ⟨.hbm, 95, rfl⟩
abbrev main_v70 : Ref sig .tc := ⟨.hbm, 96, rfl⟩
abbrev main_v71 : Ref sig .tc := ⟨.hbm, 97, rfl⟩
abbrev main_call1_cst : Ref sig .tc := ⟨.hbm, 98, rfl⟩
abbrev main_call1_v0 : Ref sig .tc := ⟨.hbm, 99, rfl⟩
abbrev main_v72 : Ref sig .tc := ⟨.hbm, 100, rfl⟩
abbrev main_v73 : Ref sig .tc := ⟨.hbm, 101, rfl⟩
abbrev main_v74 : Ref sig .tc := ⟨.hbm, 102, rfl⟩
abbrev main_v75 : Ref sig .tc := ⟨.hbm, 103, rfl⟩
abbrev main_v76 : Ref sig .tc := ⟨.hbm, 104, rfl⟩
abbrev main_v77 : Ref sig .tc := ⟨.hbm, 105, rfl⟩
abbrev main_v78 : Ref sig .tc := ⟨.hbm, 106, rfl⟩
abbrev main_v79 : Ref sig .tc := ⟨.hbm, 107, rfl⟩
abbrev main_v80 : Ref sig .tc := ⟨.hbm, 108, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S_S50000 : S_.BroadcastsInDim S50000 (![] : Fin 0 → Fin S50000.rank)
  bcast_S800000_S800000x1_0 : S800000.BroadcastsInDim S800000x1 (![0] : Fin 1 → Fin S800000x1.rank)
  bcast_S800000x1_S800000x128_0_1 : S800000x1.BroadcastsInDim S800000x128 (![0, 1] : Fin 2 → Fin S800000x128.rank)
  bcast_S_S50000x128 : S_.BroadcastsInDim S50000x128 (![] : Fin 0 → Fin S50000x128.rank)
  bcast_S50000_S50000x1_0 : S50000.BroadcastsInDim S50000x1 (![0] : Fin 1 → Fin S50000x1.rank)
  bcast_S50000x1_S50000x128_0_1 : S50000x1.BroadcastsInDim S50000x128 (![0, 1] : Fin 2 → Fin S50000x128.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  bcast_S64_S1x64_1 : S64.BroadcastsInDim S1x64 (![1] : Fin 1 → Fin S1x64.rank)
  bcast_S1x64_S50000x64_0_1 : S1x64.BroadcastsInDim S50000x64 (![0, 1] : Fin 2 → Fin S50000x64.rank)
  scatter_S50000_S800000x1_S800000_n_0_0_1_wf : ScatterDims.WF S50000 S800000x1 S800000 [] [0] [0] 1
  gather_S50000_S800000x1_S800000_n_0_n_n_0_1_1_wf : GatherDims.WF S50000 S800000x1 S800000 [] [0] [] [0] [] 1 ![1]
  dot_S50000x128_S128x128_S50000x128_1_0_0_1_n_n_wf : DotDims.WF S50000x128 S128x128 S50000x128 [1] [0] [0] [1] [] []
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  dot_S50000x128_S128x64_S50000x64_1_0_0_1_n_n_wf : DotDims.WF S50000x128 S128x64 S50000x64 [1] [0] [0] [1] [] []

variable [Facts₀]

def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def gather_S50000_S800000x1_S800000_n_0_n_n_0_1_1 : GatherDims S50000 S800000x1 S800000 where
  offsetDims := []
  collapsedSliceDims := [0]
  operandBatchingDims := []
  startIndicesBatchingDims := []
  startIndexMap := [0]
  indexVectorDim := 1
  sliceSizes := ![1]
  wf := gather_S50000_S800000x1_S800000_n_0_n_n_0_1_1_wf
def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf
def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def dot_S50000x128_S128x64_S50000x64_1_0_0_1_n_n : DotDims S50000x128 S128x64 S50000x64 where
  lhsContracting := [1]
  rhsContracting := [0]
  lhsNonContracting := [0]
  rhsNonContracting := [1]
  lhsBatch := []
  rhsBatch := []
  wf := dot_S50000x128_S128x64_S50000x64_1_0_0_1_n_n_wf

class Facts : Prop extends Facts₀ where

variable [Facts]
-- ==== Proof.RunAll.lean ====
/-
  The run of the six calls and the host stretches between them, with the final contents of EVERY unscoped buffer named:
  each ends at the last boundary's contents (the fold of the host stretches and of the calls' write-backs from the launch
  memory). The two results are read off it.
-/
import proofs.«146126_j2482491097959_1_alg».proof.Proof.Gen.KernelIdeal.Frame

set_option maxRecDepth 16384

noncomputable section

namespace Cert.KernelIdeal.Tiles

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution terminates, nothing faulting, with every unscoped buffer of every core at the last
    boundary's contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W9 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W9 m ρ c b)
    (hfin := fun c s' => by
      iintro ⟨⟨Hh, -⟩, HSI⟩
      unfold StableHlo.held
      imodintro
      iapply (pointsTo_read_all (Pipeline.ucRefs τ sig) (fun b => (((c : Thread nD τ)).1, b)) (W9 m ρ c) s')
      isplitl [Hh] <;> iassumption)
    (hQ := fun s h => h)

/-- The run with the two results named and the arguments as launched. -/
theorem run_results : θ_run defs (onTc (τ := τ) (main (F := F))) ⟨m, fun _ => 0, ρ⟩ (fun r => ∀ c : Dev nD,
      r.2.mem ((c.tc : Thread nD τ).loc main_v61) = W9 m ρ c (Proc.devRef .tc main_v61)
      ∧ r.2.mem ((c.tc : Thread nD τ).loc main_v62) = W9 m ρ c (Proc.devRef .tc main_v62)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  (θ_run defs _ _).mono (fun s h c =>
      ⟨h c _ (mem_uc main_v61 (by decide)),
       h c _ (mem_uc main_v62 (by decide)),
       (h c _ (mem_uc main_arg0 (by decide))).trans (W9_main_arg0 m ρ c),
       (h c _ (mem_uc main_arg1 (by decide))).trans (W9_main_arg1 m ρ c),
       (h c _ (mem_uc main_arg2 (by decide))).trans (W9_main_arg2 m ρ c),
       (h c _ (mem_uc main_arg3 (by decide))).trans (W9_main_arg3 m ρ c),
       (h c _ (mem_uc main_arg4 (by decide))).trans (W9_main_arg4 m ρ c),
       (h c _ (mem_uc main_arg5 (by decide))).trans (W9_main_arg5 m ρ c),
       (h c _ (mem_uc main_arg6 (by decide))).trans (W9_main_arg6 m ρ c),
       (h c _ (mem_uc main_arg7 (by decide))).trans (W9_main_arg7 m ρ c),
       (h c _ (mem_uc main_arg8 (by decide))).trans (W9_main_arg8 m ρ c),
       (h c _ (mem_uc main_arg9 (by decide))).trans (W9_main_arg9 m ρ c)⟩)
    (run_all m ρ)

end Cert.KernelIdeal.Tiles

end
-- ==== Proof.LibMatmul.lean ====
/-
  A matrix product of two rank-2 arrays read at coordinates. For dimension numbers that contract the left operand's
  second axis against the right operand's first, keep the left rows and the right columns and have no batch axis,
  the entry (p, q) of the product is the sum over the contracted position j of lhs (p, j) · rhs (j, q): the left
  operand is read along row p, the right operand along column q. Both the matrix unit's product into a zero
  accumulator and the host's dot product are that sum on the extended reals.
-/
import Idealize.ShloMosaic.Lib.ValueIdx
import Idealize.ShloMosaic.PureOps.Ideal.Laws

open scoped BigOperators

namespace Idealize.ShloMosaic.ValueIdx

open Idealize.ShloMosaic

section RowsByColumns

variable {a k b : ℕ} (d : DotDims ⟨2, ![a, k]⟩ ⟨2, ![k, b]⟩ ⟨2, ![a, b]⟩)

/-- One contracted axis. -/
theorem dot_contr_rank (hl : d.lhsContracting = [1]) : d.contr.rank = 1 := by
  rw [d.rank_contr, hl]; rfl

/-- Its extent is the shared inner extent k. -/
theorem dot_contr_size (hl : d.lhsContracting = [1]) :
    d.contr.size ⟨0, by rw [dot_contr_rank d hl]; exact Nat.one_pos⟩ = k := by
  rw [d.size_contr 0 (by rw [hl]; exact Nat.one_pos), List.getElem_of_eq hl]
  rfl

/-- The contraction index is its one coordinate. -/
noncomputable def dotEquiv (hl : d.lhsContracting = [1]) : d.contr.Idx ≃ Fin k :=
  contrEquiv1 d k (dot_contr_rank d hl) (dot_contr_size d hl)

/-- The left operand is read at row p, contracted position j. -/
theorem dot_lhsIdx_ix2 (hl : d.lhsContracting = [1]) (hln : d.lhsNonContracting = [0]) (hlb : d.lhsBatch = [])
    (p : Fin a) (q : Fin b) (j : Fin k) :
    d.lhsIdx (ix2 p q) ((dotEquiv d hl).symm j) = ix2 p j := by
  funext ax
  apply Fin.ext
  match ax with
  | ⟨0, _⟩ =>
    have hnb : (0 : Fin 2) ∉ d.lhsBatch := by rw [hlb]; exact List.not_mem_nil
    have hn : (0 : Fin 2) ∈ d.lhsNonContracting := by rw [hln]; exact List.mem_singleton.mpr rfl
    show (d.lhsIdx (ix2 p q) ((dotEquiv d hl).symm j) (0 : Fin 2)).val = p.val
    unfold DotDims.lhsIdx
    rw [dif_neg hnb, dif_pos hn]
    simp only [Fin.val_cast]
    have key : ∀ (n : ℕ) (hn : n < (⟨2, ![a, b]⟩ : Shape).rank), n = 0 → ((ix2 p q) ⟨n, hn⟩).val = p.val :=
      fun n hn h => by subst h; rfl
    exact key _ _ (by simp [hlb, hln])
  | ⟨1, _⟩ =>
    show (d.lhsIdx (ix2 p q) ((dotEquiv d hl).symm j) (1 : Fin 2)).val = j.val
    rw [d.lhsIdx_val_of_single hl]
    exact contrEquiv1_symm_val d k (dot_contr_rank d hl) (dot_contr_size d hl) j

/-- The right operand is read at contracted position j, column q. -/
theorem dot_rhsIdx_ix2 (hl : d.lhsContracting = [1]) (hr : d.rhsContracting = [0]) (hln : d.lhsNonContracting = [0])
    (hrn : d.rhsNonContracting = [1]) (hlb : d.lhsBatch = []) (hrb : d.rhsBatch = [])
    (p : Fin a) (q : Fin b) (j : Fin k) :
    d.rhsIdx (ix2 p q) ((dotEquiv d hl).symm j) = ix2 j q := by
  funext ax
  apply Fin.ext
  match ax with
  | ⟨0, _⟩ =>
    show (d.rhsIdx (ix2 p q) ((dotEquiv d hl).symm j) (0 : Fin 2)).val = j.val
    rw [d.rhsIdx_val_of_single hr]
    exact contrEquiv1_symm_val d k (dot_contr_rank d hl) (dot_contr_size d hl) j
  | ⟨1, _⟩ =>
    have hnb : (1 : Fin 2) ∉ d.rhsBatch := by rw [hrb]; exact List.not_mem_nil
    have hn : (1 : Fin 2) ∈ d.rhsNonContracting := by rw [hrn]; exact List.mem_singleton.mpr rfl
    show (d.rhsIdx (ix2 p q) ((dotEquiv d hl).symm j) (1 : Fin 2)).val = q.val
    unfold DotDims.rhsIdx
    rw [dif_neg hnb, dif_pos hn]
    simp only [Fin.val_cast]
    have key : ∀ (n : ℕ) (hn : n < (⟨2, ![a, b]⟩ : Shape).rank), n = 1 → ((ix2 p q) ⟨n, hn⟩).val = q.val :=
      fun n hn h => by subst h; rfl
    exact key _ _ (by simp [hlb, hln, hrn])

variable {φ₁ φ₂ : FTy}

/-- The matrix unit's product into the zero accumulator, at (p, q). -/
theorem matmul_zero_ix2 (hl : d.lhsContracting = [1]) (hr : d.rhsContracting = [0]) (hln : d.lhsNonContracting = [0])
    (hrn : d.rhsNonContracting = [1]) (hlb : d.lhsBatch = []) (hrb : d.rhsBatch = [])
    (prec : Option ContractPrecision) (lhs : FVec Ideal ⟨2, ![a, k]⟩ φ₁) (rhs : FVec Ideal ⟨2, ![k, b]⟩ φ₂)
    (p : Fin a) (q : Fin b) :
    FloatOps.matmul d prec lhs rhs (constant ⟨2, ![a, b]⟩ .f32 0x00000000#32) (ix2 p q)
      = ∑ j : Fin k, lhs (ix2 p j) * rhs (ix2 j q) := by
  rw [Ideal.matmul_constant_zero_apply, ← Equiv.sum_comp (dotEquiv d hl).symm]
  refine Finset.sum_congr rfl fun j _ => ?_
  rw [dot_lhsIdx_ix2 d hl hln hlb p q j, dot_rhsIdx_ix2 d hl hr hln hrn hlb hrb p q j]

/-- The host's dot product, at (p, q). -/
theorem dotGeneral_ix2 (hl : d.lhsContracting = [1]) (hr : d.rhsContracting = [0]) (hln : d.lhsNonContracting = [0])
    (hrn : d.rhsNonContracting = [1]) (hlb : d.lhsBatch = []) (hrb : d.rhsBatch = [])
    (prec : Option ContractPrecision) (sched : HostSchedule) (lhs : FVec Ideal ⟨2, ![a, k]⟩ φ₁) (rhs : FVec Ideal ⟨2, ![k, b]⟩ φ₂)
    (p : Fin a) (q : Fin b) :
    FloatOps.dotGeneral d prec sched lhs rhs (ix2 p q) = ∑ j : Fin k, lhs (ix2 p j) * rhs (ix2 j q) := by
  rw [Ideal.dotGeneral_apply, ← Equiv.sum_comp (dotEquiv d hl).symm]
  refine Finset.sum_congr rfl fun j _ => ?_
  rw [dot_lhsIdx_ix2 d hl hln hlb p q j, dot_rhsIdx_ix2 d hl hr hln hrn hlb hrb p q j]

end RowsByColumns

end Idealize.ShloMosaic.ValueIdx
-- ==== Proof.LibMatProd.lean ====
/-
  The product of two matrices on the extended reals as ONE whole-array function, and the two operations that compute it
  (any extents).

  For A : [a, k] and B : [k, b] the entry (p, q) of A·B is the sum over j of A (p, j) · B (j, q). At the exact instance
  the matrix unit's product into a zero accumulator and the host's dot product, both with the plain dimension numbers
  (contract the left operand's second axis against the right operand's first, no batch axis), are this function of their
  operands; a narrowing of the operands' float format beforehand changes nothing, being the identity on extended reals.
-/
import proofs.«146126_j2482491097959_1_alg».proof.Proof.LibMatmul
import Idealize.ShloMosaic.Lib.Pipeline.Value

noncomputable section

open scoped BigOperators

namespace Cert.Products

open Idealize.ShloMosaic Idealize.ShloMosaic.ValueIdx

/-- Entry (p, q) of A·B: the sum over j of A (p, j) · B (j, q). -/
def matProd {a k b : ℕ} (A : (⟨2, ![a, k]⟩ : Shape).Idx → EReal) (B : (⟨2, ![k, b]⟩ : Shape).Idx → EReal) :
    (⟨2, ![a, b]⟩ : Shape).Idx → EReal :=
  fun i => ∑ j : Fin k, A (ix2 (i 0) j) * B (ix2 j (i 1))

theorem matProd_ix2 {a k b : ℕ} (A : (⟨2, ![a, k]⟩ : Shape).Idx → EReal) (B : (⟨2, ![k, b]⟩ : Shape).Idx → EReal)
    (p : Fin a) (q : Fin b) : matProd A B (ix2 p q) = ∑ j : Fin k, A (ix2 p j) * B (ix2 j q) := rfl

section Plain

variable {a k b : ℕ} (d : DotDims ⟨2, ![a, k]⟩ ⟨2, ![k, b]⟩ ⟨2, ![a, b]⟩)
variable (hl : d.lhsContracting = [1]) (hr : d.rhsContracting = [0]) (hln : d.lhsNonContracting = [0])
variable (hrn : d.rhsNonContracting = [1]) (hlb : d.lhsBatch = []) (hrb : d.rhsBatch = [])
variable {φ₁ φ₂ : FTy}

include hl hr hln hrn hlb hrb in
/-- The matrix unit's product into the zero accumulator is the product. -/
theorem matmul_zero_eq (prec : Option ContractPrecision) (lhs : FVec Ideal ⟨2, ![a, k]⟩ φ₁) (rhs : FVec Ideal ⟨2, ![k, b]⟩ φ₂) :
    FloatOps.matmul d prec lhs rhs (constant ⟨2, ![a, b]⟩ .f32 0x00000000#32) = matProd lhs rhs := by
  funext i
  obtain ⟨p, q, rfl⟩ : ∃ (p : Fin a) (q : Fin b), i = ix2 p q := ⟨i 0, i 1, eq_ix2 i⟩
  exact matmul_zero_ix2 d hl hr hln hrn hlb hrb prec lhs rhs p q

include hl hr hln hrn hlb hrb in
/-- The host's dot product is the product. -/
theorem dotGeneral_eq (prec : Option ContractPrecision) (sched : HostSchedule) (lhs : FVec Ideal ⟨2, ![a, k]⟩ φ₁)
    (rhs : FVec Ideal ⟨2, ![k, b]⟩ φ₂) :
    FloatOps.dotGeneral d prec sched lhs rhs = matProd lhs rhs := by
  funext i
  obtain ⟨p, q, rfl⟩ : ∃ (p : Fin a) (q : Fin b), i = ix2 p q := ⟨i 0, i 1, eq_ix2 i⟩
  exact dotGeneral_ix2 d hl hr hln hrn hlb hrb prec sched lhs rhs p q

end Plain

/-- Narrowing both operands to bf16 first changes nothing: on extended reals the narrowing is the identity. -/
theorem matProd_narrowed {a k b : ℕ} (A : FVec Ideal ⟨2, ![a, k]⟩ .f32) (B : FVec Ideal ⟨2, ![k, b]⟩ .f32)
    (hA hB : FTy.bf16.bits < FTy.f32.bits) :
    matProd (truncf .bf16 A hA) (truncf .bf16 B hB) = matProd A B := rfl

/-- A product depends on its left operand only through the rows it reads: if A' (p', ·) is row p of A, the entries
    (p', q) of A'·B and (p, q) of A·B agree. -/
theorem matProd_row {a a' k b : ℕ} (A : (⟨2, ![a, k]⟩ : Shape).Idx → EReal) (A' : (⟨2, ![a', k]⟩ : Shape).Idx → EReal)
    (B : (⟨2, ![k, b]⟩ : Shape).Idx → EReal) (p : Fin a) (p' : Fin a') (q : Fin b)
    (h : ∀ j : Fin k, A' (ix2 p' j) = A (ix2 p j)) : matProd A' B (ix2 p' q) = matProd A B (ix2 p q) := by
  rw [matProd_ix2, matProd_ix2]
  exact Finset.sum_congr rfl fun j _ => by rw [h j]

end Cert.Products

end
-- ==== Proof.LibHostColumns.lean ====
/-
  Host forms of a keepdims reduction, read at coordinates. A reduction over the columns of an `[a, b]` array leaves one
  value per row; the index of row `p` with column `k` put back is `(p, k)`. The host lays a per-row value back against
  the rows by two `broadcast_in_dim`s: `[a]` to the column `[a, 1]` (operand axis 0 on result axis 0), then the column
  to `[a, b]` (operand axes on the same result axes, the unit axis repeated). At `(p, c)` the result is the value of
  row `p`.
-/
import Idealize.ShloMosaic.Lib.ValueIdx
import Idealize.ShloMosaic.Lib.Pipeline.Value
import Idealize.ShloMosaic.PureOps.Reduce

namespace Idealize.ShloMosaic.ValueIdx

variable {α : Type}

/-- The reduced index `p` of a reduction over the columns, with column `k` put back, is `(p, k)`. -/
theorem lift_ix1_columns {a b : ℕ} (h : (⟨2, ![a, b]⟩ : Shape).Reduces [1] (⟨1, ![a]⟩ : Shape)) (p : Fin a)
    (k : Fin ((⟨2, ![a, b]⟩ : Shape).size 1)) : h.lift (ix1 p) k = ix2 p (⟨k.val, k.isLt⟩ : Fin b) := by
  funext c; apply Fin.ext
  fin_cases c <;> rfl

/-- An `[a]` array laid out as the column `[a, 1]` by the host's broadcast reads, at `(i, u)`, the operand at `i`. -/
theorem broadcastInDim_a_a1_apply {a : ℕ} (x : (⟨1, ![a]⟩ : Shape).Idx → α)
    (h : (⟨1, ![a]⟩ : Shape).BroadcastsInDim ⟨2, ![a, 1]⟩ (![0] : Fin 1 → Fin 2)) (i : Fin a) (u : Fin 1) :
    broadcastInDim ⟨2, ![a, 1]⟩ (![0] : Fin 1 → Fin 2) h x (ix2 i u) = x (ix1 i) := by
  refine broadcastInDim_apply _ h x (ix2 i u) (ix1 i) fun ax => ?_
  match ax with
  | ⟨0, _⟩ =>
    show i.val = if a = 1 then 0 else i.val
    split
    · have := i.isLt; omega
    · rfl

/-- A column `[a, 1]` laid against `b` columns by the host's broadcast reads, at `(p, c)`, the column at `(p, 0)`. -/
theorem broadcastInDim_a1_ab_apply {a b : ℕ} (v : (⟨2, ![a, 1]⟩ : Shape).Idx → α)
    (h : (⟨2, ![a, 1]⟩ : Shape).BroadcastsInDim ⟨2, ![a, b]⟩ (![0, 1] : Fin 2 → Fin 2)) (p : Fin a) (c : Fin b) :
    broadcastInDim ⟨2, ![a, b]⟩ (![0, 1] : Fin 2 → Fin 2) h v (ix2 p c) = v (ix2 p (0 : Fin 1)) := by
  refine broadcastInDim_apply _ h v (ix2 p c) (ix2 p (0 : Fin 1)) fun ax => ?_
  match ax with
  | ⟨0, _⟩ =>
    show p.val = if a = 1 then 0 else p.val
    split
    · have := p.isLt; omega
    · rfl
  | ⟨1, _⟩ =>
    show (0 : ℕ) = if (1 : ℕ) = 1 then 0 else c.val
    rw [if_pos rfl]

/-- A per-row value laid out as a column and then against every column reads, at `(p, c)`, the value of row `p`. -/
theorem broadcastInDim_column_apply {a b : ℕ} (x : (⟨1, ![a]⟩ : Shape).Idx → α)
    (h1 : (⟨1, ![a]⟩ : Shape).BroadcastsInDim ⟨2, ![a, 1]⟩ (![0] : Fin 1 → Fin 2))
    (h2 : (⟨2, ![a, 1]⟩ : Shape).BroadcastsInDim ⟨2, ![a, b]⟩ (![0, 1] : Fin 2 → Fin 2)) (p : Fin a) (c : Fin b) :
    broadcastInDim ⟨2, ![a, b]⟩ (![0, 1] : Fin 2 → Fin 2) h2 (broadcastInDim ⟨2, ![a, 1]⟩ (![0] : Fin 1 → Fin 2) h1 x) (ix2 p c)
      = x (ix1 p) :=
  (broadcastInDim_a1_ab_apply _ h2 p c).trans (broadcastInDim_a_a1_apply x h1 p 0)

end Idealize.ShloMosaic.ValueIdx
-- ==== Proof.LibHostRows.lean ====
/-
  The host's keepdims broadcasts for a ROW, read at coordinates, for any extents and element type:
  a vector [b] laid out as the row [1, b] (broadcast_in_dim with dims [1]) reads (u, q) at q, and a row [1, b] laid
  against a rows (dims [0, 1]) reads (p, q) at (0, q): what a bias b[None, :] added to every row of a matrix needs.
-/
import Idealize.ShloMosaic.Lib.ValueIdx
import Idealize.ShloMosaic.Lib.Pipeline.Value

namespace Idealize.ShloMosaic.ValueIdx

variable {α : Type}

/-- A `[b]` array laid out as the row `[1, b]` by the host's broadcast reads, at `(u, q)`, the operand at `q`. -/
theorem broadcastInDim_b_1b_apply {b : ℕ} (x : (⟨1, ![b]⟩ : Shape).Idx → α)
    (h : (⟨1, ![b]⟩ : Shape).BroadcastsInDim ⟨2, ![1, b]⟩ (![1] : Fin 1 → Fin 2)) (u : Fin 1) (q : Fin b) :
    broadcastInDim ⟨2, ![1, b]⟩ (![1] : Fin 1 → Fin 2) h x (ix2 u q) = x (ix1 q) := by
  refine broadcastInDim_apply _ h x (ix2 u q) (ix1 q) fun ax => ?_
  match ax with
  | ⟨0, _⟩ =>
    show q.val = if b = 1 then 0 else q.val
    split
    · have := q.isLt; omega
    · rfl

/-- A row `[1, b]` laid against `a` rows by the host's broadcast reads, at `(p, q)`, the row at `(0, q)`. -/
theorem broadcastInDim_1b_ab_apply {a b : ℕ} (v : (⟨2, ![1, b]⟩ : Shape).Idx → α)
    (h : (⟨2, ![1, b]⟩ : Shape).BroadcastsInDim ⟨2, ![a, b]⟩ (![0, 1] : Fin 2 → Fin 2)) (p : Fin a) (q : Fin b) :
    broadcastInDim ⟨2, ![a, b]⟩ (![0, 1] : Fin 2 → Fin 2) h v (ix2 p q) = v (ix2 (0 : Fin 1) q) := by
  refine broadcastInDim_apply _ h v (ix2 p q) (ix2 (0 : Fin 1) q) fun ax => ?_
  match ax with
  | ⟨0, _⟩ =>
    show (0 : ℕ) = if (1 : ℕ) = 1 then 0 else p.val
    rw [if_pos rfl]
  | ⟨1, _⟩ =>
    show q.val = if b = 1 then 0 else q.val
    split
    · have := q.isLt; omega
    · rfl

/-- A per-column value laid out as a row and then against every row reads, at `(p, q)`, the value of column `q`. -/
theorem broadcastInDim_row_apply {a b : ℕ} (x : (⟨1, ![b]⟩ : Shape).Idx → α)
    (h1 : (⟨1, ![b]⟩ : Shape).BroadcastsInDim ⟨2, ![1, b]⟩ (![1] : Fin 1 → Fin 2))
    (h2 : (⟨2, ![1, b]⟩ : Shape).BroadcastsInDim ⟨2, ![a, b]⟩ (![0, 1] : Fin 2 → Fin 2)) (p : Fin a) (q : Fin b) :
    broadcastInDim ⟨2, ![a, b]⟩ (![0, 1] : Fin 2 → Fin 2) h2 (broadcastInDim ⟨2, ![1, b]⟩ (![1] : Fin 1 → Fin 2) h1 x) (ix2 p q)
      = x (ix1 q) :=
  (broadcastInDim_1b_ab_apply _ h2 p q).trans (broadcastInDim_b_1b_apply x h1 0 q)

end Idealize.ShloMosaic.ValueIdx
-- ==== Proof.Stages.lean ====
/-
  The stages of a two-layer graph-convolution encoder with two linear heads, each as one function of whole arrays,
  written with the host's own operations so that the reference's composed result is these functions applied in order.

  From the edge list (row 0 the sources, row 1 the targets) the degree of a node is one plus the number of edges that
  end at it, dinv = 1 / sqrt deg, an edge's weight is dinv(source) · dinv(target) and a node's own weight dinv².
  A layer takes features x, forms h = x·W, adds for every node the weighted rows h[source] of the edges ending at it
  (a gather, a product, an accumulating scatter), adds h scaled by the node's own weight and the bias row, and clips
  at zero. A head is h·W plus a bias row.

  Beside them, the index-level readings the tiled kernels need: the host's product is the sum over the contracted
  position, the layer's last step at (p, q) is max(agg (p,q) + h (p,q) · s p + b q, 0), a head at (p, q) is the product's
  entry plus b q.
-/
import proofs.«146126_j2482491097959_1_alg».proof.Proof.Gen.ReferenceIdeal
import proofs.«146126_j2482491097959_1_alg».proof.Proof.LibMatProd
import proofs.«146126_j2482491097959_1_alg».proof.Proof.LibHostColumns
import proofs.«146126_j2482491097959_1_alg».proof.Proof.LibHostRows
import Idealize.ShloMosaic.PureOps.Ideal

noncomputable section

open scoped BigOperators

namespace Cert.Vgae

open Idealize.ShloMosaic Idealize.ShloMosaic.ValueIdx Cert.ReferenceIdeal Cert.ReferenceIdeal.Facts₀ Cert.Products

abbrev Edges := (⟨S2x800000, .i32⟩ : BufTy).Contents (Elt Ideal)
abbrev EdgeIds := (⟨S800000, .i32⟩ : BufTy).Contents (Elt Ideal)
abbrev EdgeCol := (⟨S800000x1, .i32⟩ : BufTy).Contents (Elt Ideal)
abbrev EdgeVals := FVec Ideal S800000 .f32
abbrev NodeVals := FVec Ideal S50000 .f32
abbrev Feat := FVec Ideal S50000x128 .f32
abbrev Lat := FVec Ideal S50000x64 .f32

/-- The sources of the edges: row 0 of the edge list. -/
def sources (ei : Edges) : EdgeIds :=
  shapeCast _ (extractStridedSlice S1x800000 ![0, 0] ei slices_S2x800000_S1x800000_0_0) shapeCasts_S1x800000_S800000

/-- The targets of the edges: row 1 of the edge list. -/
def targets (ei : Edges) : EdgeIds :=
  shapeCast _ (extractStridedSlice S1x800000 ![1, 0] ei slices_S2x800000_S1x800000_1_0) shapeCasts_S1x800000_S800000

/-- Node numbers as a gather's index column: a negative number counts from the end. -/
def wrapped (v : EdgeIds) : EdgeCol :=
  broadcastInDim S800000x1 ![0] bcast_S800000_S800000x1_0
    (select (cmpi .slt v (broadcastInDim S800000 ![] bcast_S_S800000 (constantI S_ 32 0#32)))
      (addi v (broadcastInDim S800000 ![] bcast_S_S800000 (constantI S_ 32 50000#32))) v)

/-- 1 / sqrt (1 + the number of edges ending at the node). -/
def dinv (dst : EdgeIds) : NodeVals :=
  Host.divf (F := Ideal) (broadcastInDim S50000 ![] bcast_S_S50000 (constant (F := Ideal) S_ .f32 0x3F800000#32))
    (Host.sqrt (F := Ideal) (addf (Host.scatterAdd (F := Ideal) scatter_S50000_S800000x1_S800000_n_0_0_1
        (broadcastInDim S50000 ![] bcast_S_S50000 (constant (F := Ideal) S_ .f32 0x00000000#32))
        (broadcastInDim S800000x1 ![0] bcast_S800000_S800000x1_0 dst)
        (broadcastInDim S800000 ![] bcast_S_S800000 (constant (F := Ideal) S_ .f32 0x3F800000#32)))
      (broadcastInDim S50000 ![] bcast_S_S50000 (constant (F := Ideal) S_ .f32 0x3F800000#32))))

/-- An edge's weight: dinv at its source times dinv at its target. -/
def edgeWeight (src dst : EdgeIds) : EdgeVals :=
  mulf (Host.gather gather_S50000_S800000x1_S800000_n_0_n_n_0_1_1 (dinv dst) (wrapped src))
    (Host.gather gather_S50000_S800000x1_S800000_n_0_n_n_0_1_1 (dinv dst) (wrapped dst))

/-- A node's own weight: dinv squared. -/
def selfWeight (dst : EdgeIds) : NodeVals := mulf (dinv dst) (dinv dst)

/-- For every node the sum, over the edges ending at it, of the edge's weight times the source's row of h. -/
def aggregate (src dst : EdgeIds) (ew : EdgeVals) (h : Feat) : Feat :=
  Host.scatterAdd (F := Ideal) scatter_S50000x128_S800000x1_S800000x128_1_0_0_1
    (broadcastInDim S50000x128 ![] bcast_S_S50000x128 (constant (F := Ideal) S_ .f32 0x00000000#32))
    (broadcastInDim S800000x1 ![0] bcast_S800000_S800000x1_0 dst)
    (mulf (Host.gather gather_S50000x128_S800000x1_S800000x128_1_0_n_n_0_1_1128 h (wrapped src))
      (broadcastInDim S800000x128 ![0, 1] bcast_S800000x1_S800000x128_0_1 (broadcastInDim S800000x1 ![0] bcast_S800000_S800000x1_0 ew)))

/-- x·W for a 128-column weight. -/
def project (x : Feat) (w : FVec Ideal S128x128 .f32) : Feat :=
  Host.dotGeneral (F := Ideal) dot_S50000x128_S128x128_S50000x128_1_0_0_1_n_n none x w

/-- max(agg + h · s[:, None] + b[None, :], 0). -/
def finish (agg h : Feat) (s : NodeVals) (b : FVec Ideal S128 .f32) : Feat :=
  maximumf (addf (addf agg (mulf h (broadcastInDim S50000x128 ![0, 1] bcast_S50000x1_S50000x128_0_1 (broadcastInDim S50000x1 ![0] bcast_S50000_S50000x1_0 s))))
      (broadcastInDim S50000x128 ![0, 1] bcast_S1x128_S50000x128_0_1 (broadcastInDim S1x128 ![1] bcast_S128_S1x128_1 b)))
    (broadcastInDim S50000x128 ![] bcast_S_S50000x128 (constant (F := Ideal) S_ .f32 0x00000000#32))

/-- h·W + b[None, :] for a 64-column weight. -/
def head (h : Feat) (w : FVec Ideal S128x64 .f32) (b : FVec Ideal S64 .f32) : Lat :=
  addf (Host.dotGeneral (F := Ideal) dot_S50000x128_S128x64_S50000x64_1_0_0_1_n_n none h w)
    (broadcastInDim S50000x64 ![0, 1] bcast_S1x64_S50000x64_0_1 (broadcastInDim S1x64 ![1] bcast_S64_S1x64_1 b))

/-- One layer: project, aggregate over the edges, add the node's own share and the bias, clip at zero. -/
def layer (ei : Edges) (x : Feat) (w : FVec Ideal S128x128 .f32) (b : FVec Ideal S128 .f32) : Feat :=
  finish (aggregate (sources ei) (targets ei) (edgeWeight (sources ei) (targets ei)) (project x w)) (project x w)
    (selfWeight (targets ei)) b

theorem layer_def (ei : Edges) (x : Feat) (w : FVec Ideal S128x128 .f32) (b : FVec Ideal S128 .f32) :
    layer ei x w b = finish (aggregate (sources ei) (targets ei) (edgeWeight (sources ei) (targets ei)) (project x w)) (project x w)
      (selfWeight (targets ei)) b := rfl

/-! ## Read at an index -/

/-- The projection is the matrix product. -/
theorem project_eq (x : Feat) (w : FVec Ideal S128x128 .f32) : project x w = matProd x w := by
  unfold project
  simp only [Host.dotGeneral]
  exact dotGeneral_eq dot_S50000x128_S128x128_S50000x128_1_0_0_1_n_n rfl rfl rfl rfl rfl rfl none _ x w

/-- The layer's last step at (p, q). -/
theorem finish_apply (agg h : Feat) (s : NodeVals) (b : FVec Ideal S128 .f32) (p : Fin 50000) (q : Fin 128) :
    finish agg h s b (ix2 p q) = max (agg (ix2 p q) + h (ix2 p q) * s (ix1 p) + b (ix1 q)) (Ideal.ofBits .f32 0x00000000#32) := by
  unfold finish
  rw [maximumf_apply, addf_apply, addf_apply, mulf_apply]
  rw [broadcastInDim_column_apply s bcast_S50000_S50000x1_0 bcast_S50000x1_S50000x128_0_1 p q,
    broadcastInDim_row_apply b bcast_S128_S1x128_1 bcast_S1x128_S50000x128_0_1 p q]
  rfl

/-- A head at (p, q). -/
theorem head_apply (h : Feat) (w : FVec Ideal S128x64 .f32) (b : FVec Ideal S64 .f32)
    (p : Fin 50000) (q : Fin 64) : head h w b (ix2 p q) = matProd h w (ix2 p q) + b (ix1 q) := by
  unfold head
  rw [addf_apply, broadcastInDim_row_apply b bcast_S64_S1x64_1 bcast_S1x64_S50000x64_0_1 p q]
  simp only [Host.dotGeneral]
  rw [dotGeneral_eq dot_S50000x128_S128x64_S50000x64_1_0_0_1_n_n rfl rfl rfl rfl rfl rfl none _ h w]

end Cert.Vgae

end
-- ==== Proof.LibColumns.lean ====
/-
  Column forms of a keepdims reduction, read at coordinates: a vector of `a` entries cast to the column `[a, 1]` reads
  its entry `i` at `(i, 0)`, and a column `[a, 1]` broadcast along `b` columns reads, at `(p, c)`, the column at
  `(p, 0)` — so a per-row value (a row maximum, a row sum) laid against every entry of its row is that row's value.
-/
import Idealize.ShloMosaic.Lib.ValueIdx
import Idealize.ShloMosaic.Lib.Pipeline.Value

namespace Idealize.ShloMosaic.ValueIdx

variable {α : Type}

/-- An `[a]` array cast to the column `[a, 1]` reads, at `(i, u)`, the operand at `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast to `[a, b]` reads, at `(p, c)`, the column at `(p, 0)`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ =>
    show (0 : ℕ) = if (1 : ℕ) = 1 then 0 else c.val
    rw [if_pos rfl]

/-- A per-row value cast to a column and broadcast along the row reads, at `(p, c)`, the value of row `p`. -/
theorem broadcastTo_column_apply {a b : ℕ} (x : (⟨1, ![a]⟩ : Shape).Idx → α) (h1 : (⟨1, ![a]⟩ : Shape).ShapeCasts ⟨2, ![a, 1]⟩)
    (h2 : (⟨2, ![a, 1]⟩ : Shape).Broadcasts ⟨2, ![a, b]⟩) (p : Fin a) (c : Fin b) :
    broadcastTo ⟨2, ![a, b]⟩ (shapeCast ⟨2, ![a, 1]⟩ x h1) h2 (ix2 p c) = x (ix1 p) :=
  (broadcastTo_a1_ab_apply _ h2 p c).trans (shapeCast_a_a1_apply x h1 p 0)

end Idealize.ShloMosaic.ValueIdx
-- ==== Proof.LibRowSteps.lean ====
/-
  The two row-wise steps the tiled kernels compute, each as one function of whole arrays of extended reals, for any
  number of rows:

    finishCol z agg h s b  at (p, q)  =  max (agg (p, q) + h (p, q) · s (p, 0) + b q, z)
    headRow x w b          at (p, q)  =  (x·w) (p, q) + b q

  and that a kernel's vector code computes them: the column s spread along the rows' entries, the vector b laid out as a
  row and spread down the rows, the floor z spread everywhere; for the head the matrix unit's product of the operands
  narrowed to bf16 into a zero accumulator (the narrowing is the identity on extended reals).
-/
import proofs.«146126_j2482491097959_1_alg».proof.Proof.LibMatProd
import proofs.«146126_j2482491097959_1_alg».proof.Proof.LibColumns
import Idealize.ShloMosaic.Lib.ValueLayout

noncomputable section

open scoped BigOperators

namespace Cert.Rows

open Idealize.ShloMosaic Idealize.ShloMosaic.ValueIdx Cert.Products

theorem zero1 : (![0] : Fin 1 → Nat) = fun _ => 0 := funext fun a => by fin_cases a; rfl
theorem zero2 : (![0, 0] : Fin 2 → Nat) = fun _ => 0 := funext fun a => by fin_cases a <;> rfl

/-- max (agg + h · s[:, 0] + b, z), entry by entry. -/
def finishCol {a n : ℕ} (z : EReal) (agg h : (⟨2, ![a, n]⟩ : Shape).Idx → EReal) (s : (⟨2, ![a, 1]⟩ : Shape).Idx → EReal)
    (b : (⟨1, ![n]⟩ : Shape).Idx → EReal) : (⟨2, ![a, n]⟩ : Shape).Idx → EReal :=
  fun i => max (agg i + h i * s (ix2 (i 0) (0 : Fin 1)) + b (ix1 (i 1))) z

theorem finishCol_ix2 {a n : ℕ} (z : EReal) (agg h : (⟨2, ![a, n]⟩ : Shape).Idx → EReal) (s : (⟨2, ![a, 1]⟩ : Shape).Idx → EReal)
    (b : (⟨1, ![n]⟩ : Shape).Idx → EReal) (p : Fin a) (q : Fin n) :
    finishCol z agg h s b (ix2 p q) = max (agg (ix2 p q) + h (ix2 p q) * s (ix2 p (0 : Fin 1)) + b (ix1 q)) z := rfl

/-- x·w + b[None, :], entry by entry. -/
def headRow {a k n : ℕ} (x : (⟨2, ![a, k]⟩ : Shape).Idx → EReal) (w : (⟨2, ![k, n]⟩ : Shape).Idx → EReal)
    (b : (⟨1, ![n]⟩ : Shape).Idx → EReal) : (⟨2, ![a, n]⟩ : Shape).Idx → EReal :=
  fun i => matProd x w i + b (ix1 (i 1))

theorem headRow_ix2 {a k n : ℕ} (x : (⟨2, ![a, k]⟩ : Shape).Idx → EReal) (w : (⟨2, ![k, n]⟩ : Shape).Idx → EReal)
    (b : (⟨1, ![n]⟩ : Shape).Idx → EReal) (p : Fin a) (q : Fin n) :
    headRow x w b (ix2 p q) = matProd x w (ix2 p q) + b (ix1 q) := rfl

/-- The finishing step as a kernel's vector code. -/
theorem finish_vec {a n : ℕ} (agg h : FVec Ideal ⟨2, ![a, n]⟩ .f32) (s : FVec Ideal ⟨2, ![a, 1]⟩ .f32) (b : FVec Ideal ⟨1, ![n]⟩ .f32)
    (h1 : (⟨2, ![a, 1]⟩ : Shape).Broadcasts ⟨2, ![a, n]⟩) (h2 : (⟨1, ![n]⟩ : Shape).ShapeCasts ⟨2, ![1, n]⟩)
    (h3 : (⟨2, ![1, n]⟩ : Shape).Broadcasts ⟨2, ![a, n]⟩) (z : Ideal .f32) :
    maximumf (addf (addf agg (mulf h (broadcastTo ⟨2, ![a, n]⟩ s h1))) (broadcastTo ⟨2, ![a, n]⟩ (shapeCast ⟨2, ![1, n]⟩ b h2) h3))
        (broadcast ⟨2, ![a, n]⟩ z)
      = finishCol z agg h s b := by
  funext i
  obtain ⟨p, q, rfl⟩ : ∃ (p : Fin a) (q : Fin n), i = ix2 p q := ⟨i 0, i 1, eq_ix2 i⟩
  rw [finishCol_ix2, maximumf_apply, addf_apply, addf_apply, mulf_apply, broadcast_apply,
    broadcastTo_a1_ab_apply s h1 p q, broadcastTo_1b_ab_apply _ h3 p q, shapeCast_a_1a_apply b h2 0 q]

/-- The head as a kernel's vector code. -/
theorem head_vec {a k n : ℕ} (d : DotDims ⟨2, ![a, k]⟩ ⟨2, ![k, n]⟩ ⟨2, ![a, n]⟩)
    (hl : d.lhsContracting = [1]) (hr : d.rhsContracting = [0]) (hln : d.lhsNonContracting = [0])
    (hrn : d.rhsNonContracting = [1]) (hlb : d.lhsBatch = []) (hrb : d.rhsBatch = [])
    (x : FVec Ideal ⟨2, ![a, k]⟩ .f32) (w : FVec Ideal ⟨2, ![k, n]⟩ .f32) (b : FVec Ideal ⟨1, ![n]⟩ .f32)
    (hx hw : FTy.bf16.bits < FTy.f32.bits) (h2 : (⟨1, ![n]⟩ : Shape).ShapeCasts ⟨2, ![1, n]⟩)
    (h3 : (⟨2, ![1, n]⟩ : Shape).Broadcasts ⟨2, ![a, n]⟩) :
    addf (FloatOps.matmul d none (truncf .bf16 x hx) (truncf .bf16 w hw) (constant ⟨2, ![a, n]⟩ .f32 0x00000000#32))
        (broadcastTo ⟨2, ![a, n]⟩ (shapeCast ⟨2, ![1, n]⟩ b h2) h3)
      = headRow x w b := by
  funext i
  obtain ⟨p, q, rfl⟩ : ∃ (p : Fin a) (q : Fin n), i = ix2 p q := ⟨i 0, i 1, eq_ix2 i⟩
  rw [headRow_ix2, addf_apply, matmul_zero_eq d hl hr hln hrn hlb hrb, matProd_narrowed x w hx hw,
    broadcastTo_1b_ab_apply _ h3 p q, shapeCast_a_1a_apply b h2 0 q]

end Cert.Rows

end
-- ==== Proof.Bridge.lean ====
/-
  The row-wise steps the tiled kernels compute are the stage functions: with the nodes' own weights laid out as a
  column, max (agg + h · s[:, 0] + b, 0) entry by entry is the layer's last step, and (x·w) + b entry by entry is a head.
-/
import proofs.«146126_j2482491097959_1_alg».proof.Proof.Stages
import proofs.«146126_j2482491097959_1_alg».proof.Proof.LibRowSteps

noncomputable section

namespace Cert.Vgae

open Idealize.ShloMosaic Idealize.ShloMosaic.ValueIdx Cert.ReferenceIdeal Cert.Products Cert.Rows

/-- A float pattern read as a scalar at the exact instance is the pattern's value. -/
theorem scalar_ofBits (w : BitVec 32) : Scalar.ofBits (F := Ideal) .f32 w = Ideal.ofBits .f32 w := rfl

/-- The kernels' finishing step on the whole arrays, the weights cast to a column, is the layer's last step. -/
theorem finishCol_eq (agg h : Feat) (s : NodeVals) (b : FVec Ideal S128 .f32) (hc : S50000.ShapeCasts S50000x1) :
    finishCol (Scalar.ofBits (F := Ideal) .f32 0x00000000#32) agg h (shapeCast S50000x1 s hc) b = finish agg h s b := by
  funext i
  obtain ⟨p, q, rfl⟩ : ∃ (p : Fin 50000) (q : Fin 128), i = ix2 p q := ⟨i 0, i 1, eq_ix2 i⟩
  rw [finishCol_ix2, finish_apply, shapeCast_a_a1_apply s hc p 0, scalar_ofBits]

/-- The kernels' head on the whole arrays is the head. -/
theorem headRow_eq (h : Feat) (w : FVec Ideal S128x64 .f32) (b : FVec Ideal S64 .f32) : headRow h w b = head h w b := by
  funext i
  obtain ⟨p, q, rfl⟩ : ∃ (p : Fin 50000) (q : Fin 64), i = ix2 p q := ⟨i 0, i 1, eq_ix2 i⟩
  rw [headRow_ix2, head_apply]

end Cert.Vgae

end
-- ==== Proof.Tile0.lean ====
/-
  The first projection, computed ten row blocks at a time: block t of the result holds rows 5000 t … 5000 t + 4999.
  A row of a product depends only on the same row of the left operand, so what point t writes back is block t of the whole
  product of the arrays the call finds, and the ten blocks fill the result.
-/
import proofs.«146126_j2482491097959_1_alg».proof.Proof.Gen.KernelIdeal.Frame
import proofs.«146126_j2482491097959_1_alg».proof.Proof.LibRowSteps
import Idealize.ShloMosaic.Lib.Pipeline.Value

noncomputable section

open scoped BigOperators

namespace Cert.KernelIdeal.Tiles

open Idealize.ShloMosaic Idealize.ShloMosaic.TcCoe Idealize.SL.Sem Idealize.ShloMosaic.ValueIdx
open Idealize.ShloMosaic.Pipeline (Dat)
open Cert.KernelIdeal Cert.KernelIdeal.Gen Cert.Products Cert.Rows

variable (V : (c : Dev nD) → (b : Ref sig .tc) → Buf (Elt Ideal) ((c : Thread nD τ).loc b))

/-- The body's value: the product of the rows block with the weight (narrowing the operands first changes nothing). -/
theorem pay0 (x0 : Vec Ideal S5000x128 .f32) (x1 : Vec Ideal S128x128 .f32) : k0_pay1 (F := Ideal) x0 x1 = matProd x0 x1 := by
  unfold k0_pay1
  exact matmul_zero_eq dot_S5000x128_S128x128_S5000x128_1_0_0_1_n_n rfl rfl rfl rfl rfl rfl none _ _

/-- Where the three windows' blocks sit at point t: rows block t of the input and of the result, the whole weight. -/
theorem idx0 : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- The weight's block is the whole weight. -/
theorem iblk0_1 (c : Dev nD) (t : Fin cfg0.N) : (iblk0 V c 1 t : Vec Ideal S128x128 .f32) = V c main_arg2 := by
  obtain ⟨-, -, e2, e3, -, -⟩ := idx0 t
  funext y
  show V c main_arg2 (((cfg0.win 1).blk t).view.emb y) = V c main_arg2 y
  refine congrArg _ (funext fun a => Fin.ext ?_)
  match a with
  | ⟨0, _⟩ => show win0_1.index t (0 : Fin 2) * 128 + 1 * (y 0).val = (y 0).val; rw [e2]; omega
  | ⟨1, _⟩ => show win0_1.index t (1 : Fin 2) * 128 + 1 * (y 1).val = (y 1).val; rw [e3]; omega

/-- What point t writes back is block t of the product of the arrays the call finds. -/
theorem flushed0 (c : Dev nD) (t : Fin cfg0.N) :
    (dat0 V c).flushed 2 t = ((cfg0.win 2).blk t).view.read (Elt Ideal) (matProd (V c main_arg0) (V c main_arg2)) := by
  show (cfg0.win 2).cut (grid0.coords t) ((dat0 V c).after 2 t) = _
  rw [after0_2]
  unfold out0_2
  rw [View.canon_unit_zero zero2]
  simp only [View.ld_unit_zero (S := S5000x128) zero2, View.ld_unit_zero (S := S128x128) zero2]
  rw [pay0, iblk0_1]
  obtain ⟨e0, e1, -, -, e4, e5⟩ := idx0 t
  funext j
  obtain ⟨y0, y1, rfl⟩ : ∃ (y0 : Fin 5000) (y1 : Fin 128), j = ix2 y0 y1 := ⟨j 0, j 1, eq_ix2 j⟩
  have ht : t.val < 10 := by have h1 := t.isLt; have hN : cfg0.N = 10 := N_0; omega
  have hrow : ((cfg0.win 2).blk t).view.emb (ix2 y0 y1) = ix2 (⟨t.val * 5000 + y0.val, by omega⟩ : Fin 50000) y1 := by
    funext a; apply Fin.ext
    match a with
    | ⟨0, _⟩ => show win0_2.index t (0 : Fin 2) * 5000 + 1 * y0.val = t.val * 5000 + y0.val; rw [e4]; omega
    | ⟨1, _⟩ => show win0_2.index t (1 : Fin 2) * 128 + 1 * y1.val = y1.val; rw [e5]; omega
  show matProd (iblk0 V c 0 t) (V c main_arg2) (ix2 y0 y1) = matProd (V c main_arg0) (V c main_arg2) (((cfg0.win 2).blk t).view.emb (ix2 y0 y1))
  rw [hrow]
  refine matProd_row _ _ _ _ y0 y1 fun k => ?_
  show V c main_arg0 (((cfg0.win 0).blk t).view.emb (ix2 y0 k)) = V c main_arg0 _
  refine congrArg _ (funext fun a => Fin.ext ?_)
  match a with
  | ⟨0, _⟩ => show win0_0.index t (0 : Fin 2) * 5000 + 1 * y0.val = t.val * 5000 + y0.val; rw [e0]; omega
  | ⟨1, _⟩ => show win0_0.index t (1 : Fin 2) * 128 + 1 * k.val = k.val; rw [e1]; omega

/-- An index of the result is in point t's block iff each coordinate lies in the block's range on its axis. -/
theorem mem_blk0 (t : Fin cfg0.N) (i : S50000x128.Idx) :
    i ∈ ((cfg0.win 2).blk t).view.set ↔ ∀ a : Fin 2, win0_2.index t a * S5000x128.size a ≤ (i a).val ∧ (i a).val < win0_2.index t a * S5000x128.size a + S5000x128.size a := by
  show i ∈ ((View.whole main_v29).slice (win0_2.rect t)).set ↔ _
  rw [View.set_slice_whole, Rect.mem_set_unit]
  exact Iff.rfl

/-- Every index of the result is in some point's block: row r in block r / 5000. -/
theorem cover0 (i : S50000x128.Idx) : ∃ t : Fin cfg0.N, (cfg0.win 2).flush t = true ∧ i ∈ ((cfg0.win 2).blk t).view.set := by
  have hi0 : (i 0).val < 50000 := (i 0).isLt
  have hi1 : (i 1).val < 128 := (i 1).isLt
  have hN : cfg0.N = 10 := N_0
  let t : Fin cfg0.N := ⟨(i 0).val / 5000, by rw [hN]; omega⟩
  obtain ⟨-, -, -, -, e4, e5⟩ := idx0 t
  have e4' : win0_2.index t (0 : Fin 2) = (i 0).val / 5000 := e4
  refine ⟨t, flush0_2 t, ?_⟩
  rw [mem_blk0]
  intro a
  match a with
  | ⟨0, _⟩ => show win0_2.index t (0 : Fin 2) * 5000 ≤ (i 0).val ∧ (i 0).val < win0_2.index t (0 : Fin 2) * 5000 + 5000; rw [e4']; omega
  | ⟨1, _⟩ => show win0_2.index t (1 : Fin 2) * 128 ≤ (i 1).val ∧ (i 1).val < win0_2.index t (1 : Fin 2) * 128 + 128; rw [e5]; omega

/-- The result array after the call: the product of the arrays the call finds. -/
theorem arr0 (c : Dev nD) : (dat0 V c).arrAt 2 cfg0.N = matProd (V c main_arg0) (V c main_arg2) :=
  (dat0 V c).arrAt_eq_of_cover 2 _ (fun t _ => flushed0 V c t) cover0

end Cert.KernelIdeal.Tiles

end
-- ==== Proof.Tile1.lean ====
/-
  The first layer's last step, max(agg + h · s + b, 0), computed ten row blocks at a time: an entry of the result
  depends on the same entry of agg and of h, on the node's own weight s in the same row, and on the bias at the same
  column, so what point t writes back is block t of the step applied to the whole arrays the call finds, and the ten
  blocks fill the result.
-/
import proofs.«146126_j2482491097959_1_alg».proof.Proof.Gen.KernelIdeal.Frame
import proofs.«146126_j2482491097959_1_alg».proof.Proof.LibRowSteps
import Idealize.ShloMosaic.Lib.Pipeline.Value

noncomputable section

open scoped BigOperators

namespace Cert.KernelIdeal.Tiles

open Idealize.ShloMosaic Idealize.ShloMosaic.TcCoe Idealize.SL.Sem Idealize.ShloMosaic.ValueIdx
open Idealize.ShloMosaic.Pipeline (Dat)
open Cert.KernelIdeal Cert.KernelIdeal.Gen Cert.Products Cert.Rows

variable (V : (c : Dev nD) → (b : Ref sig .tc) → Buf (Elt Ideal) ((c : Thread nD τ).loc b))

/-- The floor the step clips at, as the kernel spells it. -/
abbrev floor1 : Ideal .f32 := Scalar.ofBits (F := Ideal) .f32 0x00000000#32

/-- The body's value: the step on the rows block. -/
theorem pay1 (x0 x1 : Vec Ideal S5000x128 .f32) (x2 : Vec Ideal S5000x1 .f32) (x3 : Vec Ideal S128 .f32) :
    k1_pay1 (F := Ideal) x0 x1 x2 x3 = finishCol floor1 x0 x1 x2 x3 := by
  unfold k1_pay1
  simp only [shapeCast_self]
  exact finish_vec x0 x1 x2 x3 _ _ _ _

/-- Where the five windows' blocks sit at point t: rows block t of agg, h, the weights' column and the result, the whole bias. -/
theorem idx1 : ∀ t : Fin cfg1.N, win1_0.index t (0 : Fin 2) = t.val ∧ win1_0.index t (1 : Fin 2) = 0
    ∧ win1_1.index t (0 : Fin 2) = t.val ∧ win1_1.index t (1 : Fin 2) = 0
    ∧ win1_2.index t (0 : Fin 2) = t.val ∧ win1_2.index t (1 : Fin 2) = 0
    ∧ win1_3.index t (0 : Fin 1) = 0
    ∧ win1_4.index t (0 : Fin 2) = t.val ∧ win1_4.index t (1 : Fin 2) = 0 :=
  (by decide +kernel : ∀ t : Fin grid1.N, _)

/-- The bias' block is the whole bias. -/
theorem iblk1_3 (c : Dev nD) (t : Fin cfg1.N) : (iblk1 V c 3 t : Vec Ideal S128 .f32) = V c main_arg3 := by
  obtain ⟨-, -, -, -, -, -, e6, -, -⟩ := idx1 t
  funext y
  show V c main_arg3 (((cfg1.win 3).blk t).view.emb y) = V c main_arg3 y
  refine congrArg _ (funext fun a => Fin.ext ?_)
  match a with
  | ⟨0, _⟩ => show win1_3.index t (0 : Fin 1) * 128 + 1 * (y 0).val = (y 0).val; rw [e6]; omega

/-- What point t writes back is block t of the step applied to the arrays the call finds. -/
theorem flushed1 (c : Dev nD) (t : Fin cfg1.N) :
    (dat1 V c).flushed 4 t = ((cfg1.win 4).blk t).view.read (Elt Ideal)
      (finishCol floor1 (V c main_v42) (V c main_v29) (V c main_v43) (V c main_arg3)) := by
  show (cfg1.win 4).cut (grid1.coords t) ((dat1 V c).after 4 t) = _
  rw [after1_4]
  unfold out1_4
  rw [View.canon_unit_zero zero2]
  simp only [View.ld_unit_zero (S := S5000x128) zero2, View.ld_unit_zero (S := S5000x1) zero2, View.ld_unit_zero (S := S128) zero1]
  rw [pay1, iblk1_3]
  obtain ⟨e0, e1, e2, e3, e4, e5, -, e7, e8⟩ := idx1 t
  funext j
  obtain ⟨y0, y1, rfl⟩ : ∃ (y0 : Fin 5000) (y1 : Fin 128), j = ix2 y0 y1 := ⟨j 0, j 1, eq_ix2 j⟩
  have ht : t.val < 10 := by have h1 := t.isLt; have hN : cfg1.N = 10 := N_1; omega
  have hrow : ((cfg1.win 4).blk t).view.emb (ix2 y0 y1) = ix2 (⟨t.val * 5000 + y0.val, by omega⟩ : Fin 50000) y1 := by
    funext a; apply Fin.ext
    match a with
    | ⟨0, _⟩ => show win1_4.index t (0 : Fin 2) * 5000 + 1 * y0.val = t.val * 5000 + y0.val; rw [e7]; omega
    | ⟨1, _⟩ => show win1_4.index t (1 : Fin 2) * 128 + 1 * y1.val = y1.val; rw [e8]; omega
  show finishCol floor1 (iblk1 V c 0 t) (iblk1 V c 1 t) (iblk1 V c 2 t) (V c main_arg3) (ix2 y0 y1)
    = finishCol floor1 (V c main_v42) (V c main_v29) (V c main_v43) (V c main_arg3) (((cfg1.win 4).blk t).view.emb (ix2 y0 y1))
  rw [hrow, finishCol_ix2, finishCol_ix2]
  have r0 : (iblk1 V c 0 t : Vec Ideal S5000x128 .f32) (ix2 y0 y1) = V c main_v42 (ix2 (⟨t.val * 5000 + y0.val, by omega⟩ : Fin 50000) y1) := by
    show V c main_v42 (((cfg1.win 0).blk t).view.emb (ix2 y0 y1)) = V c main_v42 _
    refine congrArg _ (funext fun a => Fin.ext ?_)
    match a with
    | ⟨0, _⟩ => show win1_0.index t (0 : Fin 2) * 5000 + 1 * y0.val = t.val * 5000 + y0.val; rw [e0]; omega
    | ⟨1, _⟩ => show win1_0.index t (1 : Fin 2) * 128 + 1 * y1.val = y1.val; rw [e1]; omega
  have r1 : (iblk1 V c 1 t : Vec Ideal S5000x128 .f32) (ix2 y0 y1) = V c main_v29 (ix2 (⟨t.val * 5000 + y0.val, by omega⟩ : Fin 50000) y1) := by
    show V c main_v29 (((cfg1.win 1).blk t).view.emb (ix2 y0 y1)) = V c main_v29 _
    refine congrArg _ (funext fun a => Fin.ext ?_)
    match a with
    | ⟨0, _⟩ => show win1_1.index t (0 : Fin 2) * 5000 + 1 * y0.val = t.val * 5000 + y0.val; rw [e2]; omega
    | ⟨1, _⟩ => show win1_1.index t (1 : Fin 2) * 128 + 1 * y1.val = y1.val; rw [e3]; omega
  have r2 : (iblk1 V c 2 t : Vec Ideal S5000x1 .f32) (ix2 y0 (0 : Fin 1)) = V c main_v43 (ix2 (⟨t.val * 5000 + y0.val, by omega⟩ : Fin 50000) (0 : Fin 1)) := by
    show V c main_v43 (((cfg1.win 2).blk t).view.emb (ix2 y0 (0 : Fin 1))) = V c main_v43 _
    refine congrArg _ (funext fun a => Fin.ext ?_)
    match a with
    | ⟨0, _⟩ => show win1_2.index t (0 : Fin 2) * 5000 + 1 * y0.val = t.val * 5000 + y0.val; rw [e4]; omega
    | ⟨1, _⟩ => show win1_2.index t (1 : Fin 2) * 1 + 1 * 0 = 0; rw [e5]
  rw [r0, r1, r2]

/-- An index of the result is in point t's block iff each coordinate lies in the block's range on its axis. -/
theorem mem_blk1 (t : Fin cfg1.N) (i : S50000x128.Idx) :
    i ∈ ((cfg1.win 4).blk t).view.set ↔ ∀ a : Fin 2, win1_4.index t a * S5000x128.size a ≤ (i a).val ∧ (i a).val < win1_4.index t a * S5000x128.size a + S5000x128.size a := by
  show i ∈ ((View.whole main_v44).slice (win1_4.rect t)).set ↔ _
  rw [View.set_slice_whole, Rect.mem_set_unit]
  exact Iff.rfl

/-- Every index of the result is in some point's block: row r in block r / 5000. -/
theorem cover1 (i : S50000x128.Idx) : ∃ t : Fin cfg1.N, (cfg1.win 4).flush t = true ∧ i ∈ ((cfg1.win 4).blk t).view.set := by
  have hi0 : (i 0).val < 50000 := (i 0).isLt
  have hi1 : (i 1).val < 128 := (i 1).isLt
  have hN : cfg1.N = 10 := N_1
  let t : Fin cfg1.N := ⟨(i 0).val / 5000, by rw [hN]; omega⟩
  obtain ⟨-, -, -, -, -, -, -, e7, e8⟩ := idx1 t
  have e7' : win1_4.index t (0 : Fin 2) = (i 0).val / 5000 := e7
  refine ⟨t, flush1_4 t, ?_⟩
  rw [mem_blk1]
  intro a
  match a with
  | ⟨0, _⟩ => show win1_4.index t (0 : Fin 2) * 5000 ≤ (i 0).val ∧ (i 0).val < win1_4.index t (0 : Fin 2) * 5000 + 5000; rw [e7']; omega
  | ⟨1, _⟩ => show win1_4.index t (1 : Fin 2) * 128 ≤ (i 1).val ∧ (i 1).val < win1_4.index t (1 : Fin 2) * 128 + 128; rw [e8]; omega

/-- The result array after the call: the step applied to the arrays the call finds. -/
theorem arr1 (c : Dev nD) : (dat1 V c).arrAt 4 cfg1.N
    = finishCol floor1 (V c main_v42) (V c main_v29) (V c main_v43) (V c main_arg3) :=
  (dat1 V c).arrAt_eq_of_cover 4 _ (fun t _ => flushed1 V c t) cover1

end Cert.KernelIdeal.Tiles

end
-- ==== Proof.Tile2.lean ====
/-
  The second projection, computed ten row blocks at a time: block t of the result holds rows 5000 t … 5000 t + 4999.
  A row of a product depends only on the same row of the left operand, so what point t writes back is block t of the whole
  product of the arrays the call finds, and the ten blocks fill the result.
-/
import proofs.«146126_j2482491097959_1_alg».proof.Proof.Gen.KernelIdeal.Frame
import proofs.«146126_j2482491097959_1_alg».proof.Proof.LibRowSteps
import Idealize.ShloMosaic.Lib.Pipeline.Value

noncomputable section

open scoped BigOperators

namespace Cert.KernelIdeal.Tiles

open Idealize.ShloMosaic Idealize.ShloMosaic.TcCoe Idealize.SL.Sem Idealize.ShloMosaic.ValueIdx
open Idealize.ShloMosaic.Pipeline (Dat)
open Cert.KernelIdeal Cert.KernelIdeal.Gen Cert.Products Cert.Rows

variable (V : (c : Dev nD) → (b : Ref sig .tc) → Buf (Elt Ideal) ((c : Thread nD τ).loc b))

/-- The body's value: the product of the rows block with the weight (narrowing the operands first changes nothing). -/
theorem pay2 (x0 : Vec Ideal S5000x128 .f32) (x1 : Vec Ideal S128x128 .f32) : k2_pay1 (F := Ideal) x0 x1 = matProd x0 x1 := by
  unfold k2_pay1
  simp only [shapeCast_self]
  exact matmul_zero_eq dot_S5000x128_S128x128_S5000x128_1_0_0_1_n_n rfl rfl rfl rfl rfl rfl none _ _

/-- Where the three windows' blocks sit at point t: rows block t of the input and of the result, the whole weight. -/
theorem idx2 : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = t.val ∧ win2_2.index t (1 : Fin 2) = 0 :=
  (by decide +kernel : ∀ t : Fin grid2.N, _)

/-- The weight's block is the whole weight. -/
theorem iblk2_1 (c : Dev nD) (t : Fin cfg2.N) : (iblk2 V c 1 t : Vec Ideal S128x128 .f32) = V c main_arg4 := by
  obtain ⟨-, -, e2, e3, -, -⟩ := idx2 t
  funext y
  show V c main_arg4 (((cfg2.win 1).blk t).view.emb y) = V c main_arg4 y
  refine congrArg _ (funext fun a => Fin.ext ?_)
  match a with
  | ⟨0, _⟩ => show win2_1.index t (0 : Fin 2) * 128 + 1 * (y 0).val = (y 0).val; rw [e2]; omega
  | ⟨1, _⟩ => show win2_1.index t (1 : Fin 2) * 128 + 1 * (y 1).val = (y 1).val; rw [e3]; omega

/-- What point t writes back is block t of the product of the arrays the call finds. -/
theorem flushed2 (c : Dev nD) (t : Fin cfg2.N) :
    (dat2 V c).flushed 2 t = ((cfg2.win 2).blk t).view.read (Elt Ideal) (matProd (V c main_v44) (V c main_arg4)) := by
  show (cfg2.win 2).cut (grid2.coords t) ((dat2 V c).after 2 t) = _
  rw [after2_2]
  unfold out2_2
  rw [View.canon_unit_zero zero2]
  simp only [View.ld_unit_zero (S := S5000x128) zero2, View.ld_unit_zero (S := S128x128) zero2]
  rw [pay2, iblk2_1]
  obtain ⟨e0, e1, -, -, e4, e5⟩ := idx2 t
  funext j
  obtain ⟨y0, y1, rfl⟩ : ∃ (y0 : Fin 5000) (y1 : Fin 128), j = ix2 y0 y1 := ⟨j 0, j 1, eq_ix2 j⟩
  have ht : t.val < 10 := by have h1 := t.isLt; have hN : cfg2.N = 10 := N_2; omega
  have hrow : ((cfg2.win 2).blk t).view.emb (ix2 y0 y1) = ix2 (⟨t.val * 5000 + y0.val, by omega⟩ : Fin 50000) y1 := by
    funext a; apply Fin.ext
    match a with
    | ⟨0, _⟩ => show win2_2.index t (0 : Fin 2) * 5000 + 1 * y0.val = t.val * 5000 + y0.val; rw [e4]; omega
    | ⟨1, _⟩ => show win2_2.index t (1 : Fin 2) * 128 + 1 * y1.val = y1.val; rw [e5]; omega
  show matProd (iblk2 V c 0 t) (V c main_arg4) (ix2 y0 y1) = matProd (V c main_v44) (V c main_arg4) (((cfg2.win 2).blk t).view.emb (ix2 y0 y1))
  rw [hrow]
  refine matProd_row _ _ _ _ y0 y1 fun k => ?_
  show V c main_v44 (((cfg2.win 0).blk t).view.emb (ix2 y0 k)) = V c main_v44 _
  refine congrArg _ (funext fun a => Fin.ext ?_)
  match a with
  | ⟨0, _⟩ => show win2_0.index t (0 : Fin 2) * 5000 + 1 * y0.val = t.val * 5000 + y0.val; rw [e0]; omega
  | ⟨1, _⟩ => show win2_0.index t (1 : Fin 2) * 128 + 1 * k.val = k.val; rw [e1]; omega

/-- An index of the result is in point t's block iff each coordinate lies in the block's range on its axis. -/
theorem mem_blk2 (t : Fin cfg2.N) (i : S50000x128.Idx) :
    i ∈ ((cfg2.win 2).blk t).view.set ↔ ∀ a : Fin 2, win2_2.index t a * S5000x128.size a ≤ (i a).val ∧ (i a).val < win2_2.index t a * S5000x128.size a + S5000x128.size a := by
  show i ∈ ((View.whole main_v45).slice (win2_2.rect t)).set ↔ _
  rw [View.set_slice_whole, Rect.mem_set_unit]
  exact Iff.rfl

/-- Every index of the result is in some point's block: row r in block r / 5000. -/
theorem cover2 (i : S50000x128.Idx) : ∃ t : Fin cfg2.N, (cfg2.win 2).flush t = true ∧ i ∈ ((cfg2.win 2).blk t).view.set := by
  have hi0 : (i 0).val < 50000 := (i 0).isLt
  have hi1 : (i 1).val < 128 := (i 1).isLt
  have hN : cfg2.N = 10 := N_2
  let t : Fin cfg2.N := ⟨(i 0).val / 5000, by rw [hN]; omega⟩
  obtain ⟨-, -, -, -, e4, e5⟩ := idx2 t
  have e4' : win2_2.index t (0 : Fin 2) = (i 0).val / 5000 := e4
  refine ⟨t, flush2_2 t, ?_⟩
  rw [mem_blk2]
  intro a
  match a with
  | ⟨0, _⟩ => show win2_2.index t (0 : Fin 2) * 5000 ≤ (i 0).val ∧ (i 0).val < win2_2.index t (0 : Fin 2) * 5000 + 5000; rw [e4']; omega
  | ⟨1, _⟩ => show win2_2.index t (1 : Fin 2) * 128 ≤ (i 1).val ∧ (i 1).val < win2_2.index t (1 : Fin 2) * 128 + 128; rw [e5]; omega

/-- The result array after the call: the product of the arrays the call finds. -/
theorem arr2 (c : Dev nD) : (dat2 V c).arrAt 2 cfg2.N = matProd (V c main_v44) (V c main_arg4) :=
  (dat2 V c).arrAt_eq_of_cover 2 _ (fun t _ => flushed2 V c t) cover2

end Cert.KernelIdeal.Tiles

end
-- ==== Proof.Tile3.lean ====
/-
  The second layer's last step, max(agg + h · s + b, 0), computed ten row blocks at a time: an entry of the result
  depends on the same entry of agg and of h, on the node's own weight s in the same row, and on the bias at the same
  column, so what point t writes back is block t of the step applied to the whole arrays the call finds, and the ten
  blocks fill the result.
-/
import proofs.«146126_j2482491097959_1_alg».proof.Proof.Gen.KernelIdeal.Frame
import proofs.«146126_j2482491097959_1_alg».proof.Proof.LibRowSteps
import Idealize.ShloMosaic.Lib.Pipeline.Value

noncomputable section

open scoped BigOperators

namespace Cert.KernelIdeal.Tiles

open Idealize.ShloMosaic Idealize.ShloMosaic.TcCoe Idealize.SL.Sem Idealize.ShloMosaic.ValueIdx
open Idealize.ShloMosaic.Pipeline (Dat)
open Cert.KernelIdeal Cert.KernelIdeal.Gen Cert.Products Cert.Rows

variable (V : (c : Dev nD) → (b : Ref sig .tc) → Buf (Elt Ideal) ((c : Thread nD τ).loc b))

/-- The floor the step clips at, as the kernel spells it. -/
abbrev floor3 : Ideal .f32 := Scalar.ofBits (F := Ideal) .f32 0x00000000#32

/-- The body's value: the step on the rows block. -/
theorem pay3 (x0 x1 : Vec Ideal S5000x128 .f32) (x2 : Vec Ideal S5000x1 .f32) (x3 : Vec Ideal S128 .f32) :
    k3_pay1 (F := Ideal) x0 x1 x2 x3 = finishCol floor3 x0 x1 x2 x3 := by
  unfold k3_pay1
  simp only [shapeCast_self]
  exact finish_vec x0 x1 x2 x3 _ _ _ _

/-- Where the five windows' blocks sit at point t: rows block t of agg, h, the weights' column and the result, the whole bias. -/
theorem idx3 : ∀ t : Fin cfg3.N, win3_0.index t (0 : Fin 2) = t.val ∧ win3_0.index t (1 : Fin 2) = 0
    ∧ win3_1.index t (0 : Fin 2) = t.val ∧ win3_1.index t (1 : Fin 2) = 0
    ∧ win3_2.index t (0 : Fin 2) = t.val ∧ win3_2.index t (1 : Fin 2) = 0
    ∧ win3_3.index t (0 : Fin 1) = 0
    ∧ win3_4.index t (0 : Fin 2) = t.val ∧ win3_4.index t (1 : Fin 2) = 0 :=
  (by decide +kernel : ∀ t : Fin grid3.N, _)

/-- The bias' block is the whole bias. -/
theorem iblk3_3 (c : Dev nD) (t : Fin cfg3.N) : (iblk3 V c 3 t : Vec Ideal S128 .f32) = V c main_arg5 := by
  obtain ⟨-, -, -, -, -, -, e6, -, -⟩ := idx3 t
  funext y
  show V c main_arg5 (((cfg3.win 3).blk t).view.emb y) = V c main_arg5 y
  refine congrArg _ (funext fun a => Fin.ext ?_)
  match a with
  | ⟨0, _⟩ => show win3_3.index t (0 : Fin 1) * 128 + 1 * (y 0).val = (y 0).val; rw [e6]; omega

/-- What point t writes back is block t of the step applied to the arrays the call finds. -/
theorem flushed3 (c : Dev nD) (t : Fin cfg3.N) :
    (dat3 V c).flushed 4 t = ((cfg3.win 4).blk t).view.read (Elt Ideal)
      (finishCol floor3 (V c main_v58) (V c main_v45) (V c main_v59) (V c main_arg5)) := by
  show (cfg3.win 4).cut (grid3.coords t) ((dat3 V c).after 4 t) = _
  rw [after3_4]
  unfold out3_4
  rw [View.canon_unit_zero zero2]
  simp only [View.ld_unit_zero (S := S5000x128) zero2, View.ld_unit_zero (S := S5000x1) zero2, View.ld_unit_zero (S := S128) zero1]
  rw [pay3, iblk3_3]
  obtain ⟨e0, e1, e2, e3, e4, e5, -, e7, e8⟩ := idx3 t
  funext j
  obtain ⟨y0, y1, rfl⟩ : ∃ (y0 : Fin 5000) (y1 : Fin 128), j = ix2 y0 y1 := ⟨j 0, j 1, eq_ix2 j⟩
  have ht : t.val < 10 := by have h1 := t.isLt; have hN : cfg3.N = 10 := N_3; omega
  have hrow : ((cfg3.win 4).blk t).view.emb (ix2 y0 y1) = ix2 (⟨t.val * 5000 + y0.val, by omega⟩ : Fin 50000) y1 := by
    funext a; apply Fin.ext
    match a with
    | ⟨0, _⟩ => show win3_4.index t (0 : Fin 2) * 5000 + 1 * y0.val = t.val * 5000 + y0.val; rw [e7]; omega
    | ⟨1, _⟩ => show win3_4.index t (1 : Fin 2) * 128 + 1 * y1.val = y1.val; rw [e8]; omega
  show finishCol floor3 (iblk3 V c 0 t) (iblk3 V c 1 t) (iblk3 V c 2 t) (V c main_arg5) (ix2 y0 y1)
    = finishCol floor3 (V c main_v58) (V c main_v45) (V c main_v59) (V c main_arg5) (((cfg3.win 4).blk t).view.emb (ix2 y0 y1))
  rw [hrow, finishCol_ix2, finishCol_ix2]
  have r0 : (iblk3 V c 0 t : Vec Ideal S5000x128 .f32) (ix2 y0 y1) = V c main_v58 (ix2 (⟨t.val * 5000 + y0.val, by omega⟩ : Fin 50000) y1) := by
    show V c main_v58 (((cfg3.win 0).blk t).view.emb (ix2 y0 y1)) = V c main_v58 _
    refine congrArg _ (funext fun a => Fin.ext ?_)
    match a with
    | ⟨0, _⟩ => show win3_0.index t (0 : Fin 2) * 5000 + 1 * y0.val = t.val * 5000 + y0.val; rw [e0]; omega
    | ⟨1, _⟩ => show win3_0.index t (1 : Fin 2) * 128 + 1 * y1.val = y1.val; rw [e1]; omega
  have r1 : (iblk3 V c 1 t : Vec Ideal S5000x128 .f32) (ix2 y0 y1) = V c main_v45 (ix2 (⟨t.val * 5000 + y0.val, by omega⟩ : Fin 50000) y1) := by
    show V c main_v45 (((cfg3.win 1).blk t).view.emb (ix2 y0 y1)) = V c main_v45 _
    refine congrArg _ (funext fun a => Fin.ext ?_)
    match a with
    | ⟨0, _⟩ => show win3_1.index t (0 : Fin 2) * 5000 + 1 * y0.val = t.val * 5000 + y0.val; rw [e2]; omega
    | ⟨1, _⟩ => show win3_1.index t (1 : Fin 2) * 128 + 1 * y1.val = y1.val; rw [e3]; omega
  have r2 : (iblk3 V c 2 t : Vec Ideal S5000x1 .f32) (ix2 y0 (0 : Fin 1)) = V c main_v59 (ix2 (⟨t.val * 5000 + y0.val, by omega⟩ : Fin 50000) (0 : Fin 1)) := by
    show V c main_v59 (((cfg3.win 2).blk t).view.emb (ix2 y0 (0 : Fin 1))) = V c main_v59 _
    refine congrArg _ (funext fun a => Fin.ext ?_)
    match a with
    | ⟨0, _⟩ => show win3_2.index t (0 : Fin 2) * 5000 + 1 * y0.val = t.val * 5000 + y0.val; rw [e4]; omega
    | ⟨1, _⟩ => show win3_2.index t (1 : Fin 2) * 1 + 1 * 0 = 0; rw [e5]
  rw [r0, r1, r2]

/-- An index of the result is in point t's block iff each coordinate lies in the block's range on its axis. -/
theorem mem_blk3 (t : Fin cfg3.N) (i : S50000x128.Idx) :
    i ∈ ((cfg3.win 4).blk t).view.set ↔ ∀ a : Fin 2, win3_4.index t a * S5000x128.size a ≤ (i a).val ∧ (i a).val < win3_4.index t a * S5000x128.size a + S5000x128.size a := by
  show i ∈ ((View.whole main_v60).slice (win3_4.rect t)).set ↔ _
  rw [View.set_slice_whole, Rect.mem_set_unit]
  exact Iff.rfl

/-- Every index of the result is in some point's block: row r in block r / 5000. -/
theorem cover3 (i : S50000x128.Idx) : ∃ t : Fin cfg3.N, (cfg3.win 4).flush t = true ∧ i ∈ ((cfg3.win 4).blk t).view.set := by
  have hi0 : (i 0).val < 50000 := (i 0).isLt
  have hi1 : (i 1).val < 128 := (i 1).isLt
  have hN : cfg3.N = 10 := N_3
  let t : Fin cfg3.N := ⟨(i 0).val / 5000, by rw [hN]; omega⟩
  obtain ⟨-, -, -, -, -, -, -, e7, e8⟩ := idx3 t
  have e7' : win3_4.index t (0 : Fin 2) = (i 0).val / 5000 := e7
  refine ⟨t, flush3_4 t, ?_⟩
  rw [mem_blk3]
  intro a
  match a with
  | ⟨0, _⟩ => show win3_4.index t (0 : Fin 2) * 5000 ≤ (i 0).val ∧ (i 0).val < win3_4.index t (0 : Fin 2) * 5000 + 5000; rw [e7']; omega
  | ⟨1, _⟩ => show win3_4.index t (1 : Fin 2) * 128 ≤ (i 1).val ∧ (i 1).val < win3_4.index t (1 : Fin 2) * 128 + 128; rw [e8]; omega

/-- The result array after the call: the step applied to the arrays the call finds. -/
theorem arr3 (c : Dev nD) : (dat3 V c).arrAt 4 cfg3.N
    = finishCol floor3 (V c main_v58) (V c main_v45) (V c main_v59) (V c main_arg5) :=
  (dat3 V c).arrAt_eq_of_cover 4 _ (fun t _ => flushed3 V c t) cover3

end Cert.KernelIdeal.Tiles

end
-- ==== Proof.Tile4.lean ====
/-
  The first head, h·W + b, computed ten row blocks at a time: a row of the result depends only on the same row of h, so what
  point t writes back is block t of the head applied to the whole arrays the call finds, and the ten blocks fill the result.
-/
import proofs.«146126_j2482491097959_1_alg».proof.Proof.Gen.KernelIdeal.Frame
import proofs.«146126_j2482491097959_1_alg».proof.Proof.LibRowSteps
import Idealize.ShloMosaic.Lib.Pipeline.Value

noncomputable section

open scoped BigOperators

namespace Cert.KernelIdeal.Tiles

open Idealize.ShloMosaic Idealize.ShloMosaic.TcCoe Idealize.SL.Sem Idealize.ShloMosaic.ValueIdx
open Idealize.ShloMosaic.Pipeline (Dat)
open Cert.KernelIdeal Cert.KernelIdeal.Gen Cert.Products Cert.Rows

variable (V : (c : Dev nD) → (b : Ref sig .tc) → Buf (Elt Ideal) ((c : Thread nD τ).loc b))

/-- The body's value: the head on the rows block. -/
theorem pay4 (x0 : Vec Ideal S5000x128 .f32) (x1 : Vec Ideal S128x64 .f32) (x2 : Vec Ideal S64 .f32) :
    k4_pay1 (F := Ideal) x0 x1 x2 = headRow x0 x1 x2 := by
  unfold k4_pay1
  simp only [shapeCast_self]
  exact head_vec dot_S5000x128_S128x64_S5000x64_1_0_0_1_n_n rfl rfl rfl rfl rfl rfl x0 x1 x2 _ _ _ _

/-- Where the four windows' blocks sit at point t: rows block t of h and of the result, the whole weight and bias. -/
theorem idx4 : ∀ t : Fin cfg4.N, win4_0.index t (0 : Fin 2) = t.val ∧ win4_0.index t (1 : Fin 2) = 0
    ∧ win4_1.index t (0 : Fin 2) = 0 ∧ win4_1.index t (1 : Fin 2) = 0
    ∧ win4_2.index t (0 : Fin 1) = 0
    ∧ win4_3.index t (0 : Fin 2) = t.val ∧ win4_3.index t (1 : Fin 2) = 0 :=
  (by decide +kernel : ∀ t : Fin grid4.N, _)

/-- The weight's block is the whole weight. -/
theorem iblk4_1 (c : Dev nD) (t : Fin cfg4.N) : (iblk4 V c 1 t : Vec Ideal S128x64 .f32) = V c main_arg6 := by
  obtain ⟨-, -, e2, e3, -, -, -⟩ := idx4 t
  funext y
  show V c main_arg6 (((cfg4.win 1).blk t).view.emb y) = V c main_arg6 y
  refine congrArg _ (funext fun a => Fin.ext ?_)
  match a with
  | ⟨0, _⟩ => show win4_1.index t (0 : Fin 2) * 128 + 1 * (y 0).val = (y 0).val; rw [e2]; omega
  | ⟨1, _⟩ => show win4_1.index t (1 : Fin 2) * 64 + 1 * (y 1).val = (y 1).val; rw [e3]; omega

/-- The bias' block is the whole bias. -/
theorem iblk4_2 (c : Dev nD) (t : Fin cfg4.N) : (iblk4 V c 2 t : Vec Ideal S64 .f32) = V c main_arg7 := by
  obtain ⟨-, -, -, -, e4, -, -⟩ := idx4 t
  funext y
  show V c main_arg7 (((cfg4.win 2).blk t).view.emb y) = V c main_arg7 y
  refine congrArg _ (funext fun a => Fin.ext ?_)
  match a with
  | ⟨0, _⟩ => show win4_2.index t (0 : Fin 1) * 64 + 1 * (y 0).val = (y 0).val; rw [e4]; omega

/-- What point t writes back is block t of the head applied to the arrays the call finds. -/
theorem flushed4 (c : Dev nD) (t : Fin cfg4.N) :
    (dat4 V c).flushed 3 t = ((cfg4.win 3).blk t).view.read (Elt Ideal) (headRow (V c main_v60) (V c main_arg6) (V c main_arg7)) := by
  show (cfg4.win 3).cut (grid4.coords t) ((dat4 V c).after 3 t) = _
  rw [after4_3]
  unfold out4_3
  rw [View.canon_unit_zero zero2]
  simp only [View.ld_unit_zero (S := S5000x128) zero2, View.ld_unit_zero (S := S128x64) zero2, View.ld_unit_zero (S := S64) zero1]
  rw [pay4, iblk4_1, iblk4_2]
  obtain ⟨e0, e1, -, -, -, e5, e6⟩ := idx4 t
  funext j
  obtain ⟨y0, y1, rfl⟩ : ∃ (y0 : Fin 5000) (y1 : Fin 64), j = ix2 y0 y1 := ⟨j 0, j 1, eq_ix2 j⟩
  have ht : t.val < 10 := by have h1 := t.isLt; have hN : cfg4.N = 10 := N_4; omega
  have hrow : ((cfg4.win 3).blk t).view.emb (ix2 y0 y1) = ix2 (⟨t.val * 5000 + y0.val, by omega⟩ : Fin 50000) y1 := by
    funext a; apply Fin.ext
    match a with
    | ⟨0, _⟩ => show win4_3.index t (0 : Fin 2) * 5000 + 1 * y0.val = t.val * 5000 + y0.val; rw [e5]; omega
    | ⟨1, _⟩ => show win4_3.index t (1 : Fin 2) * 64 + 1 * y1.val = y1.val; rw [e6]; omega
  show headRow (iblk4 V c 0 t) (V c main_arg6) (V c main_arg7) (ix2 y0 y1)
    = headRow (V c main_v60) (V c main_arg6) (V c main_arg7) (((cfg4.win 3).blk t).view.emb (ix2 y0 y1))
  rw [hrow, headRow_ix2, headRow_ix2]
  refine congrArg (· + _) (matProd_row _ _ _ _ y0 y1 fun k => ?_)
  show V c main_v60 (((cfg4.win 0).blk t).view.emb (ix2 y0 k)) = V c main_v60 _
  refine congrArg _ (funext fun a => Fin.ext ?_)
  match a with
  | ⟨0, _⟩ => show win4_0.index t (0 : Fin 2) * 5000 + 1 * y0.val = t.val * 5000 + y0.val; rw [e0]; omega
  | ⟨1, _⟩ => show win4_0.index t (1 : Fin 2) * 128 + 1 * k.val = k.val; rw [e1]; omega

/-- An index of the result is in point t's block iff each coordinate lies in the block's range on its axis. -/
theorem mem_blk4 (t : Fin cfg4.N) (i : S50000x64.Idx) :
    i ∈ ((cfg4.win 3).blk t).view.set ↔ ∀ a : Fin 2, win4_3.index t a * S5000x64.size a ≤ (i a).val ∧ (i a).val < win4_3.index t a * S5000x64.size a + S5000x64.size a := by
  show i ∈ ((View.whole main_v61).slice (win4_3.rect t)).set ↔ _
  rw [View.set_slice_whole, Rect.mem_set_unit]
  exact Iff.rfl

/-- Every index of the result is in some point's block: row r in block r / 5000. -/
theorem cover4 (i : S50000x64.Idx) : ∃ t : Fin cfg4.N, (cfg4.win 3).flush t = true ∧ i ∈ ((cfg4.win 3).blk t).view.set := by
  have hi0 : (i 0).val < 50000 := (i 0).isLt
  have hi1 : (i 1).val < 64 := (i 1).isLt
  have hN : cfg4.N = 10 := N_4
  let t : Fin cfg4.N := ⟨(i 0).val / 5000, by rw [hN]; omega⟩
  obtain ⟨-, -, -, -, -, e5, e6⟩ := idx4 t
  have e5' : win4_3.index t (0 : Fin 2) = (i 0).val / 5000 := e5
  refine ⟨t, flush4_3 t, ?_⟩
  rw [mem_blk4]
  intro a
  match a with
  | ⟨0, _⟩ => show win4_3.index t (0 : Fin 2) * 5000 ≤ (i 0).val ∧ (i 0).val < win4_3.index t (0 : Fin 2) * 5000 + 5000; rw [e5']; omega
  | ⟨1, _⟩ => show win4_3.index t (1 : Fin 2) * 64 ≤ (i 1).val ∧ (i 1).val < win4_3.index t (1 : Fin 2) * 64 + 64; rw [e6]; omega

/-- The result array after the call: the head applied to the arrays the call finds. -/
theorem arr4 (c : Dev nD) : (dat4 V c).arrAt 3 cfg4.N = headRow (V c main_v60) (V c main_arg6) (V c main_arg7) :=
  (dat4 V c).arrAt_eq_of_cover 3 _ (fun t _ => flushed4 V c t) cover4

end Cert.KernelIdeal.Tiles

end
-- ==== Proof.Tile5.lean ====
/-
  The second head, h·W + b, computed ten row blocks at a time: a row of the result depends only on the same row of h, so what
  point t writes back is block t of the head applied to the whole arrays the call finds, and the ten blocks fill the result.
-/
import proofs.«146126_j2482491097959_1_alg».proof.Proof.Gen.KernelIdeal.Frame
import proofs.«146126_j2482491097959_1_alg».proof.Proof.LibRowSteps
import Idealize.ShloMosaic.Lib.Pipeline.Value

noncomputable section

open scoped BigOperators

namespace Cert.KernelIdeal.Tiles

open Idealize.ShloMosaic Idealize.ShloMosaic.TcCoe Idealize.SL.Sem Idealize.ShloMosaic.ValueIdx
open Idealize.ShloMosaic.Pipeline (Dat)
open Cert.KernelIdeal Cert.KernelIdeal.Gen Cert.Products Cert.Rows

variable (V : (c : Dev nD) → (b : Ref sig .tc) → Buf (Elt Ideal) ((c : Thread nD τ).loc b))

/-- The body's value: the head on the rows block. -/
theorem pay5 (x0 : Vec Ideal S5000x128 .f32) (x1 : Vec Ideal S128x64 .f32) (x2 : Vec Ideal S64 .f32) :
    k5_pay1 (F := Ideal) x0 x1 x2 = headRow x0 x1 x2 := by
  unfold k5_pay1
  simp only [shapeCast_self]
  exact head_vec dot_S5000x128_S128x64_S5000x64_1_0_0_1_n_n rfl rfl rfl rfl rfl rfl x0 x1 x2 _ _ _ _

/-- Where the four windows' blocks sit at point t: rows block t of h and of the result, the whole weight and bias. -/
theorem idx5 : ∀ t : Fin cfg5.N, win5_0.index t (0 : Fin 2) = t.val ∧ win5_0.index t (1 : Fin 2) = 0
    ∧ win5_1.index t (0 : Fin 2) = 0 ∧ win5_1.index t (1 : Fin 2) = 0
    ∧ win5_2.index t (0 : Fin 1) = 0
    ∧ win5_3.index t (0 : Fin 2) = t.val ∧ win5_3.index t (1 : Fin 2) = 0 :=
  (by decide +kernel : ∀ t : Fin grid5.N, _)

/-- The weight's block is the whole weight. -/
theorem iblk5_1 (c : Dev nD) (t : Fin cfg5.N) : (iblk5 V c 1 t : Vec Ideal S128x64 .f32) = V c main_arg8 := by
  obtain ⟨-, -, e2, e3, -, -, -⟩ := idx5 t
  funext y
  show V c main_arg8 (((cfg5.win 1).blk t).view.emb y) = V c main_arg8 y
  refine congrArg _ (funext fun a => Fin.ext ?_)
  match a with
  | ⟨0, _⟩ => show win5_1.index t (0 : Fin 2) * 128 + 1 * (y 0).val = (y 0).val; rw [e2]; omega
  | ⟨1, _⟩ => show win5_1.index t (1 : Fin 2) * 64 + 1 * (y 1).val = (y 1).val; rw [e3]; omega

/-- The bias' block is the whole bias. -/
theorem iblk5_2 (c : Dev nD) (t : Fin cfg5.N) : (iblk5 V c 2 t : Vec Ideal S64 .f32) = V c main_arg9 := by
  obtain ⟨-, -, -, -, e4, -, -⟩ := idx5 t
  funext y
  show V c main_arg9 (((cfg5.win 2).blk t).view.emb y) = V c main_arg9 y
  refine congrArg _ (funext fun a => Fin.ext ?_)
  match a with
  | ⟨0, _⟩ => show win5_2.index t (0 : Fin 1) * 64 + 1 * (y 0).val = (y 0).val; rw [e4]; omega

/-- What point t writes back is block t of the head applied to the arrays the call finds. -/
theorem flushed5 (c : Dev nD) (t : Fin cfg5.N) :
    (dat5 V c).flushed 3 t = ((cfg5.win 3).blk t).view.read (Elt Ideal) (headRow (V c main_v60) (V c main_arg8) (V c main_arg9)) := by
  show (cfg5.win 3).cut (grid5.coords t) ((dat5 V c).after 3 t) = _
  rw [after5_3]
  unfold out5_3
  rw [View.canon_unit_zero zero2]
  simp only [View.ld_unit_zero (S := S5000x128) zero2, View.ld_unit_zero (S := S128x64) zero2, View.ld_unit_zero (S := S64) zero1]
  rw [pay5, iblk5_1, iblk5_2]
  obtain ⟨e0, e1, -, -, -, e5, e6⟩ := idx5 t
  funext j
  obtain ⟨y0, y1, rfl⟩ : ∃ (y0 : Fin 5000) (y1 : Fin 64), j = ix2 y0 y1 := ⟨j 0, j 1, eq_ix2 j⟩
  have ht : t.val < 10 := by have h1 := t.isLt; have hN : cfg5.N = 10 := N_5; omega
  have hrow : ((cfg5.win 3).blk t).view.emb (ix2 y0 y1) = ix2 (⟨t.val * 5000 + y0.val, by omega⟩ : Fin 50000) y1 := by
    funext a; apply Fin.ext
    match a with
    | ⟨0, _⟩ => show win5_3.index t (0 : Fin 2) * 5000 + 1 * y0.val = t.val * 5000 + y0.val; rw [e5]; omega
    | ⟨1, _⟩ => show win5_3.index t (1 : Fin 2) * 64 + 1 * y1.val = y1.val; rw [e6]; omega
  show headRow (iblk5 V c 0 t) (V c main_arg8) (V c main_arg9) (ix2 y0 y1)
    = headRow (V c main_v60) (V c main_arg8) (V c main_arg9) (((cfg5.win 3).blk t).view.emb (ix2 y0 y1))
  rw [hrow, headRow_ix2, headRow_ix2]
  refine congrArg (· + _) (matProd_row _ _ _ _ y0 y1 fun k => ?_)
  show V c main_v60 (((cfg5.win 0).blk t).view.emb (ix2 y0 k)) = V c main_v60 _
  refine congrArg _ (funext fun a => Fin.ext ?_)
  match a with
  | ⟨0, _⟩ => show win5_0.index t (0 : Fin 2) * 5000 + 1 * y0.val = t.val * 5000 + y0.val; rw [e0]; omega
  | ⟨1, _⟩ => show win5_0.index t (1 : Fin 2) * 128 + 1 * k.val = k.val; rw [e1]; omega

/-- An index of the result is in point t's block iff each coordinate lies in the block's range on its axis. -/
theorem mem_blk5 (t : Fin cfg5.N) (i : S50000x64.Idx) :
    i ∈ ((cfg5.win 3).blk t).view.set ↔ ∀ a : Fin 2, win5_3.index t a * S5000x64.size a ≤ (i a).val ∧ (i a).val < win5_3.index t a * S5000x64.size a + S5000x64.size a := by
  show i ∈ ((View.whole main_v62).slice (win5_3.rect t)).set ↔ _
  rw [View.set_slice_whole, Rect.mem_set_unit]
  exact Iff.rfl

/-- Every index of the result is in some point's block: row r in block r / 5000. -/
theorem cover5 (i : S50000x64.Idx) : ∃ t : Fin cfg5.N, (cfg5.win 3).flush t = true ∧ i ∈ ((cfg5.win 3).blk t).view.set := by
  have hi0 : (i 0).val < 50000 := (i 0).isLt
  have hi1 : (i 1).val < 64 := (i 1).isLt
  have hN : cfg5.N = 10 := N_5
  let t : Fin cfg5.N := ⟨(i 0).val / 5000, by rw [hN]; omega⟩
  obtain ⟨-, -, -, -, -, e5, e6⟩ := idx5 t
  have e5' : win5_3.index t (0 : Fin 2) = (i 0).val / 5000 := e5
  refine ⟨t, flush5_3 t, ?_⟩
  rw [mem_blk5]
  intro a
  match a with
  | ⟨0, _⟩ => show win5_3.index t (0 : Fin 2) * 5000 ≤ (i 0).val ∧ (i 0).val < win5_3.index t (0 : Fin 2) * 5000 + 5000; rw [e5']; omega
  | ⟨1, _⟩ => show win5_3.index t (1 : Fin 2) * 64 ≤ (i 1).val ∧ (i 1).val < win5_3.index t (1 : Fin 2) * 64 + 64; rw [e6]; omega

/-- The result array after the call: the head applied to the arrays the call finds. -/
theorem arr5 (c : Dev nD) : (dat5 V c).arrAt 3 cfg5.N = headRow (V c main_v60) (V c main_arg8) (V c main_arg9) :=
  (dat5 V c).arrAt_eq_of_cover 3 _ (fun t _ => flushed5 V c t) cover5

end Cert.KernelIdeal.Tiles

end
-- ==== Proof.Keep.lean ====
/-
  A buffer that no operation of a straight line of host operations writes keeps its contents across the line.
-/
import Idealize.ShloMosaic.Lib.StableHlo.Run

open Idealize.ShloMosaic

/-- A buffer that no operation of a host stretch writes keeps its contents across the stretch. -/
macro "unwritten " ops:ident : tactic => `(tactic| exact StableHlo.after_of_forall_not_mem _ _ (List.forall_iff_forall_mem.mp (by
    simp only [$ops:ident, List.flatten_cons, List.flatten_nil, List.append_nil, List.cons_append,
      List.nil_append, List.Forall, StableHlo.nullary_writes, StableHlo.unary_writes, StableHlo.binary_writes, StableHlo.ternary_writes,
      StableHlo.quaternary_writes, StableHlo.reshape_writes, StableHlo.binaryIndexed_writes, Finset.mem_singleton]
    repeat' apply And.intro
    all_goals exact StableHlo.devRef_ne_of_ne (by decide))))
-- ==== Proof.Stretch0.lean ====
/-
  The host operations before the first call: from the edge list they form the two rows (sources, targets), the nodes'
  degrees by an accumulating scatter of ones onto the targets, dinv = 1 / sqrt (deg + 1), every edge's weight
  dinv(source) · dinv(target) and every node's own weight dinv². Read here as the stage functions of the edge list; the
  other arguments are untouched.
-/
import proofs.«146126_j2482491097959_1_alg».proof.Proof.Gen.KernelIdeal.Frame
import proofs.«146126_j2482491097959_1_alg».proof.Proof.Stages
import proofs.«146126_j2482491097959_1_alg».proof.Proof.Keep

noncomputable section

namespace Cert.KernelIdeal.Tiles

open Idealize.ShloMosaic Idealize.ShloMosaic.TcCoe Idealize.SL.Sem
open Cert.KernelIdeal Cert.KernelIdeal.Gen Cert.KernelIdeal.Facts₀

variable (m : (ℓ : Loc nD τ sig) → Buf (Elt Ideal) ℓ) (ρ : Dev nD → PrngReg)

theorem src0 (c : Dev nD) : W1 m ρ c (Proc.devRef .tc main_v1) = Cert.Vgae.sources (m ((c : Thread nD τ).loc main_arg1)) := by
  show StableHlo.after hostOps0 (W0 m ρ c) (Proc.devRef .tc main_v1) = _
  after_results_simp
  rfl

theorem dst0 (c : Dev nD) : W1 m ρ c (Proc.devRef .tc main_v3) = Cert.Vgae.targets (m ((c : Thread nD τ).loc main_arg1)) := by
  show StableHlo.after hostOps0 (W0 m ρ c) (Proc.devRef .tc main_v3) = _
  after_results_simp
  rfl

theorem ew0 (c : Dev nD) : W1 m ρ c (Proc.devRef .tc main_v27)
    = Cert.Vgae.edgeWeight (Cert.Vgae.sources (m ((c : Thread nD τ).loc main_arg1))) (Cert.Vgae.targets (m ((c : Thread nD τ).loc main_arg1))) := by
  show StableHlo.after hostOps0 (W0 m ρ c) (Proc.devRef .tc main_v27) = _
  after_results_simp
  rfl

theorem sw0 (c : Dev nD) : W1 m ρ c (Proc.devRef .tc main_v28)
    = Cert.Vgae.selfWeight (Cert.Vgae.targets (m ((c : Thread nD τ).loc main_arg1))) := by
  show StableHlo.after hostOps0 (W0 m ρ c) (Proc.devRef .tc main_v28) = _
  after_results_simp
  rfl

theorem keep0_main_arg0 (c : Dev nD) : W1 m ρ c (Proc.devRef .tc main_arg0) = m ((c : Thread nD τ).loc main_arg0) :=
  (show W1 m ρ c (Proc.devRef .tc main_arg0) = W0 m ρ c (Proc.devRef .tc main_arg0) by unwritten hostOps0).trans rfl

theorem keep0_main_arg2 (c : Dev nD) : W1 m ρ c (Proc.devRef .tc main_arg2) = m ((c : Thread nD τ).loc main_arg2) :=
  (show W1 m ρ c (Proc.devRef .tc main_arg2) = W0 m ρ c (Proc.devRef .tc main_arg2) by unwritten hostOps0).trans rfl

theorem keep0_main_arg3 (c : Dev nD) : W1 m ρ c (Proc.devRef .tc main_arg3) = m ((c : Thread nD τ).loc main_arg3) :=
  (show W1 m ρ c (Proc.devRef .tc main_arg3) = W0 m ρ c (Proc.devRef .tc main_arg3) by unwritten hostOps0).trans rfl

theorem keep0_main_arg4 (c : Dev nD) : W1 m ρ c (Proc.devRef .tc main_arg4) = m ((c : Thread nD τ).loc main_arg4) :=
  (show W1 m ρ c (Proc.devRef .tc main_arg4) = W0 m ρ c (Proc.devRef .tc main_arg4) by unwritten hostOps0).trans rfl

theorem keep0_main_arg5 (c : Dev nD) : W1 m ρ c (Proc.devRef .tc main_arg5) = m ((c : Thread nD τ).loc main_arg5) :=
  (show W1 m ρ c (Proc.devRef .tc main_arg5) = W0 m ρ c (Proc.devRef .tc main_arg5) by unwritten hostOps0).trans rfl

theorem keep0_main_arg6 (c : Dev nD) : W1 m ρ c (Proc.devRef .tc main_arg6) = m ((c : Thread nD τ).loc main_arg6) :=
  (show W1 m ρ c (Proc.devRef .tc main_arg6) = W0 m ρ c (Proc.devRef .tc main_arg6) by unwritten hostOps0).trans rfl

theorem keep0_main_arg7 (c : Dev nD) : W1 m ρ c (Proc.devRef .tc main_arg7) = m ((c : Thread nD τ).loc main_arg7) :=
  (show W1 m ρ c (Proc.devRef .tc main_arg7) = W0 m ρ c (Proc.devRef .tc main_arg7) by unwritten hostOps0).trans rfl

theorem keep0_main_arg8 (c : Dev nD) : W1 m ρ c (Proc.devRef .tc main_arg8) = m ((c : Thread nD τ).loc main_arg8) :=
  (show W1 m ρ c (Proc.devRef .tc main_arg8) = W0 m ρ c (Proc.devRef .tc main_arg8) by unwritten hostOps0).trans rfl

theorem keep0_main_arg9 (c : Dev nD) : W1 m ρ c (Proc.devRef .tc main_arg9) = m ((c : Thread nD τ).loc main_arg9) :=
  (show W1 m ρ c (Proc.devRef .tc main_arg9) = W0 m ρ c (Proc.devRef .tc main_arg9) by unwritten hostOps0).trans rfl

end Cert.KernelIdeal.Tiles

end
-- ==== Proof.Stretch1.lean ====
/-
  The host operations between the first projection and the first finishing step: from the projection h, the edge
  list's two rows and the edges' weights they form the aggregate (a gather of the sources' rows, a product with the weights,
  an accumulating scatter onto the targets), and they lay the nodes' own weights out as a column. Every other buffer the
  later calls read is untouched.
-/
import proofs.«146126_j2482491097959_1_alg».proof.Proof.Gen.KernelIdeal.Frame
import proofs.«146126_j2482491097959_1_alg».proof.Proof.Stages
import proofs.«146126_j2482491097959_1_alg».proof.Proof.Keep

noncomputable section

namespace Cert.KernelIdeal.Tiles

open Idealize.ShloMosaic Idealize.ShloMosaic.TcCoe Idealize.SL.Sem
open Cert.KernelIdeal Cert.KernelIdeal.Gen Cert.KernelIdeal.Facts₀

variable (m : (ℓ : Loc nD τ sig) → Buf (Elt Ideal) ℓ) (ρ : Dev nD → PrngReg)

/-- The aggregate the stretch leaves, as the stage function of what the stretch finds. -/
theorem agg1 (c : Dev nD) : W3 m ρ c (Proc.devRef .tc main_v42)
    = Cert.Vgae.aggregate (W2 m ρ c (Proc.devRef .tc main_v1)) (W2 m ρ c (Proc.devRef .tc main_v3))
        (W2 m ρ c (Proc.devRef .tc main_v27)) (W2 m ρ c (Proc.devRef .tc main_v29)) := by
  show StableHlo.after hostOps1 (W2 m ρ c) (Proc.devRef .tc main_v42) = _
  after_results_simp
  rfl

/-- The nodes' own weights laid out as a column. -/
theorem col1 (c : Dev nD) : W3 m ρ c (Proc.devRef .tc main_v43)
    = shapeCast S50000x1 (W2 m ρ c (Proc.devRef .tc main_v28)) Facts₀.shapeCasts_S50000_S50000x1 := by
  show StableHlo.after hostOps1 (W2 m ρ c) (Proc.devRef .tc main_v43) = _
  after_results_simp
  rfl

theorem keep1_main_v29 (c : Dev nD) : W3 m ρ c (Proc.devRef .tc main_v29) = W2 m ρ c (Proc.devRef .tc main_v29) := by
  unwritten hostOps1

theorem keep1_main_arg3 (c : Dev nD) : W3 m ρ c (Proc.devRef .tc main_arg3) = W2 m ρ c (Proc.devRef .tc main_arg3) := by
  unwritten hostOps1

theorem keep1_main_v1 (c : Dev nD) : W3 m ρ c (Proc.devRef .tc main_v1) = W2 m ρ c (Proc.devRef .tc main_v1) := by
  unwritten hostOps1

theorem keep1_main_v3 (c : Dev nD) : W3 m ρ c (Proc.devRef .tc main_v3) = W2 m ρ c (Proc.devRef .tc main_v3) := by
  unwritten hostOps1

theorem keep1_main_v27 (c : Dev nD) : W3 m ρ c (Proc.devRef .tc main_v27) = W2 m ρ c (Proc.devRef .tc main_v27) := by
  unwritten hostOps1

theorem keep1_main_v28 (c : Dev nD) : W3 m ρ c (Proc.devRef .tc main_v28) = W2 m ρ c (Proc.devRef .tc main_v28) := by
  unwritten hostOps1

theorem keep1_main_arg4 (c : Dev nD) : W3 m ρ c (Proc.devRef .tc main_arg4) = W2 m ρ c (Proc.devRef .tc main_arg4) := by
  unwritten hostOps1

theorem keep1_main_arg5 (c : Dev nD) : W3 m ρ c (Proc.devRef .tc main_arg5) = W2 m ρ c (Proc.devRef .tc main_arg5) := by
  unwritten hostOps1

theorem keep1_main_arg6 (c : Dev nD) : W3 m ρ c (Proc.devRef .tc main_arg6) = W2 m ρ c (Proc.devRef .tc main_arg6) := by
  unwritten hostOps1

theorem keep1_main_arg7 (c : Dev nD) : W3 m ρ c (Proc.devRef .tc main_arg7) = W2 m ρ c (Proc.devRef .tc main_arg7) := by
  unwritten hostOps1

theorem keep1_main_arg8 (c : Dev nD) : W3 m ρ c (Proc.devRef .tc main_arg8) = W2 m ρ c (Proc.devRef .tc main_arg8) := by
  unwritten hostOps1

theorem keep1_main_arg9 (c : Dev nD) : W3 m ρ c (Proc.devRef .tc main_arg9) = W2 m ρ c (Proc.devRef .tc main_arg9) := by
  unwritten hostOps1

end Cert.KernelIdeal.Tiles

end
-- ==== Proof.Stretch3.lean ====
/-
  The host operations between the second projection and the second finishing step: from the projection h, the edge
  list's two rows and the edges' weights they form the aggregate (a gather of the sources' rows, a product with the weights,
  an accumulating scatter onto the targets), and they lay the nodes' own weights out as a column. Every other buffer the
  later calls read is untouched.
-/
import proofs.«146126_j2482491097959_1_alg».proof.Proof.Gen.KernelIdeal.Frame
import proofs.«146126_j2482491097959_1_alg».proof.Proof.Stages
import proofs.«146126_j2482491097959_1_alg».proof.Proof.Keep

noncomputable section

namespace Cert.KernelIdeal.Tiles

open Idealize.ShloMosaic Idealize.ShloMosaic.TcCoe Idealize.SL.Sem
open Cert.KernelIdeal Cert.KernelIdeal.Gen Cert.KernelIdeal.Facts₀

variable (m : (ℓ : Loc nD τ sig) → Buf (Elt Ideal) ℓ) (ρ : Dev nD → PrngReg)

/-- The aggregate the stretch leaves, as the stage function of what the stretch finds. -/
theorem agg3 (c : Dev nD) : W6 m ρ c (Proc.devRef .tc main_v58)
    = Cert.Vgae.aggregate (W5 m ρ c (Proc.devRef .tc main_v1)) (W5 m ρ c (Proc.devRef .tc main_v3))
        (W5 m ρ c (Proc.devRef .tc main_v27)) (W5 m ρ c (Proc.devRef .tc main_v45)) := by
  show StableHlo.after hostOps3 (W5 m ρ c) (Proc.devRef .tc main_v58) = _
  after_results_simp
  rfl

/-- The nodes' own weights laid out as a column. -/
theorem col3 (c : Dev nD) : W6 m ρ c (Proc.devRef .tc main_v59)
    = shapeCast S50000x1 (W5 m ρ c (Proc.devRef .tc main_v28)) Facts₀.shapeCasts_S50000_S50000x1 := by
  show StableHlo.after hostOps3 (W5 m ρ c) (Proc.devRef .tc main_v59) = _
  after_results_simp
  rfl

theorem keep3_main_v45 (c : Dev nD) : W6 m ρ c (Proc.devRef .tc main_v45) = W5 m ρ c (Proc.devRef .tc main_v45) := by
  unwritten hostOps3

theorem keep3_main_arg5 (c : Dev nD) : W6 m ρ c (Proc.devRef .tc main_arg5) = W5 m ρ c (Proc.devRef .tc main_arg5) := by
  unwritten hostOps3

theorem keep3_main_arg6 (c : Dev nD) : W6 m ρ c (Proc.devRef .tc main_arg6) = W5 m ρ c (Proc.devRef .tc main_arg6) := by
  unwritten hostOps3

theorem keep3_main_arg7 (c : Dev nD) : W6 m ρ c (Proc.devRef .tc main_arg7) = W5 m ρ c (Proc.devRef .tc main_arg7) := by
  unwritten hostOps3

theorem keep3_main_arg8 (c : Dev nD) : W6 m ρ c (Proc.devRef .tc main_arg8) = W5 m ρ c (Proc.devRef .tc main_arg8) := by
  unwritten hostOps3

theorem keep3_main_arg9 (c : Dev nD) : W6 m ρ c (Proc.devRef .tc main_arg9) = W5 m ρ c (Proc.devRef .tc main_arg9) := by
  unwritten hostOps3

end Cert.KernelIdeal.Tiles

end
-- ==== Proof.Boundaries.lean ====
/-
  The contents of the buffers the calls and the host stretches read and write, boundary by boundary, each as a stage
  function of the launch memory: the first projection, the first aggregate, the first layer's features, the second
  projection, the second aggregate, the second layer's features and the two heads. A buffer a segment does not write keeps
  what it held; a call's result array is what its row blocks fill; a host stretch's results are its operations' values.
-/
import proofs.«146126_j2482491097959_1_alg».proof.Proof.Gen.KernelIdeal.Frame
import proofs.«146126_j2482491097959_1_alg».proof.Proof.Bridge
import proofs.«146126_j2482491097959_1_alg».proof.Proof.Tile0
import proofs.«146126_j2482491097959_1_alg».proof.Proof.Tile1
import proofs.«146126_j2482491097959_1_alg».proof.Proof.Tile2
import proofs.«146126_j2482491097959_1_alg».proof.Proof.Tile3
import proofs.«146126_j2482491097959_1_alg».proof.Proof.Tile4
import proofs.«146126_j2482491097959_1_alg».proof.Proof.Tile5
import proofs.«146126_j2482491097959_1_alg».proof.Proof.Stretch0
import proofs.«146126_j2482491097959_1_alg».proof.Proof.Stretch1
import proofs.«146126_j2482491097959_1_alg».proof.Proof.Stretch3

noncomputable section

namespace Cert.KernelIdeal.Tiles

open Idealize.ShloMosaic Idealize.ShloMosaic.TcCoe Idealize.SL.Sem
open Cert.KernelIdeal Cert.KernelIdeal.Gen

variable (m : (ℓ : Loc nD τ sig) → Buf (Elt Ideal) ℓ) (ρ : Dev nD → PrngReg)

/-- The edges' sources and targets, read off the launch memory. -/
abbrev srcs (c : Dev nD) : Cert.Vgae.EdgeIds := Cert.Vgae.sources (m ((c : Thread nD τ).loc main_arg1))
abbrev dsts (c : Dev nD) : Cert.Vgae.EdgeIds := Cert.Vgae.targets (m ((c : Thread nD τ).loc main_arg1))
/-- The features after the first and after the second layer, as functions of the launch memory. -/
abbrev feat1 (c : Dev nD) : Cert.Vgae.Feat := Cert.Vgae.layer (m ((c : Thread nD τ).loc main_arg1)) (m ((c : Thread nD τ).loc main_arg0)) (m ((c : Thread nD τ).loc main_arg2)) (m ((c : Thread nD τ).loc main_arg3))
abbrev feat2 (c : Dev nD) : Cert.Vgae.Feat := Cert.Vgae.layer (m ((c : Thread nD τ).loc main_arg1)) (feat1 m c) (m ((c : Thread nD τ).loc main_arg4)) (m ((c : Thread nD τ).loc main_arg5))

/-! ## After the first projection -/
theorem at2_main_v1 (c : Dev nD) : W2 m ρ c (Proc.devRef .tc main_v1) = srcs m c :=
  (W2_of_ne m ρ c main_v1 (by decide)).trans (src0 m ρ c)
theorem at2_main_v3 (c : Dev nD) : W2 m ρ c (Proc.devRef .tc main_v3) = dsts m c :=
  (W2_of_ne m ρ c main_v3 (by decide)).trans (dst0 m ρ c)
theorem at2_main_v27 (c : Dev nD) : W2 m ρ c (Proc.devRef .tc main_v27) = Cert.Vgae.edgeWeight (srcs m c) (dsts m c) :=
  (W2_of_ne m ρ c main_v27 (by decide)).trans (ew0 m ρ c)
theorem at2_main_v28 (c : Dev nD) : W2 m ρ c (Proc.devRef .tc main_v28) = Cert.Vgae.selfWeight (dsts m c) :=
  (W2_of_ne m ρ c main_v28 (by decide)).trans (sw0 m ρ c)
theorem at2_main_arg3 (c : Dev nD) : W2 m ρ c (Proc.devRef .tc main_arg3) = (m ((c : Thread nD τ).loc main_arg3)) :=
  (W2_of_ne m ρ c main_arg3 (by decide)).trans (keep0_main_arg3 m ρ c)
theorem at2_main_arg4 (c : Dev nD) : W2 m ρ c (Proc.devRef .tc main_arg4) = (m ((c : Thread nD τ).loc main_arg4)) :=
  (W2_of_ne m ρ c main_arg4 (by decide)).trans (keep0_main_arg4 m ρ c)
theorem at2_main_arg5 (c : Dev nD) : W2 m ρ c (Proc.devRef .tc main_arg5) = (m ((c : Thread nD τ).loc main_arg5)) :=
  (W2_of_ne m ρ c main_arg5 (by decide)).trans (keep0_main_arg5 m ρ c)
theorem at2_main_arg6 (c : Dev nD) : W2 m ρ c (Proc.devRef .tc main_arg6) = (m ((c : Thread nD τ).loc main_arg6)) :=
  (W2_of_ne m ρ c main_arg6 (by decide)).trans (keep0_main_arg6 m ρ c)
theorem at2_main_arg7 (c : Dev nD) : W2 m ρ c (Proc.devRef .tc main_arg7) = (m ((c : Thread nD τ).loc main_arg7)) :=
  (W2_of_ne m ρ c main_arg7 (by decide)).trans (keep0_main_arg7 m ρ c)
theorem at2_main_arg8 (c : Dev nD) : W2 m ρ c (Proc.devRef .tc main_arg8) = (m ((c : Thread nD τ).loc main_arg8)) :=
  (W2_of_ne m ρ c main_arg8 (by decide)).trans (keep0_main_arg8 m ρ c)
theorem at2_main_arg9 (c : Dev nD) : W2 m ρ c (Proc.devRef .tc main_arg9) = (m ((c : Thread nD τ).loc main_arg9)) :=
  (W2_of_ne m ρ c main_arg9 (by decide)).trans (keep0_main_arg9 m ρ c)
theorem at2_main_v29 (c : Dev nD) : W2 m ρ c (Proc.devRef .tc main_v29) = Cert.Vgae.project (m ((c : Thread nD τ).loc main_arg0)) (m ((c : Thread nD τ).loc main_arg2)) := by
  refine (W2_arr m ρ c 2).trans ((arr0 (V1 m ρ) c).trans ?_)
  show Cert.Products.matProd (W1 m ρ c (Proc.devRef .tc main_arg0)) (W1 m ρ c (Proc.devRef .tc main_arg2)) = _
  rw [keep0_main_arg0, keep0_main_arg2, Cert.Vgae.project_eq]

/-! ## After the first aggregate -/
theorem at3_main_v1 (c : Dev nD) : W3 m ρ c (Proc.devRef .tc main_v1) = srcs m c :=
  (keep1_main_v1 m ρ c).trans (at2_main_v1 m ρ c)
theorem at3_main_v3 (c : Dev nD) : W3 m ρ c (Proc.devRef .tc main_v3) = dsts m c :=
  (keep1_main_v3 m ρ c).trans (at2_main_v3 m ρ c)
theorem at3_main_v27 (c : Dev nD) : W3 m ρ c (Proc.devRef .tc main_v27) = Cert.Vgae.edgeWeight (srcs m c) (dsts m c) :=
  (keep1_main_v27 m ρ c).trans (at2_main_v27 m ρ c)
theorem at3_main_v28 (c : Dev nD) : W3 m ρ c (Proc.devRef .tc main_v28) = Cert.Vgae.selfWeight (dsts m c) :=
  (keep1_main_v28 m ρ c).trans (at2_main_v28 m ρ c)
theorem at3_main_arg4 (c : Dev nD) : W3 m ρ c (Proc.devRef .tc main_arg4) = (m ((c : Thread nD τ).loc main_arg4)) :=
  (keep1_main_arg4 m ρ c).trans (at2_main_arg4 m ρ c)
theorem at3_main_arg5 (c : Dev nD) : W3 m ρ c (Proc.devRef .tc main_arg5) = (m ((c : Thread nD τ).loc main_arg5)) :=
  (keep1_main_arg5 m ρ c).trans (at2_main_arg5 m ρ c)
theorem at3_main_arg6 (c : Dev nD) : W3 m ρ c (Proc.devRef .tc main_arg6) = (m ((c : Thread nD τ).loc main_arg6)) :=
  (keep1_main_arg6 m ρ c).trans (at2_main_arg6 m ρ c)
theorem at3_main_arg7 (c : Dev nD) : W3 m ρ c (Proc.devRef .tc main_arg7) = (m ((c : Thread nD τ).loc main_arg7)) :=
  (keep1_main_arg7 m ρ c).trans (at2_main_arg7 m ρ c)
theorem at3_main_arg8 (c : Dev nD) : W3 m ρ c (Proc.devRef .tc main_arg8) = (m ((c : Thread nD τ).loc main_arg8)) :=
  (keep1_main_arg8 m ρ c).trans (at2_main_arg8 m ρ c)
theorem at3_main_arg9 (c : Dev nD) : W3 m ρ c (Proc.devRef .tc main_arg9) = (m ((c : Thread nD τ).loc main_arg9)) :=
  (keep1_main_arg9 m ρ c).trans (at2_main_arg9 m ρ c)
theorem at3_main_v29 (c : Dev nD) : W3 m ρ c (Proc.devRef .tc main_v29) = Cert.Vgae.project (m ((c : Thread nD τ).loc main_arg0)) (m ((c : Thread nD τ).loc main_arg2)) :=
  (keep1_main_v29 m ρ c).trans (at2_main_v29 m ρ c)
theorem at3_main_arg3 (c : Dev nD) : W3 m ρ c (Proc.devRef .tc main_arg3) = (m ((c : Thread nD τ).loc main_arg3)) :=
  (keep1_main_arg3 m ρ c).trans (at2_main_arg3 m ρ c)
theorem at3_main_v42 (c : Dev nD) : W3 m ρ c (Proc.devRef .tc main_v42) = Cert.Vgae.aggregate (srcs m c) (dsts m c) (Cert.Vgae.edgeWeight (srcs m c) (dsts m c)) (Cert.Vgae.project (m ((c : Thread nD τ).loc main_arg0)) (m ((c : Thread nD τ).loc main_arg2))) :=
  (agg1 m ρ c).trans (by rw [at2_main_v1, at2_main_v3, at2_main_v27, at2_main_v29])
theorem at3_main_v43 (c : Dev nD) : W3 m ρ c (Proc.devRef .tc main_v43) = shapeCast S50000x1 (Cert.Vgae.selfWeight (dsts m c)) Facts₀.shapeCasts_S50000_S50000x1 :=
  (col1 m ρ c).trans (by rw [at2_main_v28])

/-! ## After the first layer -/
theorem at4_main_v1 (c : Dev nD) : W4 m ρ c (Proc.devRef .tc main_v1) = srcs m c :=
  (W4_of_ne m ρ c main_v1 (by decide)).trans (at3_main_v1 m ρ c)
theorem at4_main_v3 (c : Dev nD) : W4 m ρ c (Proc.devRef .tc main_v3) = dsts m c :=
  (W4_of_ne m ρ c main_v3 (by decide)).trans (at3_main_v3 m ρ c)
theorem at4_main_v27 (c : Dev nD) : W4 m ρ c (Proc.devRef .tc main_v27) = Cert.Vgae.edgeWeight (srcs m c) (dsts m c) :=
  (W4_of_ne m ρ c main_v27 (by decide)).trans (at3_main_v27 m ρ c)
theorem at4_main_v28 (c : Dev nD) : W4 m ρ c (Proc.devRef .tc main_v28) = Cert.Vgae.selfWeight (dsts m c) :=
  (W4_of_ne m ρ c main_v28 (by decide)).trans (at3_main_v28 m ρ c)
theorem at4_main_arg4 (c : Dev nD) : W4 m ρ c (Proc.devRef .tc main_arg4) = (m ((c : Thread nD τ).loc main_arg4)) :=
  (W4_of_ne m ρ c main_arg4 (by decide)).trans (at3_main_arg4 m ρ c)
theorem at4_main_arg5 (c : Dev nD) : W4 m ρ c (Proc.devRef .tc main_arg5) = (m ((c : Thread nD τ).loc main_arg5)) :=
  (W4_of_ne m ρ c main_arg5 (by decide)).trans (at3_main_arg5 m ρ c)
theorem at4_main_arg6 (c : Dev nD) : W4 m ρ c (Proc.devRef .tc main_arg6) = (m ((c : Thread nD τ).loc main_arg6)) :=
  (W4_of_ne m ρ c main_arg6 (by decide)).trans (at3_main_arg6 m ρ c)
theorem at4_main_arg7 (c : Dev nD) : W4 m ρ c (Proc.devRef .tc main_arg7) = (m ((c : Thread nD τ).loc main_arg7)) :=
  (W4_of_ne m ρ c main_arg7 (by decide)).trans (at3_main_arg7 m ρ c)
theorem at4_main_arg8 (c : Dev nD) : W4 m ρ c (Proc.devRef .tc main_arg8) = (m ((c : Thread nD τ).loc main_arg8)) :=
  (W4_of_ne m ρ c main_arg8 (by decide)).trans (at3_main_arg8 m ρ c)
theorem at4_main_arg9 (c : Dev nD) : W4 m ρ c (Proc.devRef .tc main_arg9) = (m ((c : Thread nD τ).loc main_arg9)) :=
  (W4_of_ne m ρ c main_arg9 (by decide)).trans (at3_main_arg9 m ρ c)
theorem at4_main_v44 (c : Dev nD) : W4 m ρ c (Proc.devRef .tc main_v44) = feat1 m c := by
  refine (W4_arr m ρ c 4).trans ((arr1 (V3 m ρ) c).trans ?_)
  show Cert.Rows.finishCol floor1 (W3 m ρ c (Proc.devRef .tc main_v42)) (W3 m ρ c (Proc.devRef .tc main_v29)) (W3 m ρ c (Proc.devRef .tc main_v43)) (W3 m ρ c (Proc.devRef .tc main_arg3)) = _
  rw [at3_main_v42, at3_main_v29, at3_main_v43, at3_main_arg3]
  exact (Cert.Vgae.finishCol_eq _ _ _ _ _).trans (Cert.Vgae.layer_def _ _ _ _).symm

/-! ## After the second projection -/
theorem at5_main_v1 (c : Dev nD) : W5 m ρ c (Proc.devRef .tc main_v1) = srcs m c :=
  (W5_of_ne m ρ c main_v1 (by decide)).trans (at4_main_v1 m ρ c)
theorem at5_main_v3 (c : Dev nD) : W5 m ρ c (Proc.devRef .tc main_v3) = dsts m c :=
  (W5_of_ne m ρ c main_v3 (by decide)).trans (at4_main_v3 m ρ c)
theorem at5_main_v27 (c : Dev nD) : W5 m ρ c (Proc.devRef .tc main_v27) = Cert.Vgae.edgeWeight (srcs m c) (dsts m c) :=
  (W5_of_ne m ρ c main_v27 (by decide)).trans (at4_main_v27 m ρ c)
theorem at5_main_v28 (c : Dev nD) : W5 m ρ c (Proc.devRef .tc main_v28) = Cert.Vgae.selfWeight (dsts m c) :=
  (W5_of_ne m ρ c main_v28 (by decide)).trans (at4_main_v28 m ρ c)
theorem at5_main_arg5 (c : Dev nD) : W5 m ρ c (Proc.devRef .tc main_arg5) = (m ((c : Thread nD τ).loc main_arg5)) :=
  (W5_of_ne m ρ c main_arg5 (by decide)).trans (at4_main_arg5 m ρ c)
theorem at5_main_arg6 (c : Dev nD) : W5 m ρ c (Proc.devRef .tc main_arg6) = (m ((c : Thread nD τ).loc main_arg6)) :=
  (W5_of_ne m ρ c main_arg6 (by decide)).trans (at4_main_arg6 m ρ c)
theorem at5_main_arg7 (c : Dev nD) : W5 m ρ c (Proc.devRef .tc main_arg7) = (m ((c : Thread nD τ).loc main_arg7)) :=
  (W5_of_ne m ρ c main_arg7 (by decide)).trans (at4_main_arg7 m ρ c)
theorem at5_main_arg8 (c : Dev nD) : W5 m ρ c (Proc.devRef .tc main_arg8) = (m ((c : Thread nD τ).loc main_arg8)) :=
  (W5_of_ne m ρ c main_arg8 (by decide)).trans (at4_main_arg8 m ρ c)
theorem at5_main_arg9 (c : Dev nD) : W5 m ρ c (Proc.devRef .tc main_arg9) = (m ((c : Thread nD τ).loc main_arg9)) :=
  (W5_of_ne m ρ c main_arg9 (by decide)).trans (at4_main_arg9 m ρ c)
theorem at5_main_v45 (c : Dev nD) : W5 m ρ c (Proc.devRef .tc main_v45) = Cert.Vgae.project (feat1 m c) (m ((c : Thread nD τ).loc main_arg4)) := by
  refine (W5_arr m ρ c 2).trans ((arr2 (V4 m ρ) c).trans ?_)
  show Cert.Products.matProd (W4 m ρ c (Proc.devRef .tc main_v44)) (W4 m ρ c (Proc.devRef .tc main_arg4)) = _
  rw [at4_main_v44, at4_main_arg4, Cert.Vgae.project_eq]

/-! ## After the second aggregate -/
theorem at6_main_v45 (c : Dev nD) : W6 m ρ c (Proc.devRef .tc main_v45) = Cert.Vgae.project (feat1 m c) (m ((c : Thread nD τ).loc main_arg4)) :=
  (keep3_main_v45 m ρ c).trans (at5_main_v45 m ρ c)
theorem at6_main_arg5 (c : Dev nD) : W6 m ρ c (Proc.devRef .tc main_arg5) = (m ((c : Thread nD τ).loc main_arg5)) :=
  (keep3_main_arg5 m ρ c).trans (at5_main_arg5 m ρ c)
theorem at6_main_arg6 (c : Dev nD) : W6 m ρ c (Proc.devRef .tc main_arg6) = (m ((c : Thread nD τ).loc main_arg6)) :=
  (keep3_main_arg6 m ρ c).trans (at5_main_arg6 m ρ c)
theorem at6_main_arg7 (c : Dev nD) : W6 m ρ c (Proc.devRef .tc main_arg7) = (m ((c : Thread nD τ).loc main_arg7)) :=
  (keep3_main_arg7 m ρ c).trans (at5_main_arg7 m ρ c)
theorem at6_main_arg8 (c : Dev nD) : W6 m ρ c (Proc.devRef .tc main_arg8) = (m ((c : Thread nD τ).loc main_arg8)) :=
  (keep3_main_arg8 m ρ c).trans (at5_main_arg8 m ρ c)
theorem at6_main_arg9 (c : Dev nD) : W6 m ρ c (Proc.devRef .tc main_arg9) = (m ((c : Thread nD τ).loc main_arg9)) :=
  (keep3_main_arg9 m ρ c).trans (at5_main_arg9 m ρ c)
theorem at6_main_v58 (c : Dev nD) : W6 m ρ c (Proc.devRef .tc main_v58) = Cert.Vgae.aggregate (srcs m c) (dsts m c) (Cert.Vgae.edgeWeight (srcs m c) (dsts m c)) (Cert.Vgae.project (feat1 m c) (m ((c : Thread nD τ).loc main_arg4))) :=
  (agg3 m ρ c).trans (by rw [at5_main_v1, at5_main_v3, at5_main_v27, at5_main_v45])
theorem at6_main_v59 (c : Dev nD) : W6 m ρ c (Proc.devRef .tc main_v59) = shapeCast S50000x1 (Cert.Vgae.selfWeight (dsts m c)) Facts₀.shapeCasts_S50000_S50000x1 :=
  (col3 m ρ c).trans (by rw [at5_main_v28])

/-! ## After the second layer -/
theorem at7_main_arg6 (c : Dev nD) : W7 m ρ c (Proc.devRef .tc main_arg6) = (m ((c : Thread nD τ).loc main_arg6)) :=
  (W7_of_ne m ρ c main_arg6 (by decide)).trans (at6_main_arg6 m ρ c)
theorem at7_main_arg7 (c : Dev nD) : W7 m ρ c (Proc.devRef .tc main_arg7) = (m ((c : Thread nD τ).loc main_arg7)) :=
  (W7_of_ne m ρ c main_arg7 (by decide)).trans (at6_main_arg7 m ρ c)
theorem at7_main_arg8 (c : Dev nD) : W7 m ρ c (Proc.devRef .tc main_arg8) = (m ((c : Thread nD τ).loc main_arg8)) :=
  (W7_of_ne m ρ c main_arg8 (by decide)).trans (at6_main_arg8 m ρ c)
theorem at7_main_arg9 (c : Dev nD) : W7 m ρ c (Proc.devRef .tc main_arg9) = (m ((c : Thread nD τ).loc main_arg9)) :=
  (W7_of_ne m ρ c main_arg9 (by decide)).trans (at6_main_arg9 m ρ c)
theorem at7_main_v60 (c : Dev nD) : W7 m ρ c (Proc.devRef .tc main_v60) = feat2 m c := by
  refine (W7_arr m ρ c 4).trans ((arr3 (V6 m ρ) c).trans ?_)
  show Cert.Rows.finishCol floor3 (W6 m ρ c (Proc.devRef .tc main_v58)) (W6 m ρ c (Proc.devRef .tc main_v45)) (W6 m ρ c (Proc.devRef .tc main_v59)) (W6 m ρ c (Proc.devRef .tc main_arg5)) = _
  rw [at6_main_v58, at6_main_v45, at6_main_v59, at6_main_arg5]
  exact (Cert.Vgae.finishCol_eq _ _ _ _ _).trans (Cert.Vgae.layer_def _ _ _ _).symm

/-! ## The two heads -/
theorem at8_main_v60 (c : Dev nD) : W8 m ρ c (Proc.devRef .tc main_v60) = feat2 m c :=
  ((W8_arr m ρ c 0).trans (((dat4 (V7 m ρ) c).arrAt_in 0 rfl _).trans (A_eq4 (V7 m ρ) c 0))).trans (at7_main_v60 m ρ c)
theorem at8_main_arg8 (c : Dev nD) : W8 m ρ c (Proc.devRef .tc main_arg8) = (m ((c : Thread nD τ).loc main_arg8)) :=
  (W8_of_ne m ρ c main_arg8 (by decide)).trans (at7_main_arg8 m ρ c)
theorem at8_main_arg9 (c : Dev nD) : W8 m ρ c (Proc.devRef .tc main_arg9) = (m ((c : Thread nD τ).loc main_arg9)) :=
  (W8_of_ne m ρ c main_arg9 (by decide)).trans (at7_main_arg9 m ρ c)
theorem at8_main_v61 (c : Dev nD) : W8 m ρ c (Proc.devRef .tc main_v61) = Cert.Vgae.head (feat2 m c) (m ((c : Thread nD τ).loc main_arg6)) (m ((c : Thread nD τ).loc main_arg7)) := by
  refine (W8_arr m ρ c 3).trans ((arr4 (V7 m ρ) c).trans ?_)
  show Cert.Rows.headRow (W7 m ρ c (Proc.devRef .tc main_v60)) (W7 m ρ c (Proc.devRef .tc main_arg6)) (W7 m ρ c (Proc.devRef .tc main_arg7)) = _
  rw [at7_main_v60, at7_main_arg6, at7_main_arg7]
  exact Cert.Vgae.headRow_eq _ _ _

/-- The first result after the run. -/
theorem at9_main_v61 (c : Dev nD) : W9 m ρ c (Proc.devRef .tc main_v61) = Cert.Vgae.head (feat2 m c) (m ((c : Thread nD τ).loc main_arg6)) (m ((c : Thread nD τ).loc main_arg7)) :=
  (W9_of_ne m ρ c main_v61 (by decide)).trans (at8_main_v61 m ρ c)

/-- The second result after the run. -/
theorem at9_main_v62 (c : Dev nD) : W9 m ρ c (Proc.devRef .tc main_v62) = Cert.Vgae.head (feat2 m c) (m ((c : Thread nD τ).loc main_arg8)) (m ((c : Thread nD τ).loc main_arg9)) := by
  refine (W9_arr m ρ c 3).trans ((arr5 (V8 m ρ) c).trans ?_)
  show Cert.Rows.headRow (W8 m ρ c (Proc.devRef .tc main_v60)) (W8 m ρ c (Proc.devRef .tc main_arg8)) (W8 m ρ c (Proc.devRef .tc main_arg9)) = _
  rw [at8_main_v60, at8_main_arg8, at8_main_arg9]
  exact Cert.Vgae.headRow_eq _ _ _

end Cert.KernelIdeal.Tiles

end
-- ==== Proof.RefValue.lean ====
/-
  The reference's two composed results are the stage functions applied in order: two layers over the edge list, then
  the two heads. Its printed term is those functions' definitions written out, so the equation is by unfolding them.
-/
import proofs.«146126_j2482491097959_1_alg».proof.Proof.Gen.ReferenceIdeal.Run
import proofs.«146126_j2482491097959_1_alg».proof.Proof.Stages

noncomputable section

namespace Cert.ReferenceIdeal.RefValue

open Idealize.ShloMosaic Idealize.ShloMosaic.TcCoe Idealize.SL.Sem
open Cert.ReferenceIdeal Cert.ReferenceIdeal.Gen Cert.ReferenceIdeal.Value

variable (m : (ℓ : Loc nD τ sig) → Buf (Elt Ideal) ℓ)

/-- The features after the two layers, as the reference computes them from its launch memory. -/
abbrev feats (c : Dev nD) : Cert.Vgae.Feat :=
  Cert.Vgae.layer (m ((c.tc : Thread nD τ).loc main_arg1))
    (Cert.Vgae.layer (m ((c.tc : Thread nD τ).loc main_arg1)) (m ((c.tc : Thread nD τ).loc main_arg0)) (m ((c.tc : Thread nD τ).loc main_arg2))
      (m ((c.tc : Thread nD τ).loc main_arg3)))
    (m ((c.tc : Thread nD τ).loc main_arg4)) (m ((c.tc : Thread nD τ).loc main_arg5))

set_option maxRecDepth 8192 in
/-- The first result: the first head of the features. -/
theorem first (c : Dev nD) : res_main_v76 (F := Ideal) m c
    = Cert.Vgae.head (feats m c) (m ((c.tc : Thread nD τ).loc main_arg6)) (m ((c.tc : Thread nD τ).loc main_arg7)) := by
  unfold res_main_v76
  rfl

set_option maxRecDepth 8192 in
/-- The second result: the second head of the features. -/
theorem second (c : Dev nD) : res_main_v80 (F := Ideal) m c
    = Cert.Vgae.head (feats m c) (m ((c.tc : Thread nD τ).loc main_arg8)) (m ((c.tc : Thread nD τ).loc main_arg9)) := by
  unfold res_main_v80
  rfl

end Cert.ReferenceIdeal.RefValue

end
-- ==== Proof.lean ====
/-
  A two-layer graph-convolution encoder with two linear heads, as a program of six tiled kernels among host operations,
  against its plain reference, on the extended reals.

  Both programs compute, from node features x, an edge list and the weights,
      h₁ = max (agg (x·W₁) + (x·W₁) · s + b₁, 0),   h₂ = max (agg (h₁·W₂) + (h₁·W₂) · s + b₂, 0),
      μ = h₂·W_μ + b_μ,   log σ² = h₂·W_lv + b_lv,
  where agg sums, for every node, the rows of the sources of the edges ending at it, each weighted by
  dinv(source) · dinv(target), s = dinv² and dinv = 1 / sqrt (1 + in-degree). The kernels compute the four products and
  the two finishing steps ten row blocks at a time (narrowing the products' operands to bf16, which changes nothing on
  extended reals); the degree, the gathers and the accumulating scatters are the same host operations in both programs.
  The operations are the same and in the same order, so no law of arithmetic is needed and the precondition is not used:
  every call's result array is its step applied to the whole arrays it finds (a row of the result depends only on the same
  row of the row-tiled operands), and boundary by boundary the kernel program's buffers are the reference's stages.
-/
import proofs.«146126_j2482491097959_1_alg».proof.Defs
import proofs.«146126_j2482491097959_1_alg».proof.Proof.Gen.Kernel
import proofs.«146126_j2482491097959_1_alg».proof.Proof.Gen.Kernel.Skeleton
import proofs.«146126_j2482491097959_1_alg».proof.Proof.Gen.Kernel.Launch
import proofs.«146126_j2482491097959_1_alg».proof.Proof.Gen.Kernel.Points
import proofs.«146126_j2482491097959_1_alg».proof.Proof.Gen.Kernel.Frame
import proofs.«146126_j2482491097959_1_alg».proof.Proof.Gen.KernelIdeal
import proofs.«146126_j2482491097959_1_alg».proof.Proof.Gen.KernelIdeal.Skeleton
import proofs.«146126_j2482491097959_1_alg».proof.Proof.Gen.KernelIdeal.Launch
import proofs.«146126_j2482491097959_1_alg».proof.Proof.Gen.KernelIdeal.Points
import proofs.«146126_j2482491097959_1_alg».proof.Proof.Gen.KernelIdeal.Frame
import proofs.«146126_j2482491097959_1_alg».proof.Proof.Gen.ReferenceIdeal
import proofs.«146126_j2482491097959_1_alg».proof.Proof.Gen.Pre_finite_inputs
import proofs.«146126_j2482491097959_1_alg».proof.Proof.Gen.ReferenceIdeal.Run
import proofs.«146126_j2482491097959_1_alg».proof.Proof.RunAll
import proofs.«146126_j2482491097959_1_alg».proof.Proof.Boundaries
import proofs.«146126_j2482491097959_1_alg».proof.Proof.RefValue
import Idealize.ShloMosaic.Adequacy
import Idealize.ShloMosaic.Init

noncomputable section

namespace Cert.Proof

open Idealize.ShloMosaic Idealize.SL.Sem

/-- The word-level kernel program runs and keeps its arguments. -/
theorem frame_kernel : Cert.frame_Kernel := fun m ρ _ => Cert.Kernel.Gen.frame m ρ

/-- The idealized kernel program runs and keeps its arguments. -/
theorem frame_kernelIdeal : Cert.frame_KernelIdeal := fun m ρ _ => Cert.KernelIdeal.Gen.frame m ρ

/-- The reference runs and keeps its arguments: its run with the two results dropped. -/
theorem frame_reference : Cert.frame_ReferenceIdeal := fun m ρ _ =>
  (θ_run Cert.ReferenceIdeal.defs _ _).mono (fun _ h c => (h c).2.2) (Cert.ReferenceIdeal.Value.run (F := Ideal) m ρ)

/-- The ideal pass rewrote nothing. -/
theorem preserves : Cert.preserves_Kernel_KernelIdeal := trivial

/-- Both programs end with the two heads of the features after two layers, from memories that agree on the arguments. -/
theorem algebraic : Cert.algebraic_KernelIdeal_ReferenceIdeal := by
  intro m ρ m' ρ' _ hagree
  refine ⟨fun c => Cert.Vgae.head (Cert.KernelIdeal.Tiles.feat2 m c) (m ((c.tc : Thread Cert.KernelIdeal.nD Cert.KernelIdeal.τ).loc Cert.KernelIdeal.main_arg6)) (m ((c.tc : Thread Cert.KernelIdeal.nD Cert.KernelIdeal.τ).loc Cert.KernelIdeal.main_arg7)),
    fun c => Cert.Vgae.head (Cert.KernelIdeal.Tiles.feat2 m c) (m ((c.tc : Thread Cert.KernelIdeal.nD Cert.KernelIdeal.τ).loc Cert.KernelIdeal.main_arg8)) (m ((c.tc : Thread Cert.KernelIdeal.nD Cert.KernelIdeal.τ).loc Cert.KernelIdeal.main_arg9)), ?_, ?_⟩
  · exact (θ_run Cert.KernelIdeal.defs _ _).mono
      (fun r h c => ⟨(h c).1.trans (Cert.KernelIdeal.Tiles.at9_main_v61 m ρ c),
        (h c).2.1.trans (Cert.KernelIdeal.Tiles.at9_main_v62 m ρ c), (h c).2.2⟩)
      (Cert.KernelIdeal.Tiles.run_results (F := Ideal) m ρ)
  · refine (θ_run Cert.ReferenceIdeal.defs _ _).mono (fun r h c => ⟨(h c).1.trans ?_, (h c).2.1.trans ?_, (h c).2.2⟩)
      (Cert.ReferenceIdeal.Value.run (F := Ideal) m' ρ')
    · rw [Cert.ReferenceIdeal.RefValue.first]
      obtain ⟨h0, h1, h2, h3, h4, h5, h6, h7, h8, h9⟩ := hagree c
      dsimp only [Cert.ReferenceIdeal.RefValue.feats, Cert.KernelIdeal.Tiles.feat2, Cert.KernelIdeal.Tiles.feat1]
      rw [h0, h1, h2, h3, h4, h5, h6, h7]
    · rw [Cert.ReferenceIdeal.RefValue.second]
      obtain ⟨h0, h1, h2, h3, h4, h5, h6, h7, h8, h9⟩ := hagree c
      dsimp only [Cert.ReferenceIdeal.RefValue.feats, Cert.KernelIdeal.Tiles.feat2, Cert.KernelIdeal.Tiles.feat1]
      rw [h0, h1, h2, h3, h4, h5, h8, h9]

theorem claim : Cert.Claim := ⟨Cert.Kernel.Gen.facts, Cert.KernelIdeal.Gen.facts, Cert.ReferenceIdeal.Gen.facts, Cert.Pre_finite_inputs.Gen.facts,
  frame_kernel, frame_kernelIdeal, frame_reference, preserves, algebraic⟩

end Cert.Proof

end
